-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S80000x128 : Shape := ⟨2, ![80000, 128]⟩
abbrev S2x1280000 : Shape := ⟨2, ![2, 1280000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S_ : Shape := ⟨0, ![]⟩

class Facts : Prop where
  bcast_S_S80000x128 : S_.BroadcastsInDim S80000x128 (![] : Fin 0 → Fin S80000x128.rank)
  reducesTo_S80000x128_S_d0_1 : S80000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S3x64 .f32) (main_arg6 : FVec F S64x32 .f32) (main_arg7 : FVec F S32 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg5
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S64x32 .f32 := Host.absf main_arg6
  let main_cst_8 : FVec F S_ .f32 := constant S_ .f32 0x7F800000#32
  let main_v25 : FVec F S64x32 .f32 := broadcastInDim S64x32 ![] bcast_S_S64x32 main_cst_8
  let main_v26 : IVec S64x32 1 := cmpf .olt main_v24 main_v25
  let main_c_9 : IVec S_ 1 := constantI S_ 1 1#1
  let main_v27 : IVec S_ 1 := (fun x v => Host.reduce IntOp.andi x v reducesTo_S64x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S80000x128 .f32) (main_arg1 : IVec S2x1280000 32) (main_arg2 : FVec F S128x64 .f32) (main_arg3 : FVec F S64 .f32) (main_arg4 : FVec F S3x64x64 .f32) (main_arg5 : FVec F S3x64 .f32) (main_arg6 : FVec F S64x32 .f32) (main_arg7 : FVec F S32 .f32) : IVec S_ 1 :=
  let main_v0 : FVec F S80000x128 .f32 := Host.absf main_arg0
  let main_cst : FVec F S_ .f32 := constant S_ .f32 0x7F800000#32
  let main_v1 : FVec F S80000x128 .f32 := broadcastInDim S80000x128 ![] bcast_S_S80000x128 main_cst
  let main_v2 : IVec S80000x128 1 := cmpf .olt main_v0 main_v1
  let main_c : IVec S_ 1 := constantI S_ 1 1#1
  let main_v3 : IVec S_ 1 := (fun x v => Host.reduce IntOp.andi x v reducesTo_S80000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x64 .f32 := Host.absf main_arg4
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg5 main_arg6 main_arg7 main_v13 main_v16
-- ==== Kernel.lean ====
abbrev S80000x128 : Shape := ⟨2, ![80000, 128]⟩
abbrev S2x1280000 : Shape := ⟨2, ![2, 1280000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S1x1280000 : Shape := ⟨2, ![1, 1280000]⟩
abbrev S1280000 : Shape := ⟨1, ![1280000]⟩
abbrev S_ : Shape := ⟨0, ![]⟩
abbrev S80000 : Shape := ⟨1, ![80000]⟩
abbrev S1280000x1 : Shape := ⟨2, ![1280000, 1]⟩
abbrev S1x64 : Shape := ⟨2, ![1, 64]⟩
abbrev S80000x64 : Shape := ⟨2, ![80000, 64]⟩
abbrev S4000x128 : Shape := ⟨2, ![4000, 128]⟩
abbrev S4000x64 : Shape := ⟨2, ![4000, 64]⟩
abbrev S1x64x64 : Shape := ⟨3, ![1, 64, 64]⟩
abbrev S64x64 : Shape := ⟨2, ![64, 64]⟩
abbrev S1280000x64 : Shape := ⟨2, ![1280000, 64]⟩
abbrev S80000x1 : Shape := ⟨2, ![80000, 1]⟩
abbrev S4000x1 : Shape := ⟨2, ![4000, 1]⟩
abbrev S1x32 : Shape := ⟨2, ![1, 32]⟩
abbrev S80000x32 : Shape := ⟨2, ![80000, 32]⟩
abbrev S4000x32 : Shape := ⟨2, ![4000, 32]⟩

abbrev nBuf : Space → Nat
  | .hbm => 130
  | .vmem => 57
  | .smem => 0
  | _ => 0

abbrev hbmTy0_0 (i : Nat) : BufTy := match i % 128 with
  | 0 => ⟨S80000x128, .f32⟩
  | 1 => ⟨S2x1280000, .i32⟩
  | 2 => ⟨S128x64, .f32⟩
  | 3 => ⟨S64, .f32⟩
  | 4 => ⟨S3x64x64, .f32⟩
  | 5 => ⟨S3x64, .f32⟩
  | 6 => ⟨S64x32, .f32⟩
  | 7 => ⟨S32, .f32⟩
  | 8 => ⟨S1x1280000, .i32⟩
  | 9 => ⟨S1280000, .i32⟩
  | 10 => ⟨S1x1280000, .i32⟩
  | 11 => ⟨S1280000, .i32⟩
  | 12 => ⟨S_, .f32⟩
  | 13 => ⟨S1280000, .f32⟩
  | 14 => ⟨S_, .f32⟩
  | 15 => ⟨S80000, .f32⟩
  | 16 => ⟨S1280000x1, .i32⟩
  | 17 => ⟨S80000, .f32⟩
  | 18 => ⟨S_, .f32⟩
  | 19 => ⟨S80000, .f32⟩
  | 20 => ⟨S80000, .f32⟩
  | 21 => ⟨S80000, .f32⟩
  | 22 => ⟨S_, .i32⟩
  | 23 => ⟨S1280000, .i32⟩
  | 24 => ⟨S1280000, .i1⟩
  | 25 => ⟨S_, .i32⟩
  | 26 => ⟨S1280000, .i32⟩
  | 27 => ⟨S1280000, .i32⟩
  | 28 => ⟨S1280000, .i32⟩
  | 29 => ⟨S1280000x1, .i32⟩
  | 30 => ⟨S1280000, .f32⟩
  | 31 => ⟨S_, .i32⟩
  | 32 => ⟨S1280000, .i32⟩
  | 33 => ⟨S1280000, .i1⟩
  | 34 => ⟨S_, .i32⟩
  | 35 => ⟨S1280000, .i32⟩
  | 36 => ⟨S1280000, .i32⟩
  | 37 => ⟨S1280000, .i32⟩
  | 38 => ⟨S1280000x1, .i32⟩
  | 39 => ⟨S1280000, .f32⟩
  | 40 => ⟨S1280000, .f32⟩
  | 41 => ⟨S_, .f32⟩
  | 42 => ⟨S80000, .f32⟩
  | 43 => ⟨S80000, .f32⟩
  | 44 => ⟨S80000, .f32⟩
  | 45 => ⟨S1x64, .f32⟩
  | 46 => ⟨S80000x64, .f32⟩
  | 47 => ⟨S_, .f32⟩
  | 48 => ⟨S64, .f32⟩
  | 49 => ⟨S1x64x64, .f32⟩
  | 50 => ⟨S64x64, .f32⟩
  | 51 => ⟨S1x64, .f32⟩
  | 52 => ⟨S80000x64, .f32⟩
  | 53 => ⟨S_, .i32⟩
  | 54 => ⟨S1280000, .i32⟩
  | 55 => ⟨S1280000, .i1⟩
  | 56 => ⟨S_, .i32⟩
  | 57 => ⟨S1280000, .i32⟩
  | 58 => ⟨S1280000, .i32⟩
  | 59 => ⟨S1280000, .i32⟩
  | 60 => ⟨S1280000x1, .i32⟩
  | 61 => ⟨S1280000x64, .f32⟩
  | 62 => ⟨S1280000x1, .f32⟩
  | 63 => ⟨S1280000x64, .f32⟩
  | 64 => ⟨S1280000x64, .f32⟩
  | 65 => ⟨S_, .f32⟩
  | 66 => ⟨S80000x64, .f32⟩
  | 67 => ⟨S1280000x1, .i32⟩
  | 68 => ⟨S80000x64, .f32⟩
  | 69 => ⟨S1x64, .f32⟩
  | 70 => ⟨S64, .f32⟩
  | 71 => ⟨S80000x1, .f32⟩
  | 72 => ⟨S1x64, .f32⟩
  | 73 => ⟨S80000x64, .f32⟩
  | 74 => ⟨S_, .f32⟩
  | 75 => ⟨S64, .f32⟩
  | 76 => ⟨S1x64x64, .f32⟩
  | 77 => ⟨S64x64, .f32⟩
  | 78 => ⟨S1x64, .f32⟩
  | 79 => ⟨S80000x64, .f32⟩
  | 80 => ⟨S_, .i32⟩
  | 81 => ⟨S1280000, .i32⟩
  | 82 => ⟨S1280000, .i1⟩
  | 83 => ⟨S_, .i32⟩
  | 84 => ⟨S1280000, .i32⟩
  | 85 => ⟨S1280000, .i32⟩
  | 86 => ⟨S1280000, .i32⟩
  | 87 => ⟨S1280000x1, .i32⟩
  | 88 => ⟨S1280000x64, .f32⟩
  | 89 => ⟨S1280000x1, .f32⟩
  | 90 => ⟨S1280000x64, .f32⟩
  | 91 => ⟨S1280000x64, .f32⟩
  | 92 => ⟨S_, .f32⟩
  | 93 => ⟨S80000x64, .f32⟩
  | 94 => ⟨S1280000x1, .i32⟩
  | 95 => ⟨S80000x64, .f32⟩
  | 96 => ⟨S1x64, .f32⟩
  | 97 => ⟨S64, .f32⟩
  | 98 => ⟨S80000x1, .f32⟩
  | 99 => ⟨S1x64, .f32⟩
  | 100 => ⟨S80000x64, .f32⟩
  | 101 => ⟨S_, .f32⟩
  | 102 => ⟨S64, .f32⟩
  | 103 => ⟨S1x64x64, .f32⟩
  | 104 => ⟨S64x64, .f32⟩
  | 105 => ⟨S1x64, .f32⟩
  | 106 => ⟨S80000x64, .f32⟩
  | 107 => ⟨S_, .i32⟩
  | 108 => ⟨S1280000, .i32⟩
  | 109 => ⟨S1280000, .i1⟩
  | 110 => ⟨S_, .i32⟩
  | 111 => ⟨S1280000, .i32⟩
  | 112 => ⟨S1280000, .i32⟩
  | 113 => ⟨S1280000, .i32⟩
  | 114 => ⟨S1280000x1, .i32⟩
  | 115 => ⟨S1280000x64, .f32⟩
  | 116 => ⟨S1280000x1, .f32⟩
  | 117 => ⟨S1280000x64, .f32⟩
  | 118 => ⟨S1280000x64, .f32⟩
  | 119 => ⟨S_, .f32⟩
  | 120 => ⟨S80000x64, .f32⟩
  | 121 => ⟨S1280000x1, .i32⟩
  | 122 => ⟨S80000x64, .f32⟩
  | 123 => ⟨S1x64, .f32⟩
  | 124 => ⟨S64, .f32⟩
  | 125 => ⟨S80000x1, .f32⟩
  | 126 => ⟨S1x64, .f32⟩
  | 127 => ⟨S80000x64, .f32⟩
  | _ => ⟨S80000x128, .f32⟩

abbrev hbmTy0_1 (i : Nat) : BufTy := match i % 128 with
  | 0 => ⟨S1x32, .f32⟩
  | 1 => ⟨S80000x32, .f32⟩
  | _ => ⟨S80000x128, .f32⟩

abbrev hbmTy (i : Nat) : BufTy := match i / 128 with
  | 0 => hbmTy0_0 i
  | 1 => hbmTy0_1 i
  | _ => ⟨S80000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S1x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S64x64, .f32⟩
  | .local _ .vmem, ⟨9, _⟩ => ⟨S1x64, .f32⟩
  | .local _ .vmem, ⟨10, _⟩ => ⟨S4000x64, .f32⟩
  | .local _ .vmem, ⟨11, _⟩ => ⟨S4000x64, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S4000x1, .f32⟩
  | .local _ .vmem, ⟨17, _⟩ => ⟨S4000x1, .f32⟩
  | .local _ .vmem, ⟨18, _⟩ => ⟨S1x64, .f32⟩
  | .local _ .vmem, ⟨19, _⟩ => ⟨S4000x64, .f32⟩
  | .local _ .vmem, ⟨20, _⟩ => ⟨S4000x64, .f32⟩
  | .local _ .vmem, ⟨21, _⟩ => ⟨S4000x64, .f32⟩
  | .local _ .vmem, ⟨22, _⟩ => ⟨S4000x64, .f32⟩
  | .local _ .vmem, ⟨23, _⟩ => ⟨S64x64, .f32⟩
  | .local _ .vmem, ⟨24, _⟩ => ⟨S1x64, .f32⟩
  | .local _ .vmem, ⟨25, _⟩ => ⟨S4000x64, .f32⟩
  | .local _ .vmem, ⟨26, _⟩ => ⟨S4000x64, .f32⟩
  | .local _ .vmem, ⟨27, _⟩ => ⟨S4000x64, .f32⟩
  | .local _ .vmem, ⟨28, _⟩ => ⟨S4000x64, .f32⟩
  | .local _ .vmem, ⟨29, _⟩ => ⟨S4000x64, .f32⟩
  | .local _ .vmem, ⟨30, _⟩ => ⟨S4000x64, .f32⟩
  | .local _ .vmem, ⟨31, _⟩ => ⟨S4000x1, .f32⟩
  | .local _ .vmem, ⟨32, _⟩ => ⟨S4000x1, .f32⟩
  | .local _ .vmem, ⟨33, _⟩ => ⟨S1x64, .f32⟩
  | .local _ .vmem, ⟨34, _⟩ => ⟨S4000x64, .f32⟩
  | .local _ .vmem, ⟨35, _⟩ => ⟨S4000x64, .f32⟩
  | .local _ .vmem, ⟨36, _⟩ => ⟨S4000x64, .f32⟩
  | .local _ .vmem, ⟨37, _⟩ => ⟨S4000x64, .f32⟩
  | .local _ .vmem, ⟨38, _⟩ => ⟨S64x64, .f32⟩
  | .local _ .vmem, ⟨39, _⟩ => ⟨S1x64, .f32⟩
  | .local _ .vmem, ⟨40, _⟩ => ⟨S4000x64, .f32⟩
  | .local _ .vmem, ⟨41, _⟩ => ⟨S4000x64, .f32⟩
  | .local _ .vmem, ⟨42, _⟩ => ⟨S4000x64, .f32⟩
  | .local _ .vmem, ⟨43, _⟩ => ⟨S4000x64, .f32⟩
  | .local _ .vmem, ⟨44, _⟩ => ⟨S4000x64, .f32⟩
  | .local _ .vmem, ⟨45, _⟩ => ⟨S4000x64, .f32⟩
  | .local _ .vmem, ⟨46, _⟩ => ⟨S4000x1, .f32⟩
  | .local _ .vmem, ⟨47, _⟩ => ⟨S4000x1, .f32⟩
  | .local _ .vmem, ⟨48, _⟩ => ⟨S1x64, .f32⟩
  | .local _ .vmem, ⟨49, _⟩ => ⟨S4000x64, .f32⟩
  | .local _ .vmem, ⟨50, _⟩ => ⟨S4000x64, .f32⟩
  | .local _ .vmem, ⟨51, _⟩ => ⟨S4000x64, .f32⟩
  | .local _ .vmem, ⟨52, _⟩ => ⟨S4000x64, .f32⟩
  | .local _ .vmem, ⟨53, _⟩ => ⟨S64x32, .f32⟩
  | .local _ .vmem, ⟨54, _⟩ => ⟨S1x32, .f32⟩
  | .local _ .vmem, ⟨55, _⟩ => ⟨S4000x32, .f32⟩
  | .local _ .vmem, ⟨56, _⟩ => ⟨S4000x32, .f32⟩
  | _, _ => ⟨S80000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_9 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_11 : Ref sig .tc := ⟨.hbm, 80, rfl⟩
abbrev main_v59 : Ref sig .tc := ⟨.hbm, 81, rfl⟩
abbrev main_v60 : Ref sig .tc := ⟨.hbm, 82, rfl⟩
abbrev main_c_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_13 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_14 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_c_15 : Ref sig .tc := ⟨.hbm, 107, rfl⟩
abbrev main_v82 : Ref sig .tc := ⟨.hbm, 108, rfl⟩
abbrev main_v83 : Ref sig .tc := ⟨.hbm, 109, rfl⟩
abbrev main_c_16 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_cst_17 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg1_1 : Ref sig .tc := ⟨.vmem, 45, rfl⟩
abbrev cc6_stg2_0 : Ref sig .tc := ⟨.vmem, 46, rfl⟩
abbrev cc6_stg2_1 : Ref sig .tc := ⟨.vmem, 47, rfl⟩
abbrev cc6_stg3_0 : Ref sig .tc := ⟨.vmem, 48, rfl⟩
abbrev cc6_stg4_0 : Ref sig .tc := ⟨.vmem, 49, rfl⟩
abbrev cc6_stg4_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg2_0 : Ref sig .tc := ⟨.vmem, 54, rfl⟩
abbrev cc7_stg3_0 : Ref sig .tc := ⟨.vmem, 55, rfl⟩
abbrev cc7_stg3_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem4_0 : DmaSem sig := 34
abbrev cc4_sem4_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem1_1 : DmaSem sig := 45
abbrev cc6_sem2_0 : DmaSem sig := 46
abbrev cc6_sem2_1 : DmaSem sig := 47
abbrev cc6_sem3_0 : DmaSem sig := 48
abbrev cc6_sem4_0 : DmaSem sig := 49
abbrev cc6_sem4_1 : DmaSem sig := 50
abbrev cc7_sem0_0 : DmaSem sig := 51
abbrev cc7_sem0_1 : DmaSem sig := 52
abbrev cc7_sem1_0 : DmaSem sig := 53
abbrev cc7_sem2_0 : DmaSem sig := 54
abbrev cc7_sem3_0 : DmaSem sig := 55
abbrev cc7_sem3_1 : DmaSem sig := 56

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S4000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S4000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S4000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S4000x32 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S_S80000 : S_.BroadcastsInDim S80000 (![] : Fin 0 → Fin S80000.rank)
  bcast_S1280000_S1280000x1_0 : S1280000.BroadcastsInDim S1280000x1 (![0] : Fin 1 → Fin S1280000x1.rank)
  shapeCasts_S64_S1x64 : S64.ShapeCasts S1x64
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  bcast_S_S64 : S_.BroadcastsInDim S64 (![] : Fin 0 → Fin S64.rank)
  slices_S3x64x64_S1x64x64_0_0_0 : S3x64x64.Slices ![0, 0, 0] S1x64x64
  shapeCasts_S1x64x64_S64x64 : S1x64x64.ShapeCasts S64x64
  shapeCasts_S4000x64_S4000x64 : S4000x64.ShapeCasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S1280000x1_S1280000x64_0_1 : S1280000x1.BroadcastsInDim S1280000x64 (![0, 1] : Fin 2 → Fin S1280000x64.rank)
  bcast_S_S80000x64 : S_.BroadcastsInDim S80000x64 (![] : Fin 0 → Fin S80000x64.rank)
  slices_S3x64_S1x64_0_0 : S3x64.Slices ![0, 0] S1x64
  shapeCasts_S1x64_S64 : S1x64.ShapeCasts S64
  shapeCasts_S80000_S80000x1 : S80000.ShapeCasts S80000x1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S4000x32_S4000x32_0_0 : ∀ a, (![0, 0] : Fin 2 → Nat) a + S4000x32.size a ≤ S4000x32.size a
  h_S4000x32 : 0 < S4000x32.numel
  scatter_S80000_S1280000x1_S1280000_n_0_0_1_wf : ScatterDims.WF S80000 S1280000x1 S1280000 [] [0] [0] 1
  gather_S80000_S1280000x1_S1280000_n_0_n_n_0_1_1_wf : GatherDims.WF S80000 S1280000x1 S1280000 [] [0] [] [0] [] 1 ![1]
  dot_S4000x128_S128x64_S4000x64_1_0_0_1_n_n_wf : DotDims.WF S4000x128 S128x64 S4000x64 [1] [0] [0] [1] [] []
  dot_S4000x64_S64x64_S4000x64_1_0_0_1_n_n_wf : DotDims.WF S4000x64 S64x64 S4000x64 [1] [0] [0] [1] [] []
  gather_S80000x64_S1280000x1_S1280000x64_1_0_n_n_0_1_164_wf : GatherDims.WF S80000x64 S1280000x1 S1280000x64 [1] [0] [] [0] [] 1 ![1, 64]
  scatter_S80000x64_S1280000x1_S1280000x64_1_0_0_1_wf : ScatterDims.WF S80000x64 S1280000x1 S1280000x64 [1] [0] [0] 1
  dot_S4000x64_S64x32_S4000x32_1_0_0_1_n_n_wf : DotDims.WF S4000x64 S64x32 S4000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S80000x128.size a
  hwx0_0 : ∀ i : grid0.Coords, EltTy.bits .f32 = 32 ∨ (Rect.block (s := S80000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S80000x64.size a
  hwx0_3 : ∀ i : grid0.Coords, EltTy.bits .f32 = 32 ∨ (Rect.block (s := S80000x64) S4000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S80000x64.size a
  hwx1_0 : ∀ i : grid1.Coords, EltTy.bits .f32 = 32 ∨ (Rect.block (s := S80000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x64.size a ≤ S80000x64.size a
  hwx1_3 : ∀ i : grid1.Coords, EltTy.bits .f32 = 32 ∨ (Rect.block (s := S80000x64) S4000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S80000x64.size a
  hwx2_0 : ∀ i : grid2.Coords, EltTy.bits .f32 = 32 ∨ (Rect.block (s := S80000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S80000x64.size a
  hwx2_1 : ∀ i : grid2.Coords, EltTy.bits .f32 = 32 ∨ (Rect.block (s := S80000x64) S4000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S80000x1.size a
  hwx2_2 : ∀ i : grid2.Coords, EltTy.bits .f32 = 32 ∨ (Rect.block (s := S80000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S80000x64.size a
  hwx2_4 : ∀ i : grid2.Coords, EltTy.bits .f32 = 32 ∨ (Rect.block (s := S80000x64) S4000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S80000x64.size a
  hwx3_0 : ∀ i : grid3.Coords, EltTy.bits .f32 = 32 ∨ (Rect.block (s := S80000x64) S4000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x64.size a ≤ S80000x64.size a
  hwx3_3 : ∀ i : grid3.Coords, EltTy.bits .f32 = 32 ∨ (Rect.block (s := S80000x64) S4000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S80000x64.size a
  hwx4_0 : ∀ i : grid4.Coords, EltTy.bits .f32 = 32 ∨ (Rect.block (s := S80000x64) S4000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x64.size a ≤ S80000x64.size a
  hwx4_1 : ∀ i : grid4.Coords, EltTy.bits .f32 = 32 ∨ (Rect.block (s := S80000x64) S4000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x1.size a ≤ S80000x1.size a
  hwx4_2 : ∀ i : grid4.Coords, EltTy.bits .f32 = 32 ∨ (Rect.block (s := S80000x1) S4000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x64.size a ≤ S80000x64.size a
  hwx4_4 : ∀ i : grid4.Coords, EltTy.bits .f32 = 32 ∨ (Rect.block (s := S80000x64) S4000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x64.size a ≤ S80000x64.size a
  hwx5_0 : ∀ i : grid5.Coords, EltTy.bits .f32 = 32 ∨ (Rect.block (s := S80000x64) S4000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4000x64.size a ≤ S80000x64.size a
  hwx5_3 : ∀ i : grid5.Coords, EltTy.bits .f32 = 32 ∨ (Rect.block (s := S80000x64) S4000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x64.size a ≤ S80000x64.size a
  hwx6_0 : ∀ i : grid6.Coords, EltTy.bits .f32 = 32 ∨ (Rect.block (s := S80000x64) S4000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x64.size a ≤ S80000x64.size a
  hwx6_1 : ∀ i : grid6.Coords, EltTy.bits .f32 = 32 ∨ (Rect.block (s := S80000x64) S4000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x1.size a ≤ S80000x1.size a
  hwx6_2 : ∀ i : grid6.Coords, EltTy.bits .f32 = 32 ∨ (Rect.block (s := S80000x1) S4000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S4000x64.size a ≤ S80000x64.size a
  hwx6_4 : ∀ i : grid6.Coords, EltTy.bits .f32 = 32 ∨ (Rect.block (s := S80000x64) S4000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4000x64.size a ≤ S80000x64.size a
  hwx7_0 : ∀ i : grid7.Coords, EltTy.bits .f32 = 32 ∨ (Rect.block (s := S80000x64) S4000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x32.size a ≤ S64x32.size a
  hwx7_1 : ∀ i : grid7.Coords, EltTy.bits .f32 = 32 ∨ (Rect.block (s := S64x32) S64x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S4000x32.size a ≤ S80000x32.size a
  hwx7_3 : ∀ i : grid7.Coords, EltTy.bits .f32 = 32 ∨ (Rect.block (s := S80000x32) S4000x32.size (cc7_transform_3 i) (hinb7_3 i)).WholeWords (EltTy.packing .f32)

variable [Facts₀]

def scatter_S80000_S1280000x1_S1280000_n_0_0_1 : ScatterDims S80000 S1280000x1 S1280000 where
  updateWindowDims := []
  insertedWindowDims := [0]
  scatterDimsToOperandDims := [0]
  indexVectorDim := 1
  wf := scatter_S80000_S1280000x1_S1280000_n_0_0_1_wf
def gather_S80000_S1280000x1_S1280000_n_0_n_n_0_1_1 : GatherDims S80000 S1280000x1 S1280000 where
  offsetDims := []
  collapsedSliceDims := [0]
  operandBatchingDims := []
  startIndicesBatchingDims := []
  startIndexMap := [0]
  indexVectorDim := 1
  sliceSizes := ![1]
  wf := gather_S80000_S1280000x1_S1280000_n_0_n_n_0_1_1_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def scatter_S80000x64_S1280000x1_S1280000x64_1_0_0_1 : ScatterDims S80000x64 S1280000x1 S1280000x64 where
  updateWindowDims := [1]
  insertedWindowDims := [0]
  scatterDimsToOperandDims := [0]
  indexVectorDim := 1
  wf := scatter_S80000x64_S1280000x1_S1280000x64_1_0_0_1_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v30) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S4000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v51) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v52) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S4000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v53) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v56) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S4000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v71) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v58) S4000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v74) S4000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v75) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v76) S4000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v76) S4000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v79) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v80) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v81) S4000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v94) S4000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v81) S4000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v97) S4000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v98) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v99) S4000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v99) S4000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg6) S64x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v100) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v101) S4000x32.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S80000x128 : Shape := ⟨2, ![80000, 128]⟩
abbrev S2x1280000 : Shape := ⟨2, ![2, 1280000]⟩
abbrev S128x64 : Shape := ⟨2, ![128, 64]⟩
abbrev S64 : Shape := ⟨1, ![64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S1x1280000 : Shape := ⟨2, ![1, 1280000]⟩
abbrev S1280000 : Shape := ⟨1, ![1280000]⟩
abbrev S_ : Shape := ⟨0, ![]⟩
abbrev S80000 : Shape := ⟨1, ![80000]⟩
abbrev S1280000x1 : Shape := ⟨2, ![1280000, 1]⟩
abbrev S80000x64 : Shape := ⟨2, ![80000, 64]⟩
abbrev S1x64 : Shape := ⟨2, ![1, 64]⟩
abbrev S1x64x64 : Shape := ⟨3, ![1, 64, 64]⟩
abbrev S64x64 : Shape := ⟨2, ![64, 64]⟩
abbrev S1280000x64 : Shape := ⟨2, ![1280000, 64]⟩
abbrev S80000x1 : Shape := ⟨2, ![80000, 1]⟩
abbrev S80000x32 : Shape := ⟨2, ![80000, 32]⟩
abbrev S1x32 : Shape := ⟨2, ![1, 32]⟩

abbrev nBuf : Space → Nat
  | .hbm => 158
  | .vmem => 0
  | .smem => 0
  | _ => 0

abbrev hbmTy0_0 (i : Nat) : BufTy := match i % 128 with
  | 0 => ⟨S80000x128, .f32⟩
  | 1 => ⟨S2x1280000, .i32⟩
  | 2 => ⟨S128x64, .f32⟩
  | 3 => ⟨S64, .f32⟩
  | 4 => ⟨S3x64x64, .f32⟩
  | 5 => ⟨S3x64, .f32⟩
  | 6 => ⟨S64x32, .f32⟩
  | 7 => ⟨S32, .f32⟩
  | 8 => ⟨S1x1280000, .i32⟩
  | 9 => ⟨S1280000, .i32⟩
  | 10 => ⟨S1x1280000, .i32⟩
  | 11 => ⟨S1280000, .i32⟩
  | 12 => ⟨S_, .f32⟩
  | 13 => ⟨S1280000, .f32⟩
  | 14 => ⟨S_, .f32⟩
  | 15 => ⟨S80000, .f32⟩
  | 16 => ⟨S1280000x1, .i32⟩
  | 17 => ⟨S80000, .f32⟩
  | 18 => ⟨S_, .f32⟩
  | 19 => ⟨S80000, .f32⟩
  | 20 => ⟨S80000, .f32⟩
  | 21 => ⟨S80000, .f32⟩
  | 22 => ⟨S_, .i32⟩
  | 23 => ⟨S1280000, .i32⟩
  | 24 => ⟨S1280000, .i1⟩
  | 25 => ⟨S_, .i32⟩
  | 26 => ⟨S1280000, .i32⟩
  | 27 => ⟨S1280000, .i32⟩
  | 28 => ⟨S1280000, .i32⟩
  | 29 => ⟨S1280000x1, .i32⟩
  | 30 => ⟨S1280000, .f32⟩
  | 31 => ⟨S_, .i32⟩
  | 32 => ⟨S1280000, .i32⟩
  | 33 => ⟨S1280000, .i1⟩
  | 34 => ⟨S_, .i32⟩
  | 35 => ⟨S1280000, .i32⟩
  | 36 => ⟨S1280000, .i32⟩
  | 37 => ⟨S1280000, .i32⟩
  | 38 => ⟨S1280000x1, .i32⟩
  | 39 => ⟨S1280000, .f32⟩
  | 40 => ⟨S1280000, .f32⟩
  | 41 => ⟨S_, .f32⟩
  | 42 => ⟨S80000, .f32⟩
  | 43 => ⟨S80000, .f32⟩
  | 44 => ⟨S80000, .f32⟩
  | 45 => ⟨S80000x64, .f32⟩
  | 46 => ⟨S1x64, .f32⟩
  | 47 => ⟨S80000x64, .f32⟩
  | 48 => ⟨S80000x64, .f32⟩
  | 49 => ⟨S1x64x64, .f32⟩
  | 50 => ⟨S64x64, .f32⟩
  | 51 => ⟨S80000x64, .f32⟩
  | 52 => ⟨S_, .i32⟩
  | 53 => ⟨S1280000, .i32⟩
  | 54 => ⟨S1280000, .i1⟩
  | 55 => ⟨S_, .i32⟩
  | 56 => ⟨S1280000, .i32⟩
  | 57 => ⟨S1280000, .i32⟩
  | 58 => ⟨S1280000, .i32⟩
  | 59 => ⟨S1280000x1, .i32⟩
  | 60 => ⟨S1280000x64, .f32⟩
  | 61 => ⟨S1280000x1, .f32⟩
  | 62 => ⟨S1280000x64, .f32⟩
  | 63 => ⟨S1280000x64, .f32⟩
  | 64 => ⟨S_, .f32⟩
  | 65 => ⟨S80000x64, .f32⟩
  | 66 => ⟨S1280000x1, .i32⟩
  | 67 => ⟨S80000x64, .f32⟩
  | 68 => ⟨S80000x1, .f32⟩
  | 69 => ⟨S80000x64, .f32⟩
  | 70 => ⟨S80000x64, .f32⟩
  | 71 => ⟨S80000x64, .f32⟩
  | 72 => ⟨S1x64, .f32⟩
  | 73 => ⟨S64, .f32⟩
  | 74 => ⟨S1x64, .f32⟩
  | 75 => ⟨S80000x64, .f32⟩
  | 76 => ⟨S80000x64, .f32⟩
  | 77 => ⟨S_, .f32⟩
  | 78 => ⟨S80000x64, .f32⟩
  | 79 => ⟨S80000x64, .i1⟩
  | 80 => ⟨S_, .f32⟩
  | 81 => ⟨S80000x64, .f32⟩
  | 82 => ⟨S80000x64, .f32⟩
  | 83 => ⟨S80000x64, .f32⟩
  | 84 => ⟨S1x64x64, .f32⟩
  | 85 => ⟨S64x64, .f32⟩
  | 86 => ⟨S80000x64, .f32⟩
  | 87 => ⟨S_, .i32⟩
  | 88 => ⟨S1280000, .i32⟩
  | 89 => ⟨S1280000, .i1⟩
  | 90 => ⟨S_, .i32⟩
  | 91 => ⟨S1280000, .i32⟩
  | 92 => ⟨S1280000, .i32⟩
  | 93 => ⟨S1280000, .i32⟩
  | 94 => ⟨S1280000x1, .i32⟩
  | 95 => ⟨S1280000x64, .f32⟩
  | 96 => ⟨S1280000x1, .f32⟩
  | 97 => ⟨S1280000x64, .f32⟩
  | 98 => ⟨S1280000x64, .f32⟩
  | 99 => ⟨S_, .f32⟩
  | 100 => ⟨S80000x64, .f32⟩
  | 101 => ⟨S1280000x1, .i32⟩
  | 102 => ⟨S80000x64, .f32⟩
  | 103 => ⟨S80000x1, .f32⟩
  | 104 => ⟨S80000x64, .f32⟩
  | 105 => ⟨S80000x64, .f32⟩
  | 106 => ⟨S80000x64, .f32⟩
  | 107 => ⟨S1x64, .f32⟩
  | 108 => ⟨S64, .f32⟩
  | 109 => ⟨S1x64, .f32⟩
  | 110 => ⟨S80000x64, .f32⟩
  | 111 => ⟨S80000x64, .f32⟩
  | 112 => ⟨S_, .f32⟩
  | 113 => ⟨S80000x64, .f32⟩
  | 114 => ⟨S80000x64, .i1⟩
  | 115 => ⟨S_, .f32⟩
  | 116 => ⟨S80000x64, .f32⟩
  | 117 => ⟨S80000x64, .f32⟩
  | 118 => ⟨S80000x64, .f32⟩
  | 119 => ⟨S1x64x64, .f32⟩
  | 120 => ⟨S64x64, .f32⟩
  | 121 => ⟨S80000x64, .f32⟩
  | 122 => ⟨S_, .i32⟩
  | 123 => ⟨S1280000, .i32⟩
  | 124 => ⟨S1280000, .i1⟩
  | 125 => ⟨S_, .i32⟩
  | 126 => ⟨S1280000, .i32⟩
  | 127 => ⟨S1280000, .i32⟩
  | _ => ⟨S80000x128, .f32⟩

abbrev hbmTy0_1 (i : Nat) : BufTy := match i % 128 with
  | 0 => ⟨S1280000, .i32⟩
  | 1 => ⟨S1280000x1, .i32⟩
  | 2 => ⟨S1280000x64, .f32⟩
  | 3 => ⟨S1280000x1, .f32⟩
  | 4 => ⟨S1280000x64, .f32⟩
  | 5 => ⟨S1280000x64, .f32⟩
  | 6 => ⟨S_, .f32⟩
  | 7 => ⟨S80000x64, .f32⟩
  | 8 => ⟨S1280000x1, .i32⟩
  | 9 => ⟨S80000x64, .f32⟩
  | 10 => ⟨S80000x1, .f32⟩
  | 11 => ⟨S80000x64, .f32⟩
  | 12 => ⟨S80000x64, .f32⟩
  | 13 => ⟨S80000x64, .f32⟩
  | 14 => ⟨S1x64, .f32⟩
  | 15 => ⟨S64, .f32⟩
  | 16 => ⟨S1x64, .f32⟩
  | 17 => ⟨S80000x64, .f32⟩
  | 18 => ⟨S80000x64, .f32⟩
  | 19 => ⟨S_, .f32⟩
  | 20 => ⟨S80000x64, .f32⟩
  | 21 => ⟨S80000x64, .i1⟩
  | 22 => ⟨S_, .f32⟩
  | 23 => ⟨S80000x64, .f32⟩
  | 24 => ⟨S80000x64, .f32⟩
  | 25 => ⟨S80000x64, .f32⟩
  | 26 => ⟨S80000x32, .f32⟩
  | 27 => ⟨S1x32, .f32⟩
  | 28 => ⟨S80000x32, .f32⟩
  | 29 => ⟨S80000x32, .f32⟩
  | _ => ⟨S80000x128, .f32⟩

abbrev hbmTy (i : Nat) : BufTy := match i / 128 with
  | 0 => hbmTy0_0 i
  | 1 => hbmTy0_1 i
  | _ => ⟨S80000x128, .f32⟩

abbrev bufTy : (tb : Table) → Fin (tcTables nBuf tb) → BufTy
  | .hbm, ⟨i, _⟩ => hbmTy i
  | _, _ => ⟨S80000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_9 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_c_11 : Ref sig .tc := ⟨.hbm, 87, rfl⟩
abbrev main_v66 : Ref sig .tc := ⟨.hbm, 88, rfl⟩
abbrev main_v67 : Ref sig .tc := ⟨.hbm, 89, rfl⟩
abbrev main_c_12 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_13 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_14 : Ref sig .tc := ⟨.hbm, 112, rfl⟩
abbrev main_v88 : Ref sig .tc := ⟨.hbm, 113, rfl⟩
abbrev main_v89 : Ref sig .tc := ⟨.hbm, 114, rfl⟩
abbrev main_cst_15 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_c_16 : Ref sig .tc := ⟨.hbm, 122, rfl⟩
abbrev main_v96 : Ref sig .tc := ⟨.hbm, 123, rfl⟩
abbrev main_v97 : Ref sig .tc := ⟨.hbm, 124, rfl⟩
abbrev main_c_17 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_cst_18 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_cst_19 : Ref sig .tc := ⟨.hbm, 147, rfl⟩
abbrev main_v118 : Ref sig .tc := ⟨.hbm, 148, rfl⟩
abbrev main_v119 : Ref sig .tc := ⟨.hbm, 149, rfl⟩
abbrev main_cst_20 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S_S80000 : S_.BroadcastsInDim S80000 (![] : Fin 0 → Fin S80000.rank)
  bcast_S1280000_S1280000x1_0 : S1280000.BroadcastsInDim S1280000x1 (![0] : Fin 1 → Fin S1280000x1.rank)
  bcast_S64_S1x64_1 : S64.BroadcastsInDim S1x64 (![1] : Fin 1 → Fin S1x64.rank)
  bcast_S1x64_S80000x64_0_1 : S1x64.BroadcastsInDim S80000x64 (![0, 1] : Fin 2 → Fin S80000x64.rank)
  slices_S3x64x64_S1x64x64_0_0_0 : S3x64x64.Slices ![0, 0, 0] S1x64x64
  shapeCasts_S1x64x64_S64x64 : S1x64x64.ShapeCasts S64x64
  bcast_S1280000x1_S1280000x64_0_1 : S1280000x1.BroadcastsInDim S1280000x64 (![0, 1] : Fin 2 → Fin S1280000x64.rank)
  bcast_S_S80000x64 : S_.BroadcastsInDim S80000x64 (![] : Fin 0 → Fin S80000x64.rank)
  bcast_S80000_S80000x1_0 : S80000.BroadcastsInDim S80000x1 (![0] : Fin 1 → Fin S80000x1.rank)
  bcast_S80000x1_S80000x64_0_1 : S80000x1.BroadcastsInDim S80000x64 (![0, 1] : Fin 2 → Fin S80000x64.rank)
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S32_S1x32_1 : S32.BroadcastsInDim S1x32 (![1] : Fin 1 → Fin S1x32.rank)
  bcast_S1x32_S80000x32_0_1 : S1x32.BroadcastsInDim S80000x32 (![0, 1] : Fin 2 → Fin S80000x32.rank)
  scatter_S80000_S1280000x1_S1280000_n_0_0_1_wf : ScatterDims.WF S80000 S1280000x1 S1280000 [] [0] [0] 1
  gather_S80000_S1280000x1_S1280000_n_0_n_n_0_1_1_wf : GatherDims.WF S80000 S1280000x1 S1280000 [] [0] [] [0] [] 1 ![1]
  dot_S80000x128_S128x64_S80000x64_1_0_0_1_n_n_wf : DotDims.WF S80000x128 S128x64 S80000x64 [1] [0] [0] [1] [] []
  dot_S80000x64_S64x64_S80000x64_1_0_0_1_n_n_wf : DotDims.WF S80000x64 S64x64 S80000x64 [1] [0] [0] [1] [] []
  gather_S80000x64_S1280000x1_S1280000x64_1_0_n_n_0_1_164_wf : GatherDims.WF S80000x64 S1280000x1 S1280000x64 [1] [0] [] [0] [] 1 ![1, 64]
  scatter_S80000x64_S1280000x1_S1280000x64_1_0_0_1_wf : ScatterDims.WF S80000x64 S1280000x1 S1280000x64 [1] [0] [0] 1
  dot_S80000x64_S64x32_S80000x32_1_0_0_1_n_n_wf : DotDims.WF S80000x64 S64x32 S80000x32 [1] [0] [0] [1] [] []

variable [Facts₀]

def scatter_S80000_S1280000x1_S1280000_n_0_0_1 : ScatterDims S80000 S1280000x1 S1280000 where
  updateWindowDims := []
  insertedWindowDims := [0]
  scatterDimsToOperandDims := [0]
  indexVectorDim := 1
  wf := scatter_S80000_S1280000x1_S1280000_n_0_0_1_wf
def gather_S80000_S1280000x1_S1280000_n_0_n_n_0_1_1 : GatherDims S80000 S1280000x1 S1280000 where
  offsetDims := []
  collapsedSliceDims := [0]
  operandBatchingDims := []
  startIndicesBatchingDims := []
  startIndexMap := [0]
  indexVectorDim := 1
  sliceSizes := ![1]
  wf := gather_S80000_S1280000x1_S1280000_n_0_n_n_0_1_1_wf
def dot_S80000x128_S128x64_S80000x64_1_0_0_1_n_n : DotDims S80000x128 S128x64 S80000x64 where
  lhsContracting := [1]
  rhsContracting := [0]
  lhsNonContracting := [0]
  rhsNonContracting := [1]
  lhsBatch := []
  rhsBatch := []
  wf := dot_S80000x128_S128x64_S80000x64_1_0_0_1_n_n_wf
def dot_S80000x64_S64x64_S80000x64_1_0_0_1_n_n : DotDims S80000x64 S64x64 S80000x64 where
  lhsContracting := [1]
  rhsContracting := [0]
  lhsNonContracting := [0]
  rhsNonContracting := [1]
  lhsBatch := []
  rhsBatch := []
  wf := dot_S80000x64_S64x64_S80000x64_1_0_0_1_n_n_wf
def gather_S80000x64_S1280000x1_S1280000x64_1_0_n_n_0_1_164 : GatherDims S80000x64 S1280000x1 S1280000x64 where
  offsetDims := [1]
  collapsedSliceDims := [0]
  operandBatchingDims := []
  startIndicesBatchingDims := []
  startIndexMap := [0]
  indexVectorDim := 1
  sliceSizes := ![1, 64]
  wf := gather_S80000x64_S1280000x1_S1280000x64_1_0_n_n_0_1_164_wf
def scatter_S80000x64_S1280000x1_S1280000x64_1_0_0_1 : ScatterDims S80000x64 S1280000x1 S1280000x64 where
  updateWindowDims := [1]
  insertedWindowDims := [0]
  scatterDimsToOperandDims := [0]
  indexVectorDim := 1
  wf := scatter_S80000x64_S1280000x1_S1280000x64_1_0_0_1_wf
def dot_S80000x64_S64x32_S80000x32_1_0_0_1_n_n : DotDims S80000x64 S64x32 S80000x32 where
  lhsContracting := [1]
  rhsContracting := [0]
  lhsNonContracting := [0]
  rhsNonContracting := [1]
  lhsBatch := []
  rhsBatch := []
  wf := dot_S80000x64_S64x32_S80000x32_1_0_0_1_n_n_wf

class Facts : Prop extends Facts₀ where

variable [Facts]
-- ==== Proof.KernelRun.lean ====
/-
  The idealized kernel's run with its result named.  @main is sixteen segments, a stretch of host operations before each
  of the eight pipelined regions; the contents of the TensorCore's buffers at the seventeen boundaries are a fold from the
  launch memory (a stretch applies its operations, a region replaces its arrays by what its write-backs leave).  Every
  weakly fair execution terminates without a fault; at the end each argument array is as launched, and the result buffer
  holds the last boundary's contents of it.
-/
import proofs.«115261_j72756745994565_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the sixteen segments; the last thread state holds every unscoped buffer at the last boundary's
    contents, read against the final state: the result buffer as it stands there, each argument walked back to the launch. -/
theorem run_named : θ_run defs (onTc (τ := τ) (main (F := F))) ⟨m, fun _ => 0, ρ⟩ (fun r => ∀ c : Dev nD,
      r.2.mem ((c.tc : Thread nD τ).loc main_v101) = W16 m ρ c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v101 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c)⟩)

end Cert.KernelIdeal.Run

end
-- ==== Proof.Stages.lean ====
/-
  The network both programs compute, written once with the reference's own host operations and with every value that is
  read twice given a name.  From the edge list: the source and destination vectors, the degree
  d(v) = 2 + #{edges into v} and its inverse square root, the per-edge weight d(src)^(-1/2) · d(dst)^(-1/2) and the
  self-loop weight 2 · d^(-1/2) · d^(-1/2); the aggregation of a node array g, the scatter-add over destinations of the
  gathered source rows times the per-edge weight.  The three region-shaped operations: a product with a weight matrix
  plus a bias ROW spread over the rows; the leaky rectifier t ↦ t if t ≥ 0, else 0.01 · t (the f32 word of 0.01); and
  the combination of an aggregate, a node array times a per-node COLUMN, and a bias row, rectified.  The stages
  h0 = x · W_pre + b_pre, g_l = h_l · Ws[l], h_(l+1) = combine (aggregate g_l) g_l (self-loop weight) bs[l], and the
  result h3 · W_post + b_post.
-/
import proofs.«115261_j72756745994565_1_alg».proof.Proof.Gen.ReferenceIdeal

noncomputable section

namespace Cert.Stages

open Cert.ReferenceIdeal Cert.ReferenceIdeal.Gen Idealize.ShloMosaic Idealize.ShloMosaic.TcCoe

variable {F : FTy → Type} [FloatOps F]

/-! ## From the edge list -/

/-- Row 0 of the edge list: the source node of every edge. -/
def src (ei : (⟨S2x1280000, .i32⟩ : BufTy).Contents (Elt F)) : (⟨S1280000, .i32⟩ : BufTy).Contents (Elt F) :=
  shapeCast _ (extractStridedSlice S1x1280000 ![0, 0] ei slices_S2x1280000_S1x1280000_0_0) shapeCasts_S1x1280000_S1280000

/-- Row 1 of the edge list: the destination node of every edge. -/
def dst (ei : (⟨S2x1280000, .i32⟩ : BufTy).Contents (Elt F)) : (⟨S1280000, .i32⟩ : BufTy).Contents (Elt F) :=
  shapeCast _ (extractStridedSlice S1x1280000 ![1, 0] ei slices_S2x1280000_S1x1280000_1_0) shapeCasts_S1x1280000_S1280000

/-- A node vector as a column of gather start indices, a negative entry counted from the end (v < 0 ↦ v + 80000). -/
def wrapCol (v : (⟨S1280000, .i32⟩ : BufTy).Contents (Elt F)) : (⟨S1280000x1, .i32⟩ : BufTy).Contents (Elt F) :=
  broadcastInDim S1280000x1 ![0] bcast_S1280000_S1280000x1_0
    (select (cmpi .slt v (broadcastInDim S1280000 ![] bcast_S_S1280000 (constantI S_ 32 0#32)))
      (addi v (broadcastInDim S1280000 ![] bcast_S_S1280000 (constantI S_ 32 80000#32))) v)

/-- A node vector as a column of scatter indices. -/
def idxCol (v : (⟨S1280000, .i32⟩ : BufTy).Contents (Elt F)) : (⟨S1280000x1, .i32⟩ : BufTy).Contents (Elt F) :=
  broadcastInDim S1280000x1 ![0] bcast_S1280000_S1280000x1_0 v

/-- d^(-1/2), d(v) = 2 + the number of edges into v. -/
def dis (ei : (⟨S2x1280000, .i32⟩ : BufTy).Contents (Elt F)) : (⟨S80000, .f32⟩ : BufTy).Contents (Elt F) :=
  Host.rsqrt (addf
    (Host.scatterAdd scatter_S80000_S1280000x1_S1280000_n_0_0_1 (broadcastInDim S80000 ![] bcast_S_S80000 (constant S_ .f32 0x00000000#32))
      (idxCol (dst (F := F) ei)) (broadcastInDim S1280000 ![] bcast_S_S1280000 (constant S_ .f32 0x3F800000#32)))
    (broadcastInDim S80000 ![] bcast_S_S80000 (constant S_ .f32 0x40000000#32)))

/-- The weight of an edge: d(src)^(-1/2) · d(dst)^(-1/2). -/
def norm (ei : (⟨S2x1280000, .i32⟩ : BufTy).Contents (Elt F)) : (⟨S1280000, .f32⟩ : BufTy).Contents (Elt F) :=
  mulf (Host.gather gather_S80000_S1280000x1_S1280000_n_0_n_n_0_1_1 (dis (F := F) ei) (wrapCol (src (F := F) ei)))
    (Host.gather gather_S80000_S1280000x1_S1280000_n_0_n_n_0_1_1 (dis (F := F) ei) (wrapCol (dst (F := F) ei)))

/-- The weight of a node's self loop: 2 · d^(-1/2) · d^(-1/2). -/
def sn (ei : (⟨S2x1280000, .i32⟩ : BufTy).Contents (Elt F)) : (⟨S80000, .f32⟩ : BufTy).Contents (Elt F) :=
  mulf (mulf (broadcastInDim S80000 ![] bcast_S_S80000 (constant S_ .f32 0x40000000#32)) (dis (F := F) ei)) (dis (F := F) ei)

/-- The aggregate of a node array: over the edges into each node, the sum of the source's row times the edge's weight. -/
def agg (g : (⟨S80000x64, .f32⟩ : BufTy).Contents (Elt F)) (ei : (⟨S2x1280000, .i32⟩ : BufTy).Contents (Elt F)) : (⟨S80000x64, .f32⟩ : BufTy).Contents (Elt F) :=
  Host.scatterAdd scatter_S80000x64_S1280000x1_S1280000x64_1_0_0_1 (broadcastInDim S80000x64 ![] bcast_S_S80000x64 (constant S_ .f32 0x00000000#32))
    (idxCol (dst (F := F) ei))
    (mulf (Host.gather gather_S80000x64_S1280000x1_S1280000x64_1_0_n_n_0_1_164 g (wrapCol (src (F := F) ei)))
      (broadcastInDim S1280000x64 ![0, 1] bcast_S1280000x1_S1280000x64_0_1
        (broadcastInDim S1280000x1 ![0] bcast_S1280000_S1280000x1_0 (norm (F := F) ei))))

/-! ## The layers' weights and biases -/

def ws0 (Ws : (⟨S3x64x64, .f32⟩ : BufTy).Contents (Elt F)) : (⟨S64x64, .f32⟩ : BufTy).Contents (Elt F) :=
  shapeCast _ (extractStridedSlice S1x64x64 ![0, 0, 0] Ws slices_S3x64x64_S1x64x64_0_0_0) shapeCasts_S1x64x64_S64x64
def ws1 (Ws : (⟨S3x64x64, .f32⟩ : BufTy).Contents (Elt F)) : (⟨S64x64, .f32⟩ : BufTy).Contents (Elt F) :=
  shapeCast _ (extractStridedSlice S1x64x64 ![1, 0, 0] Ws slices_S3x64x64_S1x64x64_1_0_0) shapeCasts_S1x64x64_S64x64
def ws2 (Ws : (⟨S3x64x64, .f32⟩ : BufTy).Contents (Elt F)) : (⟨S64x64, .f32⟩ : BufTy).Contents (Elt F) :=
  shapeCast _ (extractStridedSlice S1x64x64 ![2, 0, 0] Ws slices_S3x64x64_S1x64x64_2_0_0) shapeCasts_S1x64x64_S64x64
def bs0 (bs : (⟨S3x64, .f32⟩ : BufTy).Contents (Elt F)) : (⟨S64, .f32⟩ : BufTy).Contents (Elt F) :=
  shapeCast _ (extractStridedSlice S1x64 ![0, 0] bs slices_S3x64_S1x64_0_0) shapeCasts_S1x64_S64
def bs1 (bs : (⟨S3x64, .f32⟩ : BufTy).Contents (Elt F)) : (⟨S64, .f32⟩ : BufTy).Contents (Elt F) :=
  shapeCast _ (extractStridedSlice S1x64 ![1, 0] bs slices_S3x64_S1x64_1_0) shapeCasts_S1x64_S64
def bs2 (bs : (⟨S3x64, .f32⟩ : BufTy).Contents (Elt F)) : (⟨S64, .f32⟩ : BufTy).Contents (Elt F) :=
  shapeCast _ (extractStridedSlice S1x64 ![2, 0] bs slices_S3x64_S1x64_2_0) shapeCasts_S1x64_S64

/-- A bias vector as a row, and a per-node vector as a column. -/
def row64 (b : (⟨S64, .f32⟩ : BufTy).Contents (Elt F)) : (⟨S1x64, .f32⟩ : BufTy).Contents (Elt F) := broadcastInDim S1x64 ![1] bcast_S64_S1x64_1 b
def row32 (b : (⟨S32, .f32⟩ : BufTy).Contents (Elt F)) : (⟨S1x32, .f32⟩ : BufTy).Contents (Elt F) := broadcastInDim S1x32 ![1] bcast_S32_S1x32_1 b
def col (s : (⟨S80000, .f32⟩ : BufTy).Contents (Elt F)) : (⟨S80000x1, .f32⟩ : BufTy).Contents (Elt F) := broadcastInDim S80000x1 ![0] bcast_S80000_S80000x1_0 s

/-! ## The region-shaped operations -/

/-- X · W + the bias row spread over the rows, 128 → 64 features. -/
def linIn (X : (⟨S80000x128, .f32⟩ : BufTy).Contents (Elt F)) (W : (⟨S128x64, .f32⟩ : BufTy).Contents (Elt F)) (B : (⟨S1x64, .f32⟩ : BufTy).Contents (Elt F)) : (⟨S80000x64, .f32⟩ : BufTy).Contents (Elt F) :=
  addf (Host.dotGeneral dot_S80000x128_S128x64_S80000x64_1_0_0_1_n_n none X W) (broadcastInDim S80000x64 ![0, 1] bcast_S1x64_S80000x64_0_1 B)

/-- X · W, 64 → 64 features. -/
def dotH (X : (⟨S80000x64, .f32⟩ : BufTy).Contents (Elt F)) (W : (⟨S64x64, .f32⟩ : BufTy).Contents (Elt F)) : (⟨S80000x64, .f32⟩ : BufTy).Contents (Elt F) :=
  Host.dotGeneral dot_S80000x64_S64x64_S80000x64_1_0_0_1_n_n none X W

/-- X · W + the bias row spread over the rows, 64 → 64 features. -/
def linH (X : (⟨S80000x64, .f32⟩ : BufTy).Contents (Elt F)) (W : (⟨S64x64, .f32⟩ : BufTy).Contents (Elt F)) (B : (⟨S1x64, .f32⟩ : BufTy).Contents (Elt F)) : (⟨S80000x64, .f32⟩ : BufTy).Contents (Elt F) :=
  addf (dotH (F := F) X W) (broadcastInDim S80000x64 ![0, 1] bcast_S1x64_S80000x64_0_1 B)

/-- X · W + the bias row spread over the rows, 64 → 32 features. -/
def linOut (X : (⟨S80000x64, .f32⟩ : BufTy).Contents (Elt F)) (W : (⟨S64x32, .f32⟩ : BufTy).Contents (Elt F)) (B : (⟨S1x32, .f32⟩ : BufTy).Contents (Elt F)) : (⟨S80000x32, .f32⟩ : BufTy).Contents (Elt F) :=
  addf (Host.dotGeneral dot_S80000x64_S64x32_S80000x32_1_0_0_1_n_n none X W) (broadcastInDim S80000x32 ![0, 1] bcast_S1x32_S80000x32_0_1 B)

/-- t if t ≥ 0, else the f32 word of 0.01 times t. -/
def leaky (t : (⟨S80000x64, .f32⟩ : BufTy).Contents (Elt F)) : (⟨S80000x64, .f32⟩ : BufTy).Contents (Elt F) :=
  select (cmpf .oge t (broadcastInDim S80000x64 ![] bcast_S_S80000x64 (constant S_ .f32 0x00000000#32))) t
    (mulf (broadcastInDim S80000x64 ![] bcast_S_S80000x64 (constant S_ .f32 0x3C23D70A#32)) t)

/-- leaky ((a + g · the column spread over the features) + the bias row spread over the rows). -/
def comb (a g : (⟨S80000x64, .f32⟩ : BufTy).Contents (Elt F)) (s : (⟨S80000x1, .f32⟩ : BufTy).Contents (Elt F)) (B : (⟨S1x64, .f32⟩ : BufTy).Contents (Elt F)) : (⟨S80000x64, .f32⟩ : BufTy).Contents (Elt F) :=
  leaky (F := F) (addf (addf a (mulf g (broadcastInDim S80000x64 ![0, 1] bcast_S80000x1_S80000x64_0_1 s)))
    (broadcastInDim S80000x64 ![0, 1] bcast_S1x64_S80000x64_0_1 B))

/-! ## The stages -/

def h0 (x : (⟨S80000x128, .f32⟩ : BufTy).Contents (Elt F)) (ei : (⟨S2x1280000, .i32⟩ : BufTy).Contents (Elt F)) (Wp : (⟨S128x64, .f32⟩ : BufTy).Contents (Elt F)) (bp : (⟨S64, .f32⟩ : BufTy).Contents (Elt F)) (Ws : (⟨S3x64x64, .f32⟩ : BufTy).Contents (Elt F)) (bs : (⟨S3x64, .f32⟩ : BufTy).Contents (Elt F)) : (⟨S80000x64, .f32⟩ : BufTy).Contents (Elt F) := linIn (F := F) x Wp (row64 bp)
def g0 (x : (⟨S80000x128, .f32⟩ : BufTy).Contents (Elt F)) (ei : (⟨S2x1280000, .i32⟩ : BufTy).Contents (Elt F)) (Wp : (⟨S128x64, .f32⟩ : BufTy).Contents (Elt F)) (bp : (⟨S64, .f32⟩ : BufTy).Contents (Elt F)) (Ws : (⟨S3x64x64, .f32⟩ : BufTy).Contents (Elt F)) (bs : (⟨S3x64, .f32⟩ : BufTy).Contents (Elt F)) : (⟨S80000x64, .f32⟩ : BufTy).Contents (Elt F) := dotH (F := F) (h0 x ei Wp bp Ws bs) (ws0 Ws)
def h1 (x : (⟨S80000x128, .f32⟩ : BufTy).Contents (Elt F)) (ei : (⟨S2x1280000, .i32⟩ : BufTy).Contents (Elt F)) (Wp : (⟨S128x64, .f32⟩ : BufTy).Contents (Elt F)) (bp : (⟨S64, .f32⟩ : BufTy).Contents (Elt F)) (Ws : (⟨S3x64x64, .f32⟩ : BufTy).Contents (Elt F)) (bs : (⟨S3x64, .f32⟩ : BufTy).Contents (Elt F)) : (⟨S80000x64, .f32⟩ : BufTy).Contents (Elt F) := comb (F := F) (agg (g0 x ei Wp bp Ws bs) ei) (g0 x ei Wp bp Ws bs) (col (sn (F := F) ei)) (row64 (bs0 bs))
def g1 (x : (⟨S80000x128, .f32⟩ : BufTy).Contents (Elt F)) (ei : (⟨S2x1280000, .i32⟩ : BufTy).Contents (Elt F)) (Wp : (⟨S128x64, .f32⟩ : BufTy).Contents (Elt F)) (bp : (⟨S64, .f32⟩ : BufTy).Contents (Elt F)) (Ws : (⟨S3x64x64, .f32⟩ : BufTy).Contents (Elt F)) (bs : (⟨S3x64, .f32⟩ : BufTy).Contents (Elt F)) : (⟨S80000x64, .f32⟩ : BufTy).Contents (Elt F) := dotH (F := F) (h1 x ei Wp bp Ws bs) (ws1 Ws)
def h2 (x : (⟨S80000x128, .f32⟩ : BufTy).Contents (Elt F)) (ei : (⟨S2x1280000, .i32⟩ : BufTy).Contents (Elt F)) (Wp : (⟨S128x64, .f32⟩ : BufTy).Contents (Elt F)) (bp : (⟨S64, .f32⟩ : BufTy).Contents (Elt F)) (Ws : (⟨S3x64x64, .f32⟩ : BufTy).Contents (Elt F)) (bs : (⟨S3x64, .f32⟩ : BufTy).Contents (Elt F)) : (⟨S80000x64, .f32⟩ : BufTy).Contents (Elt F) := comb (F := F) (agg (g1 x ei Wp bp Ws bs) ei) (g1 x ei Wp bp Ws bs) (col (sn (F := F) ei)) (row64 (bs1 bs))
def g2 (x : (⟨S80000x128, .f32⟩ : BufTy).Contents (Elt F)) (ei : (⟨S2x1280000, .i32⟩ : BufTy).Contents (Elt F)) (Wp : (⟨S128x64, .f32⟩ : BufTy).Contents (Elt F)) (bp : (⟨S64, .f32⟩ : BufTy).Contents (Elt F)) (Ws : (⟨S3x64x64, .f32⟩ : BufTy).Contents (Elt F)) (bs : (⟨S3x64, .f32⟩ : BufTy).Contents (Elt F)) : (⟨S80000x64, .f32⟩ : BufTy).Contents (Elt F) := dotH (F := F) (h2 x ei Wp bp Ws bs) (ws2 Ws)
def h3 (x : (⟨S80000x128, .f32⟩ : BufTy).Contents (Elt F)) (ei : (⟨S2x1280000, .i32⟩ : BufTy).Contents (Elt F)) (Wp : (⟨S128x64, .f32⟩ : BufTy).Contents (Elt F)) (bp : (⟨S64, .f32⟩ : BufTy).Contents (Elt F)) (Ws : (⟨S3x64x64, .f32⟩ : BufTy).Contents (Elt F)) (bs : (⟨S3x64, .f32⟩ : BufTy).Contents (Elt F)) : (⟨S80000x64, .f32⟩ : BufTy).Contents (Elt F) := comb (F := F) (agg (g2 x ei Wp bp Ws bs) ei) (g2 x ei Wp bp Ws bs) (col (sn (F := F) ei)) (row64 (bs2 bs))

/-- The network's result. -/
def out (x : (⟨S80000x128, .f32⟩ : BufTy).Contents (Elt F)) (ei : (⟨S2x1280000, .i32⟩ : BufTy).Contents (Elt F)) (Wp : (⟨S128x64, .f32⟩ : BufTy).Contents (Elt F)) (bp : (⟨S64, .f32⟩ : BufTy).Contents (Elt F)) (Ws : (⟨S3x64x64, .f32⟩ : BufTy).Contents (Elt F)) (bs : (⟨S3x64, .f32⟩ : BufTy).Contents (Elt F)) (Wq : (⟨S64x32, .f32⟩ : BufTy).Contents (Elt F)) (bq : (⟨S32, .f32⟩ : BufTy).Contents (Elt F)) : (⟨S80000x32, .f32⟩ : BufTy).Contents (Elt F) :=
  linOut (F := F) (h3 x ei Wp bp Ws bs) Wq (row32 bq)

end Cert.Stages

end
-- ==== Proof.RefValue.lean ====
/-
  The reference computes the network of Proof/Stages.lean.  Its run leaves in the result buffer the fold of its 150 host
  operations over the launch contents; read one operation at a time, that fold is the stage `out` of the eight argument
  arrays: the same operations in the same order, each value that two later operations read named once.
-/
import proofs.«115261_j72756745994565_1_alg».proof.Proof.RefRun
import proofs.«115261_j72756745994565_1_alg».proof.Proof.Stages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- The result buffer's end contents are the network's result of the argument arrays. -/
theorem res_eq (m : (ℓ : Loc nD τ sig) → Buf (Elt F) ℓ) (c : Dev nD) :
    Cert.ReferenceIdeal.ValueP.res_main_v126 (F := F) m c
      = Cert.Stages.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  unfold Cert.ReferenceIdeal.ValueP.res_main_v126
  after_results_simp
  rfl

end Cert.ReferenceIdeal.RefValue

end
-- ==== Proof.Written.lean ====
/-
  Which buffers each stretch of host operations writes.  A stretch rewrites exactly the result buffers of its operations;
  a buffer outside that list holds after the stretch what it held before it.
-/
import proofs.«115261_j72756745994565_1_alg».proof.Proof.Gen.KernelIdeal.Launch

set_option maxRecDepth 16384

noncomputable section

namespace Cert.KernelIdeal.Chain

open Cert.KernelIdeal Cert.KernelIdeal.Gen Idealize.ShloMosaic Idealize.ShloMosaic.TcCoe Idealize.SL.Sem

variable {F : FTy → Type} [FloatOps F]

/-- The result buffers of stretch 0's 38 operations, in order. -/
def wr0 : List (Ref sig .tc) := [main_v0, main_v1, main_v2, main_v3, main_cst, main_v4, main_cst_0, main_v5, main_v6, main_v7, main_cst_1, main_v8, main_v9, main_v10, main_c, main_v11, main_v12, main_c_2, main_v13, main_v14, main_v15, main_v16, main_v17, main_c_3, main_v18, main_v19, main_c_4, main_v20, main_v21, main_v22, main_v23, main_v24, main_v25, main_cst_5, main_v26, main_v27, main_v28, main_v29]

theorem written0 : (hostOps0 : List (HloOp τ sig (Elt F))).Forall fun op =>
    op.writes ⊆ (wr0.map (Proc.devRef (τ := τ) .tc)).toFinset := by
  simp only [hostOps0, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer stretch 0 does not write keeps its contents across it. -/
theorem keep_host0 (V : Valuation τ sig (Elt F)) {r : Ref sig .tc} (hr : r ∉ wr0) :
    StableHlo.after hostOps0 V (Proc.devRef .tc r) = V (Proc.devRef .tc r) :=
  StableHlo.after_of_writes_sub hostOps0 V written0 hr

/-- The result buffers of stretch 1's 5 operations, in order. -/
def wr1 : List (Ref sig .tc) := [main_cst_6, main_v31, main_v32, main_v33, main_v34]

theorem written1 : (hostOps1 : List (HloOp τ sig (Elt F))).Forall fun op =>
    op.writes ⊆ (wr1.map (Proc.devRef (τ := τ) .tc)).toFinset := by
  simp only [hostOps1, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer stretch 1 does not write keeps its contents across it. -/
theorem keep_host1 (V : Valuation τ sig (Elt F)) {r : Ref sig .tc} (hr : r ∉ wr1) :
    StableHlo.after hostOps1 V (Proc.devRef .tc r) = V (Proc.devRef .tc r) :=
  StableHlo.after_of_writes_sub hostOps1 V written1 hr

/-- The result buffers of stretch 2's 20 operations, in order. -/
def wr2 : List (Ref sig .tc) := [main_c_7, main_v36, main_v37, main_c_8, main_v38, main_v39, main_v40, main_v41, main_v42, main_v43, main_v44, main_v45, main_cst_9, main_v46, main_v47, main_v48, main_v49, main_v50, main_v51, main_v52]

theorem written2 : (hostOps2 : List (HloOp τ sig (Elt F))).Forall fun op =>
    op.writes ⊆ (wr2.map (Proc.devRef (τ := τ) .tc)).toFinset := by
  simp only [hostOps2, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer stretch 2 does not write keeps its contents across it. -/
theorem keep_host2 (V : Valuation τ sig (Elt F)) {r : Ref sig .tc} (hr : r ∉ wr2) :
    StableHlo.after hostOps2 V (Proc.devRef .tc r) = V (Proc.devRef .tc r) :=
  StableHlo.after_of_writes_sub hostOps2 V written2 hr

/-- The result buffers of stretch 3's 5 operations, in order. -/
def wr3 : List (Ref sig .tc) := [main_cst_10, main_v54, main_v55, main_v56, main_v57]

theorem written3 : (hostOps3 : List (HloOp τ sig (Elt F))).Forall fun op =>
    op.writes ⊆ (wr3.map (Proc.devRef (τ := τ) .tc)).toFinset := by
  simp only [hostOps3, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer stretch 3 does not write keeps its contents across it. -/
theorem keep_host3 (V : Valuation τ sig (Elt F)) {r : Ref sig .tc} (hr : r ∉ wr3) :
    StableHlo.after hostOps3 V (Proc.devRef .tc r) = V (Proc.devRef .tc r) :=
  StableHlo.after_of_writes_sub hostOps3 V written3 hr

/-- The result buffers of stretch 4's 20 operations, in order. -/
def wr4 : List (Ref sig .tc) := [main_c_11, main_v59, main_v60, main_c_12, main_v61, main_v62, main_v63, main_v64, main_v65, main_v66, main_v67, main_v68, main_cst_13, main_v69, main_v70, main_v71, main_v72, main_v73, main_v74, main_v75]

theorem written4 : (hostOps4 : List (HloOp τ sig (Elt F))).Forall fun op =>
    op.writes ⊆ (wr4.map (Proc.devRef (τ := τ) .tc)).toFinset := by
  simp only [hostOps4, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer stretch 4 does not write keeps its contents across it. -/
theorem keep_host4 (V : Valuation τ sig (Elt F)) {r : Ref sig .tc} (hr : r ∉ wr4) :
    StableHlo.after hostOps4 V (Proc.devRef .tc r) = V (Proc.devRef .tc r) :=
  StableHlo.after_of_writes_sub hostOps4 V written4 hr

/-- The result buffers of stretch 5's 5 operations, in order. -/
def wr5 : List (Ref sig .tc) := [main_cst_14, main_v77, main_v78, main_v79, main_v80]

theorem written5 : (hostOps5 : List (HloOp τ sig (Elt F))).Forall fun op =>
    op.writes ⊆ (wr5.map (Proc.devRef (τ := τ) .tc)).toFinset := by
  simp only [hostOps5, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer stretch 5 does not write keeps its contents across it. -/
theorem keep_host5 (V : Valuation τ sig (Elt F)) {r : Ref sig .tc} (hr : r ∉ wr5) :
    StableHlo.after hostOps5 V (Proc.devRef .tc r) = V (Proc.devRef .tc r) :=
  StableHlo.after_of_writes_sub hostOps5 V written5 hr

/-- The result buffers of stretch 6's 20 operations, in order. -/
def wr6 : List (Ref sig .tc) := [main_c_15, main_v82, main_v83, main_c_16, main_v84, main_v85, main_v86, main_v87, main_v88, main_v89, main_v90, main_v91, main_cst_17, main_v92, main_v93, main_v94, main_v95, main_v96, main_v97, main_v98]

theorem written6 : (hostOps6 : List (HloOp τ sig (Elt F))).Forall fun op =>
    op.writes ⊆ (wr6.map (Proc.devRef (τ := τ) .tc)).toFinset := by
  simp only [hostOps6, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer stretch 6 does not write keeps its contents across it. -/
theorem keep_host6 (V : Valuation τ sig (Elt F)) {r : Ref sig .tc} (hr : r ∉ wr6) :
    StableHlo.after hostOps6 V (Proc.devRef .tc r) = V (Proc.devRef .tc r) :=
  StableHlo.after_of_writes_sub hostOps6 V written6 hr

/-- The result buffers of stretch 7's 1 operation, in order. -/
def wr7 : List (Ref sig .tc) := [main_v100]

theorem written7 : (hostOps7 : List (HloOp τ sig (Elt F))).Forall fun op =>
    op.writes ⊆ (wr7.map (Proc.devRef (τ := τ) .tc)).toFinset := by
  simp only [hostOps7, List.Forall, StableHlo.nullary_writes, StableHlo.unary_writes, StableHlo.binary_writes,
    StableHlo.ternary_writes, StableHlo.reshape_writes, Finset.singleton_subset_iff, List.mem_toFinset, List.mem_map]
  repeat' apply And.intro
  all_goals exact ⟨_, by decide, rfl⟩

/-- A buffer stretch 7 does not write keeps its contents across it. -/
theorem keep_host7 (V : Valuation τ sig (Elt F)) {r : Ref sig .tc} (hr : r ∉ wr7) :
    StableHlo.after hostOps7 V (Proc.devRef .tc r) = V (Proc.devRef .tc r) :=
  StableHlo.after_of_writes_sub hostOps7 V written7 hr

end Cert.KernelIdeal.Chain

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.Chain0.lean ====
/-
  The buffers when the first region is entered.  The 38 host operations before it read only the edge list and the first
  bias: they leave every argument as launched, the source and destination vectors, the per-edge weight
  d(src)^(-1/2) · d(dst)^(-1/2) and the self-loop weight 2 · d^(-1/2) · d^(-1/2) in their buffers, and the first bias cast
  to a row — the same elements in the same order as the bias spread along dimension 1 of a [1, 64] array.
-/
import proofs.«115261_j72756745994565_1_alg».proof.Proof.Gen.KernelIdeal.Frame
import proofs.«115261_j72756745994565_1_alg».proof.Proof.Written
import proofs.«115261_j72756745994565_1_alg».proof.Proof.Stages
import proofs.«115261_j72756745994565_1_alg».proof.Proof.LibUnitAxes

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)
/-- The eight argument arrays as launched on core `c`. -/
abbrev a0 := m ((c.tc : Thread nD τ).loc main_arg0)
abbrev a1 := m ((c.tc : Thread nD τ).loc main_arg1)
abbrev a2 := m ((c.tc : Thread nD τ).loc main_arg2)
abbrev a3 := m ((c.tc : Thread nD τ).loc main_arg3)
abbrev a4 := m ((c.tc : Thread nD τ).loc main_arg4)
abbrev a5 := m ((c.tc : Thread nD τ).loc main_arg5)
abbrev a6 := m ((c.tc : Thread nD τ).loc main_arg6)
abbrev a7 := m ((c.tc : Thread nD τ).loc main_arg7)

theorem b1_arg0 : W1 m ρ c (Proc.devRef .tc main_arg0) = a0 m c :=
  keep_host0 (W0 m ρ c) (by decide)

theorem b1_arg1 : W1 m ρ c (Proc.devRef .tc main_arg1) = a1 m c :=
  keep_host0 (W0 m ρ c) (by decide)

theorem b1_arg2 : W1 m ρ c (Proc.devRef .tc main_arg2) = a2 m c :=
  keep_host0 (W0 m ρ c) (by decide)

theorem b1_arg3 : W1 m ρ c (Proc.devRef .tc main_arg3) = a3 m c :=
  keep_host0 (W0 m ρ c) (by decide)

theorem b1_arg4 : W1 m ρ c (Proc.devRef .tc main_arg4) = a4 m c :=
  keep_host0 (W0 m ρ c) (by decide)

theorem b1_arg5 : W1 m ρ c (Proc.devRef .tc main_arg5) = a5 m c :=
  keep_host0 (W0 m ρ c) (by decide)

theorem b1_arg6 : W1 m ρ c (Proc.devRef .tc main_arg6) = a6 m c :=
  keep_host0 (W0 m ρ c) (by decide)

theorem b1_arg7 : W1 m ρ c (Proc.devRef .tc main_arg7) = a7 m c :=
  keep_host0 (W0 m ρ c) (by decide)

theorem b1_v1 : W1 m ρ c (Proc.devRef .tc main_v1) = Cert.Stages.src (F := Ideal) (a1 m c) := by
  show StableHlo.after hostOps0 (W0 m ρ c) (Proc.devRef .tc main_v1) = _
  dsimp only [hostOps0]
  after_results_simp
  rfl

theorem b1_v3 : W1 m ρ c (Proc.devRef .tc main_v3) = Cert.Stages.dst (F := Ideal) (a1 m c) := by
  show StableHlo.after hostOps0 (W0 m ρ c) (Proc.devRef .tc main_v3) = _
  dsimp only [hostOps0]
  after_results_simp
  rfl

theorem b1_v25 : W1 m ρ c (Proc.devRef .tc main_v25) = Cert.Stages.norm (F := Ideal) (a1 m c) := by
  show StableHlo.after hostOps0 (W0 m ρ c) (Proc.devRef .tc main_v25) = _
  dsimp only [hostOps0]
  after_results_simp
  rfl

theorem b1_v28 : W1 m ρ c (Proc.devRef .tc main_v28) = Cert.Stages.sn (F := Ideal) (a1 m c) := by
  show StableHlo.after hostOps0 (W0 m ρ c) (Proc.devRef .tc main_v28) = _
  dsimp only [hostOps0]
  after_results_simp
  rfl

theorem b1_v29 : W1 m ρ c (Proc.devRef .tc main_v29) = Cert.Stages.row64 (F := Ideal) (a3 m c) := by
  show StableHlo.after hostOps0 (W0 m ρ c) (Proc.devRef .tc main_v29) = _
  dsimp only [hostOps0]
  after_results_simp
  exact Cert.LibUnitAxes.shapeCast_a_1a_eq_broadcastInDim _ _ _

end Cert.KernelIdeal.Chain

end
-- ==== Proof.Chain1.lean ====
/-
  The buffers at the boundaries of the first layer.  What a buffer holds when a stretch or a region ends and nothing in
  between writes it is what it held before: the weights, the biases and the four edge-derived vectors are carried from
  the first boundary to where they are read.  A product with a bias row of zeros is the product (a + 0 = a on the
  extended reals).  Each region replaces its output array by the whole-array operation of Proof/Stages.lean applied to
  its input arrays — taken here as a hypothesis, one per region — so the stage h0, then g0 = h0 · Ws[0], the aggregate of
  g0, the self-loop column and the bias row, and h1 stand in their buffers in turn.
-/
import proofs.«115261_j72756745994565_1_alg».proof.Proof.Chain0
import Idealize.ShloMosaic.PureOps.Ideal.Laws

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

open Idealize.ShloMosaic.ValueIdx

/-- What each region leaves in its output array, as an operation on its input arrays as the region finds them: the five
    linear regions a product plus a bias row, the three combining regions the rectified sum. -/
structure RegionValues : Prop where
  r0 : ∀ (V : (c : Dev nD) → (b : Ref sig .tc) → Buf (Elt Ideal) ((c : Thread nD τ).loc b)) (c : Dev nD),
    (dat0 (F := Ideal) V c).arrAt 3 cfg0.N = Cert.Stages.linIn (F := Ideal) (V c main_arg0) (V c main_arg2) (V c main_v29)
  r1 : ∀ (V : (c : Dev nD) → (b : Ref sig .tc) → Buf (Elt Ideal) ((c : Thread nD τ).loc b)) (c : Dev nD),
    (dat1 (F := Ideal) V c).arrAt 3 cfg1.N = Cert.Stages.linH (F := Ideal) (V c main_v30) (V c main_v33) (V c main_v34)
  r2 : ∀ (V : (c : Dev nD) → (b : Ref sig .tc) → Buf (Elt Ideal) ((c : Thread nD τ).loc b)) (c : Dev nD),
    (dat2 (F := Ideal) V c).arrAt 4 cfg2.N = Cert.Stages.comb (F := Ideal) (V c main_v48) (V c main_v35) (V c main_v51) (V c main_v52)
  r3 : ∀ (V : (c : Dev nD) → (b : Ref sig .tc) → Buf (Elt Ideal) ((c : Thread nD τ).loc b)) (c : Dev nD),
    (dat3 (F := Ideal) V c).arrAt 3 cfg3.N = Cert.Stages.linH (F := Ideal) (V c main_v53) (V c main_v56) (V c main_v57)
  r4 : ∀ (V : (c : Dev nD) → (b : Ref sig .tc) → Buf (Elt Ideal) ((c : Thread nD τ).loc b)) (c : Dev nD),
    (dat4 (F := Ideal) V c).arrAt 4 cfg4.N = Cert.Stages.comb (F := Ideal) (V c main_v71) (V c main_v58) (V c main_v74) (V c main_v75)
  r5 : ∀ (V : (c : Dev nD) → (b : Ref sig .tc) → Buf (Elt Ideal) ((c : Thread nD τ).loc b)) (c : Dev nD),
    (dat5 (F := Ideal) V c).arrAt 3 cfg5.N = Cert.Stages.linH (F := Ideal) (V c main_v76) (V c main_v79) (V c main_v80)
  r6 : ∀ (V : (c : Dev nD) → (b : Ref sig .tc) → Buf (Elt Ideal) ((c : Thread nD τ).loc b)) (c : Dev nD),
    (dat6 (F := Ideal) V c).arrAt 4 cfg6.N = Cert.Stages.comb (F := Ideal) (V c main_v94) (V c main_v81) (V c main_v97) (V c main_v98)
  r7 : ∀ (V : (c : Dev nD) → (b : Ref sig .tc) → Buf (Elt Ideal) ((c : Thread nD τ).loc b)) (c : Dev nD),
    (dat7 (F := Ideal) V c).arrAt 3 cfg7.N = Cert.Stages.linOut (F := Ideal) (V c main_v99) (V c main_arg6) (V c main_v100)

/-! ## A bias row of zeros -/

/-- The zero vector of 64 entries cast to a row: what the kernel hands the inner linear regions as their bias. -/
def zrow : (⟨S1x64, .f32⟩ : BufTy).Contents (Elt Ideal) :=
  shapeCast S1x64 (broadcastInDim S64 ![] bcast_S_S64 (constant (F := Ideal) S_ .f32 0x00000000#32)) shapeCasts_S64_S1x64

theorem zrow_apply (u : Fin 1) (q : Fin 64) : zrow (ix2 u q) = (0 : EReal) := by
  unfold zrow
  rw [shapeCast_a_1a_apply, Cert.LibUnitAxes.broadcastInDim_scalar_apply, constant_apply, Ideal.ofBits_zero_f32]

/-- X · W plus the zero row spread over the rows is X · W. -/
theorem linH_zrow (X : (⟨S80000x64, .f32⟩ : BufTy).Contents (Elt Ideal)) (W : (⟨S64x64, .f32⟩ : BufTy).Contents (Elt Ideal)) :
    Cert.Stages.linH (F := Ideal) X W zrow = Cert.Stages.dotH (F := Ideal) X W := by
  unfold Cert.Stages.linH
  funext i
  obtain ⟨p, q, rfl⟩ : ∃ (p : Fin 80000) (q : Fin 64), i = ix2 p q := ⟨i 0, i 1, eq_ix2 i⟩
  rw [addf_apply, Cert.LibUnitAxes.broadcastInDim_1b_ab_apply, zrow_apply, add_zero]

/-! ## Carried to the first layer -/
theorem arg4_at2 : W2 m ρ c (Proc.devRef .tc main_arg4) = a4 m c :=
  (W2_of_ne m ρ c main_arg4 (by decide)).trans (b1_arg4 m ρ c)
theorem arg5_at2 : W2 m ρ c (Proc.devRef .tc main_arg5) = a5 m c :=
  (W2_of_ne m ρ c main_arg5 (by decide)).trans (b1_arg5 m ρ c)
theorem v1_at2 : W2 m ρ c (Proc.devRef .tc main_v1) = Cert.Stages.src (F := Ideal) (a1 m c) :=
  (W2_of_ne m ρ c main_v1 (by decide)).trans (b1_v1 m ρ c)
theorem v3_at2 : W2 m ρ c (Proc.devRef .tc main_v3) = Cert.Stages.dst (F := Ideal) (a1 m c) :=
  (W2_of_ne m ρ c main_v3 (by decide)).trans (b1_v3 m ρ c)
theorem v25_at2 : W2 m ρ c (Proc.devRef .tc main_v25) = Cert.Stages.norm (F := Ideal) (a1 m c) :=
  (W2_of_ne m ρ c main_v25 (by decide)).trans (b1_v25 m ρ c)
theorem v28_at2 : W2 m ρ c (Proc.devRef .tc main_v28) = Cert.Stages.sn (F := Ideal) (a1 m c) :=
  (W2_of_ne m ρ c main_v28 (by decide)).trans (b1_v28 m ρ c)
theorem arg4_at4 : W4 m ρ c (Proc.devRef .tc main_arg4) = a4 m c :=
  (W4_of_ne m ρ c main_arg4 (by decide)).trans ((keep_host1 (W2 m ρ c) (by decide)).trans (arg4_at2 m ρ c))
theorem arg5_at4 : W4 m ρ c (Proc.devRef .tc main_arg5) = a5 m c :=
  (W4_of_ne m ρ c main_arg5 (by decide)).trans ((keep_host1 (W2 m ρ c) (by decide)).trans (arg5_at2 m ρ c))
theorem v1_at4 : W4 m ρ c (Proc.devRef .tc main_v1) = Cert.Stages.src (F := Ideal) (a1 m c) :=
  (W4_of_ne m ρ c main_v1 (by decide)).trans ((keep_host1 (W2 m ρ c) (by decide)).trans (v1_at2 m ρ c))
theorem v3_at4 : W4 m ρ c (Proc.devRef .tc main_v3) = Cert.Stages.dst (F := Ideal) (a1 m c) :=
  (W4_of_ne m ρ c main_v3 (by decide)).trans ((keep_host1 (W2 m ρ c) (by decide)).trans (v3_at2 m ρ c))
theorem v25_at4 : W4 m ρ c (Proc.devRef .tc main_v25) = Cert.Stages.norm (F := Ideal) (a1 m c) :=
  (W4_of_ne m ρ c main_v25 (by decide)).trans ((keep_host1 (W2 m ρ c) (by decide)).trans (v25_at2 m ρ c))
theorem v28_at4 : W4 m ρ c (Proc.devRef .tc main_v28) = Cert.Stages.sn (F := Ideal) (a1 m c) :=
  (W4_of_ne m ρ c main_v28 (by decide)).trans ((keep_host1 (W2 m ρ c) (by decide)).trans (v28_at2 m ρ c))

/-! ## The first region: h0 -/

theorem b2_v30 (R : RegionValues) : W2 m ρ c (Proc.devRef .tc main_v30) = Cert.Stages.h0 (F := Ideal) (a0 m c) (a1 m c) (a2 m c) (a3 m c) (a4 m c) (a5 m c) :=
  (W2_arr m ρ c 3).trans ((R.r0 (V1 m ρ) c).trans (by
    show Cert.Stages.linIn (F := Ideal) (W1 m ρ c (Proc.devRef .tc main_arg0)) (W1 m ρ c (Proc.devRef .tc main_arg2)) (W1 m ρ c (Proc.devRef .tc main_v29)) = _
    rw [b1_arg0 m ρ c, b1_arg2 m ρ c, b1_v29 m ρ c]
    rfl))

/-! ## Layer 0: the product -/

theorem b3_v30 (R : RegionValues) : W3 m ρ c (Proc.devRef .tc main_v30) = Cert.Stages.h0 (F := Ideal) (a0 m c) (a1 m c) (a2 m c) (a3 m c) (a4 m c) (a5 m c) :=
  (keep_host1 (W2 m ρ c) (by decide)).trans (b2_v30 m ρ c R)

theorem b3_v33 : W3 m ρ c (Proc.devRef .tc main_v33) = Cert.Stages.ws0 (F := Ideal) (a4 m c) := by
  show StableHlo.after hostOps1 (W2 m ρ c) (Proc.devRef .tc main_v33) = _
  dsimp only [hostOps1]
  after_results_simp
  rw [arg4_at2 m ρ c]
  rfl

theorem b3_v34 : W3 m ρ c (Proc.devRef .tc main_v34) = zrow := by
  show StableHlo.after hostOps1 (W2 m ρ c) (Proc.devRef .tc main_v34) = _
  dsimp only [hostOps1]
  after_results_simp
  rfl

theorem b4_v35 (R : RegionValues) : W4 m ρ c (Proc.devRef .tc main_v35) = Cert.Stages.g0 (F := Ideal) (a0 m c) (a1 m c) (a2 m c) (a3 m c) (a4 m c) (a5 m c) :=
  (W4_arr m ρ c 3).trans ((R.r1 (V3 m ρ) c).trans (by
    show Cert.Stages.linH (F := Ideal) (W3 m ρ c (Proc.devRef .tc main_v30)) (W3 m ρ c (Proc.devRef .tc main_v33)) (W3 m ρ c (Proc.devRef .tc main_v34)) = _
    rw [b3_v30 m ρ c R, b3_v33 m ρ c, b3_v34 m ρ c, linH_zrow]
    rfl))

/-! ## Layer 0: the aggregate and the combination -/

theorem b5_v35 (R : RegionValues) : W5 m ρ c (Proc.devRef .tc main_v35) = Cert.Stages.g0 (F := Ideal) (a0 m c) (a1 m c) (a2 m c) (a3 m c) (a4 m c) (a5 m c) :=
  (keep_host2 (W4 m ρ c) (by decide)).trans (b4_v35 m ρ c R)

theorem b5_v48 (R : RegionValues) : W5 m ρ c (Proc.devRef .tc main_v48) = Cert.Stages.agg (F := Ideal) (Cert.Stages.g0 (F := Ideal) (a0 m c) (a1 m c) (a2 m c) (a3 m c) (a4 m c) (a5 m c)) (a1 m c) := by
  show StableHlo.after hostOps2 (W4 m ρ c) (Proc.devRef .tc main_v48) = _
  dsimp only [hostOps2]
  after_results_simp
  rw [b4_v35 m ρ c R, v1_at4 m ρ c, v3_at4 m ρ c, v25_at4 m ρ c]
  rfl

theorem b5_v51 : W5 m ρ c (Proc.devRef .tc main_v51) = Cert.Stages.col (F := Ideal) (Cert.Stages.sn (F := Ideal) (a1 m c)) := by
  show StableHlo.after hostOps2 (W4 m ρ c) (Proc.devRef .tc main_v51) = _
  dsimp only [hostOps2]
  after_results_simp
  rw [v28_at4 m ρ c]
  exact Cert.LibUnitAxes.shapeCast_a_a1_eq_broadcastInDim _ _ _

theorem b5_v52 : W5 m ρ c (Proc.devRef .tc main_v52) = Cert.Stages.row64 (F := Ideal) (Cert.Stages.bs0 (F := Ideal) (a5 m c)) := by
  show StableHlo.after hostOps2 (W4 m ρ c) (Proc.devRef .tc main_v52) = _
  dsimp only [hostOps2]
  after_results_simp
  rw [arg5_at4 m ρ c]
  exact Cert.LibUnitAxes.shapeCast_a_1a_eq_broadcastInDim _ _ _

theorem b6_v53 (R : RegionValues) : W6 m ρ c (Proc.devRef .tc main_v53) = Cert.Stages.h1 (F := Ideal) (a0 m c) (a1 m c) (a2 m c) (a3 m c) (a4 m c) (a5 m c) :=
  (W6_arr m ρ c 4).trans ((R.r2 (V5 m ρ) c).trans (by
    show Cert.Stages.comb (F := Ideal) (W5 m ρ c (Proc.devRef .tc main_v48)) (W5 m ρ c (Proc.devRef .tc main_v35)) (W5 m ρ c (Proc.devRef .tc main_v51)) (W5 m ρ c (Proc.devRef .tc main_v52)) = _
    rw [b5_v48 m ρ c R, b5_v35 m ρ c R, b5_v51 m ρ c, b5_v52 m ρ c]
    rfl))

end Cert.KernelIdeal.Chain

end
-- ==== Proof.Chain2.lean ====
/-
  The buffers at the boundaries of the second layer: the weights, biases and edge-derived vectors carried on, then
  g1 = h1 · Ws[1], the aggregate of g1, the self-loop column, the bias row, and h2.
-/
import proofs.«115261_j72756745994565_1_alg».proof.Proof.Chain1

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Carried to the second layer -/
theorem arg4_at6 : W6 m ρ c (Proc.devRef .tc main_arg4) = a4 m c :=
  (W6_of_ne m ρ c main_arg4 (by decide)).trans ((keep_host2 (W4 m ρ c) (by decide)).trans (arg4_at4 m ρ c))
theorem arg5_at6 : W6 m ρ c (Proc.devRef .tc main_arg5) = a5 m c :=
  (W6_of_ne m ρ c main_arg5 (by decide)).trans ((keep_host2 (W4 m ρ c) (by decide)).trans (arg5_at4 m ρ c))
theorem v1_at6 : W6 m ρ c (Proc.devRef .tc main_v1) = Cert.Stages.src (F := Ideal) (a1 m c) :=
  (W6_of_ne m ρ c main_v1 (by decide)).trans ((keep_host2 (W4 m ρ c) (by decide)).trans (v1_at4 m ρ c))
theorem v3_at6 : W6 m ρ c (Proc.devRef .tc main_v3) = Cert.Stages.dst (F := Ideal) (a1 m c) :=
  (W6_of_ne m ρ c main_v3 (by decide)).trans ((keep_host2 (W4 m ρ c) (by decide)).trans (v3_at4 m ρ c))
theorem v25_at6 : W6 m ρ c (Proc.devRef .tc main_v25) = Cert.Stages.norm (F := Ideal) (a1 m c) :=
  (W6_of_ne m ρ c main_v25 (by decide)).trans ((keep_host2 (W4 m ρ c) (by decide)).trans (v25_at4 m ρ c))
theorem v28_at6 : W6 m ρ c (Proc.devRef .tc main_v28) = Cert.Stages.sn (F := Ideal) (a1 m c) :=
  (W6_of_ne m ρ c main_v28 (by decide)).trans ((keep_host2 (W4 m ρ c) (by decide)).trans (v28_at4 m ρ c))
theorem arg4_at8 : W8 m ρ c (Proc.devRef .tc main_arg4) = a4 m c :=
  (W8_of_ne m ρ c main_arg4 (by decide)).trans ((keep_host3 (W6 m ρ c) (by decide)).trans (arg4_at6 m ρ c))
theorem arg5_at8 : W8 m ρ c (Proc.devRef .tc main_arg5) = a5 m c :=
  (W8_of_ne m ρ c main_arg5 (by decide)).trans ((keep_host3 (W6 m ρ c) (by decide)).trans (arg5_at6 m ρ c))
theorem v1_at8 : W8 m ρ c (Proc.devRef .tc main_v1) = Cert.Stages.src (F := Ideal) (a1 m c) :=
  (W8_of_ne m ρ c main_v1 (by decide)).trans ((keep_host3 (W6 m ρ c) (by decide)).trans (v1_at6 m ρ c))
theorem v3_at8 : W8 m ρ c (Proc.devRef .tc main_v3) = Cert.Stages.dst (F := Ideal) (a1 m c) :=
  (W8_of_ne m ρ c main_v3 (by decide)).trans ((keep_host3 (W6 m ρ c) (by decide)).trans (v3_at6 m ρ c))
theorem v25_at8 : W8 m ρ c (Proc.devRef .tc main_v25) = Cert.Stages.norm (F := Ideal) (a1 m c) :=
  (W8_of_ne m ρ c main_v25 (by decide)).trans ((keep_host3 (W6 m ρ c) (by decide)).trans (v25_at6 m ρ c))
theorem v28_at8 : W8 m ρ c (Proc.devRef .tc main_v28) = Cert.Stages.sn (F := Ideal) (a1 m c) :=
  (W8_of_ne m ρ c main_v28 (by decide)).trans ((keep_host3 (W6 m ρ c) (by decide)).trans (v28_at6 m ρ c))

/-! ## Layer 1: the product -/

theorem b7_v53 (R : RegionValues) : W7 m ρ c (Proc.devRef .tc main_v53) = Cert.Stages.h1 (F := Ideal) (a0 m c) (a1 m c) (a2 m c) (a3 m c) (a4 m c) (a5 m c) :=
  (keep_host3 (W6 m ρ c) (by decide)).trans (b6_v53 m ρ c R)

theorem b7_v56 : W7 m ρ c (Proc.devRef .tc main_v56) = Cert.Stages.ws1 (F := Ideal) (a4 m c) := by
  show StableHlo.after hostOps3 (W6 m ρ c) (Proc.devRef .tc main_v56) = _
  dsimp only [hostOps3]
  after_results_simp
  rw [arg4_at6 m ρ c]
  rfl

theorem b7_v57 : W7 m ρ c (Proc.devRef .tc main_v57) = zrow := by
  show StableHlo.after hostOps3 (W6 m ρ c) (Proc.devRef .tc main_v57) = _
  dsimp only [hostOps3]
  after_results_simp
  rfl

theorem b8_v58 (R : RegionValues) : W8 m ρ c (Proc.devRef .tc main_v58) = Cert.Stages.g1 (F := Ideal) (a0 m c) (a1 m c) (a2 m c) (a3 m c) (a4 m c) (a5 m c) :=
  (W8_arr m ρ c 3).trans ((R.r3 (V7 m ρ) c).trans (by
    show Cert.Stages.linH (F := Ideal) (W7 m ρ c (Proc.devRef .tc main_v53)) (W7 m ρ c (Proc.devRef .tc main_v56)) (W7 m ρ c (Proc.devRef .tc main_v57)) = _
    rw [b7_v53 m ρ c R, b7_v56 m ρ c, b7_v57 m ρ c, linH_zrow]
    rfl))

/-! ## Layer 1: the aggregate and the combination -/

theorem b9_v58 (R : RegionValues) : W9 m ρ c (Proc.devRef .tc main_v58) = Cert.Stages.g1 (F := Ideal) (a0 m c) (a1 m c) (a2 m c) (a3 m c) (a4 m c) (a5 m c) :=
  (keep_host4 (W8 m ρ c) (by decide)).trans (b8_v58 m ρ c R)

theorem b9_v71 (R : RegionValues) : W9 m ρ c (Proc.devRef .tc main_v71) = Cert.Stages.agg (F := Ideal) (Cert.Stages.g1 (F := Ideal) (a0 m c) (a1 m c) (a2 m c) (a3 m c) (a4 m c) (a5 m c)) (a1 m c) := by
  show StableHlo.after hostOps4 (W8 m ρ c) (Proc.devRef .tc main_v71) = _
  dsimp only [hostOps4]
  after_results_simp
  rw [b8_v58 m ρ c R, v1_at8 m ρ c, v3_at8 m ρ c, v25_at8 m ρ c]
  rfl

theorem b9_v74 : W9 m ρ c (Proc.devRef .tc main_v74) = Cert.Stages.col (F := Ideal) (Cert.Stages.sn (F := Ideal) (a1 m c)) := by
  show StableHlo.after hostOps4 (W8 m ρ c) (Proc.devRef .tc main_v74) = _
  dsimp only [hostOps4]
  after_results_simp
  rw [v28_at8 m ρ c]
  exact Cert.LibUnitAxes.shapeCast_a_a1_eq_broadcastInDim _ _ _

theorem b9_v75 : W9 m ρ c (Proc.devRef .tc main_v75) = Cert.Stages.row64 (F := Ideal) (Cert.Stages.bs1 (F := Ideal) (a5 m c)) := by
  show StableHlo.after hostOps4 (W8 m ρ c) (Proc.devRef .tc main_v75) = _
  dsimp only [hostOps4]
  after_results_simp
  rw [arg5_at8 m ρ c]
  exact Cert.LibUnitAxes.shapeCast_a_1a_eq_broadcastInDim _ _ _

theorem b10_v76 (R : RegionValues) : W10 m ρ c (Proc.devRef .tc main_v76) = Cert.Stages.h2 (F := Ideal) (a0 m c) (a1 m c) (a2 m c) (a3 m c) (a4 m c) (a5 m c) :=
  (W10_arr m ρ c 4).trans ((R.r4 (V9 m ρ) c).trans (by
    show Cert.Stages.comb (F := Ideal) (W9 m ρ c (Proc.devRef .tc main_v71)) (W9 m ρ c (Proc.devRef .tc main_v58)) (W9 m ρ c (Proc.devRef .tc main_v74)) (W9 m ρ c (Proc.devRef .tc main_v75)) = _
    rw [b9_v71 m ρ c R, b9_v58 m ρ c R, b9_v74 m ρ c, b9_v75 m ρ c]
    rfl))

end Cert.KernelIdeal.Chain

end
-- ==== Proof.Chain3.lean ====
/-
  The buffers at the boundaries of the third layer: g2 = h2 · Ws[2], the aggregate of g2, the self-loop column, the
  bias row, and h3.
-/
import proofs.«115261_j72756745994565_1_alg».proof.Proof.Chain2

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Carried to the third layer -/
theorem arg4_at10 : W10 m ρ c (Proc.devRef .tc main_arg4) = a4 m c :=
  (W10_of_ne m ρ c main_arg4 (by decide)).trans ((keep_host4 (W8 m ρ c) (by decide)).trans (arg4_at8 m ρ c))
theorem arg5_at10 : W10 m ρ c (Proc.devRef .tc main_arg5) = a5 m c :=
  (W10_of_ne m ρ c main_arg5 (by decide)).trans ((keep_host4 (W8 m ρ c) (by decide)).trans (arg5_at8 m ρ c))
theorem v1_at10 : W10 m ρ c (Proc.devRef .tc main_v1) = Cert.Stages.src (F := Ideal) (a1 m c) :=
  (W10_of_ne m ρ c main_v1 (by decide)).trans ((keep_host4 (W8 m ρ c) (by decide)).trans (v1_at8 m ρ c))
theorem v3_at10 : W10 m ρ c (Proc.devRef .tc main_v3) = Cert.Stages.dst (F := Ideal) (a1 m c) :=
  (W10_of_ne m ρ c main_v3 (by decide)).trans ((keep_host4 (W8 m ρ c) (by decide)).trans (v3_at8 m ρ c))
theorem v25_at10 : W10 m ρ c (Proc.devRef .tc main_v25) = Cert.Stages.norm (F := Ideal) (a1 m c) :=
  (W10_of_ne m ρ c main_v25 (by decide)).trans ((keep_host4 (W8 m ρ c) (by decide)).trans (v25_at8 m ρ c))
theorem v28_at10 : W10 m ρ c (Proc.devRef .tc main_v28) = Cert.Stages.sn (F := Ideal) (a1 m c) :=
  (W10_of_ne m ρ c main_v28 (by decide)).trans ((keep_host4 (W8 m ρ c) (by decide)).trans (v28_at8 m ρ c))
theorem arg4_at12 : W12 m ρ c (Proc.devRef .tc main_arg4) = a4 m c :=
  (W12_of_ne m ρ c main_arg4 (by decide)).trans ((keep_host5 (W10 m ρ c) (by decide)).trans (arg4_at10 m ρ c))
theorem arg5_at12 : W12 m ρ c (Proc.devRef .tc main_arg5) = a5 m c :=
  (W12_of_ne m ρ c main_arg5 (by decide)).trans ((keep_host5 (W10 m ρ c) (by decide)).trans (arg5_at10 m ρ c))
theorem v1_at12 : W12 m ρ c (Proc.devRef .tc main_v1) = Cert.Stages.src (F := Ideal) (a1 m c) :=
  (W12_of_ne m ρ c main_v1 (by decide)).trans ((keep_host5 (W10 m ρ c) (by decide)).trans (v1_at10 m ρ c))
theorem v3_at12 : W12 m ρ c (Proc.devRef .tc main_v3) = Cert.Stages.dst (F := Ideal) (a1 m c) :=
  (W12_of_ne m ρ c main_v3 (by decide)).trans ((keep_host5 (W10 m ρ c) (by decide)).trans (v3_at10 m ρ c))
theorem v25_at12 : W12 m ρ c (Proc.devRef .tc main_v25) = Cert.Stages.norm (F := Ideal) (a1 m c) :=
  (W12_of_ne m ρ c main_v25 (by decide)).trans ((keep_host5 (W10 m ρ c) (by decide)).trans (v25_at10 m ρ c))
theorem v28_at12 : W12 m ρ c (Proc.devRef .tc main_v28) = Cert.Stages.sn (F := Ideal) (a1 m c) :=
  (W12_of_ne m ρ c main_v28 (by decide)).trans ((keep_host5 (W10 m ρ c) (by decide)).trans (v28_at10 m ρ c))

/-! ## Layer 2: the product -/

theorem b11_v76 (R : RegionValues) : W11 m ρ c (Proc.devRef .tc main_v76) = Cert.Stages.h2 (F := Ideal) (a0 m c) (a1 m c) (a2 m c) (a3 m c) (a4 m c) (a5 m c) :=
  (keep_host5 (W10 m ρ c) (by decide)).trans (b10_v76 m ρ c R)

theorem b11_v79 : W11 m ρ c (Proc.devRef .tc main_v79) = Cert.Stages.ws2 (F := Ideal) (a4 m c) := by
  show StableHlo.after hostOps5 (W10 m ρ c) (Proc.devRef .tc main_v79) = _
  dsimp only [hostOps5]
  after_results_simp
  rw [arg4_at10 m ρ c]
  rfl

theorem b11_v80 : W11 m ρ c (Proc.devRef .tc main_v80) = zrow := by
  show StableHlo.after hostOps5 (W10 m ρ c) (Proc.devRef .tc main_v80) = _
  dsimp only [hostOps5]
  after_results_simp
  rfl

theorem b12_v81 (R : RegionValues) : W12 m ρ c (Proc.devRef .tc main_v81) = Cert.Stages.g2 (F := Ideal) (a0 m c) (a1 m c) (a2 m c) (a3 m c) (a4 m c) (a5 m c) :=
  (W12_arr m ρ c 3).trans ((R.r5 (V11 m ρ) c).trans (by
    show Cert.Stages.linH (F := Ideal) (W11 m ρ c (Proc.devRef .tc main_v76)) (W11 m ρ c (Proc.devRef .tc main_v79)) (W11 m ρ c (Proc.devRef .tc main_v80)) = _
    rw [b11_v76 m ρ c R, b11_v79 m ρ c, b11_v80 m ρ c, linH_zrow]
    rfl))

/-! ## Layer 2: the aggregate and the combination -/

theorem b13_v81 (R : RegionValues) : W13 m ρ c (Proc.devRef .tc main_v81) = Cert.Stages.g2 (F := Ideal) (a0 m c) (a1 m c) (a2 m c) (a3 m c) (a4 m c) (a5 m c) :=
  (keep_host6 (W12 m ρ c) (by decide)).trans (b12_v81 m ρ c R)

theorem b13_v94 (R : RegionValues) : W13 m ρ c (Proc.devRef .tc main_v94) = Cert.Stages.agg (F := Ideal) (Cert.Stages.g2 (F := Ideal) (a0 m c) (a1 m c) (a2 m c) (a3 m c) (a4 m c) (a5 m c)) (a1 m c) := by
  show StableHlo.after hostOps6 (W12 m ρ c) (Proc.devRef .tc main_v94) = _
  dsimp only [hostOps6]
  after_results_simp
  rw [b12_v81 m ρ c R, v1_at12 m ρ c, v3_at12 m ρ c, v25_at12 m ρ c]
  rfl

theorem b13_v97 : W13 m ρ c (Proc.devRef .tc main_v97) = Cert.Stages.col (F := Ideal) (Cert.Stages.sn (F := Ideal) (a1 m c)) := by
  show StableHlo.after hostOps6 (W12 m ρ c) (Proc.devRef .tc main_v97) = _
  dsimp only [hostOps6]
  after_results_simp
  rw [v28_at12 m ρ c]
  exact Cert.LibUnitAxes.shapeCast_a_a1_eq_broadcastInDim _ _ _

theorem b13_v98 : W13 m ρ c (Proc.devRef .tc main_v98) = Cert.Stages.row64 (F := Ideal) (Cert.Stages.bs2 (F := Ideal) (a5 m c)) := by
  show StableHlo.after hostOps6 (W12 m ρ c) (Proc.devRef .tc main_v98) = _
  dsimp only [hostOps6]
  after_results_simp
  rw [arg5_at12 m ρ c]
  exact Cert.LibUnitAxes.shapeCast_a_1a_eq_broadcastInDim _ _ _

theorem b14_v99 (R : RegionValues) : W14 m ρ c (Proc.devRef .tc main_v99) = Cert.Stages.h3 (F := Ideal) (a0 m c) (a1 m c) (a2 m c) (a3 m c) (a4 m c) (a5 m c) :=
  (W14_arr m ρ c 4).trans ((R.r6 (V13 m ρ) c).trans (by
    show Cert.Stages.comb (F := Ideal) (W13 m ρ c (Proc.devRef .tc main_v94)) (W13 m ρ c (Proc.devRef .tc main_v81)) (W13 m ρ c (Proc.devRef .tc main_v97)) (W13 m ρ c (Proc.devRef .tc main_v98)) = _
    rw [b13_v94 m ρ c R, b13_v81 m ρ c R, b13_v97 m ρ c, b13_v98 m ρ c]
    rfl))

end Cert.KernelIdeal.Chain

end
-- ==== Proof.Chain4.lean ====
/-
  The last boundary.  The output weights and bias are carried from the first boundary to the last region, the bias cast
  to a row; the region leaves h3 · W_post + b_post in the result buffer: the network's result of the eight arguments.
-/
import proofs.«115261_j72756745994565_1_alg».proof.Proof.Chain3

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem arg7_at14 : W14 m ρ c (Proc.devRef .tc main_arg7) = a7 m c :=
  (W14_of_ne m ρ c main_arg7 (by decide)).trans ((keep_host6 (W12 m ρ c) (by decide)).trans ((W12_of_ne m ρ c main_arg7 (by decide)).trans ((keep_host5 (W10 m ρ c) (by decide)).trans ((W10_of_ne m ρ c main_arg7 (by decide)).trans ((keep_host4 (W8 m ρ c) (by decide)).trans ((W8_of_ne m ρ c main_arg7 (by decide)).trans ((keep_host3 (W6 m ρ c) (by decide)).trans ((W6_of_ne m ρ c main_arg7 (by decide)).trans ((keep_host2 (W4 m ρ c) (by decide)).trans ((W4_of_ne m ρ c main_arg7 (by decide)).trans ((keep_host1 (W2 m ρ c) (by decide)).trans ((W2_of_ne m ρ c main_arg7 (by decide)).trans (b1_arg7 m ρ c)))))))))))))

theorem arg6_at15 : W15 m ρ c (Proc.devRef .tc main_arg6) = a6 m c :=
  (keep_host7 (W14 m ρ c) (by decide)).trans ((W14_of_ne m ρ c main_arg6 (by decide)).trans ((keep_host6 (W12 m ρ c) (by decide)).trans ((W12_of_ne m ρ c main_arg6 (by decide)).trans ((keep_host5 (W10 m ρ c) (by decide)).trans ((W10_of_ne m ρ c main_arg6 (by decide)).trans ((keep_host4 (W8 m ρ c) (by decide)).trans ((W8_of_ne m ρ c main_arg6 (by decide)).trans ((keep_host3 (W6 m ρ c) (by decide)).trans ((W6_of_ne m ρ c main_arg6 (by decide)).trans ((keep_host2 (W4 m ρ c) (by decide)).trans ((W4_of_ne m ρ c main_arg6 (by decide)).trans ((keep_host1 (W2 m ρ c) (by decide)).trans ((W2_of_ne m ρ c main_arg6 (by decide)).trans (b1_arg6 m ρ c))))))))))))))

theorem b15_v99 (R : RegionValues) : W15 m ρ c (Proc.devRef .tc main_v99) = Cert.Stages.h3 (F := Ideal) (a0 m c) (a1 m c) (a2 m c) (a3 m c) (a4 m c) (a5 m c) :=
  (keep_host7 (W14 m ρ c) (by decide)).trans (b14_v99 m ρ c R)

theorem b15_v100 : W15 m ρ c (Proc.devRef .tc main_v100) = Cert.Stages.row32 (F := Ideal) (a7 m c) := by
  show StableHlo.after hostOps7 (W14 m ρ c) (Proc.devRef .tc main_v100) = _
  dsimp only [hostOps7]
  after_results_simp
  rw [arg7_at14 m ρ c]
  exact Cert.LibUnitAxes.shapeCast_a_1a_eq_broadcastInDim _ _ _

/-- THE RESULT BUFFER at the last boundary holds the network's result of the argument arrays as launched. -/
theorem result (R : RegionValues) : W16 m ρ c (Proc.devRef .tc main_v101) = Cert.Stages.out (F := Ideal) (a0 m c) (a1 m c) (a2 m c) (a3 m c) (a4 m c) (a5 m c) (a6 m c) (a7 m c) :=
  (W16_arr m ρ c 3).trans ((R.r7 (V15 m ρ) c).trans (by
    show Cert.Stages.linOut (F := Ideal) (W15 m ρ c (Proc.devRef .tc main_v99)) (W15 m ρ c (Proc.devRef .tc main_arg6)) (W15 m ρ c (Proc.devRef .tc main_v100)) = _
    rw [b15_v99 m ρ c R, arg6_at15 m ρ c, b15_v100 m ρ c]
    rfl))

end Cert.KernelIdeal.Chain

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.LibRowTileDot.lean ====
/-
  A row tile of a matrix product.  Cut the rows of an M × K array X into tiles of B rows; the tile that holds row r at its
  local row p is a B × K array T with T(p, k) = X(r, k).  Multiplying the tile by the whole K × N array W gives, at the
  entry (p, c), the sum over k < K of T(p, k) · W(k, c) = X(r, k) · W(k, c): the entry (r, c) of the whole product X · W.
  Nothing but the two sums being the same sum term by term is used, so the statement holds on the extended reals with
  no finiteness assumption.  The tile's product is the kernel's (into a zero accumulator); the whole product is the
  host's.  Each operand of the tile's product may be a copy of the whole array's rows or columns in any float format:
  only the values at the entries the sum visits are compared.
-/
import Idealize.ShloMosaic.PureOps.Ideal.Laws
import Idealize.ShloMosaic.Lib.ValueIdx
import proofs.«115261_j72756745994565_1_alg».proof.Proof.LibPlainDot

noncomputable section

namespace Cert.LibRowTileDot

open Idealize.ShloMosaic Idealize.ShloMosaic.ValueIdx

variable {M B K N : Nat} {φ₁ φ₂ ψ₁ ψ₂ : FTy}
  (Dt : DotDims (⟨2, ![B, K]⟩ : Shape) (⟨2, ![K, N]⟩ : Shape) (⟨2, ![B, N]⟩ : Shape))
  (htrank : Dt.contr.rank = 1) (htsize : Dt.contr.size ⟨0, by omega⟩ = K)
  (htlc : Dt.lhsContracting = [1]) (htrc : Dt.rhsContracting = [0])
  (htL0 : ∀ j k, (Dt.lhsIdx j k 0).val = (j 0).val) (htR1 : ∀ j k, (Dt.rhsIdx j k 1).val = (j 1).val)
  (Dh : DotDims (⟨2, ![M, K]⟩ : Shape) (⟨2, ![K, N]⟩ : Shape) (⟨2, ![M, N]⟩ : Shape))
  (hhrank : Dh.contr.rank = 1) (hhsize : Dh.contr.size ⟨0, by omega⟩ = K)
  (hhlc : Dh.lhsContracting = [1]) (hhrc : Dh.rhsContracting = [0])
  (hhL0 : ∀ j k, (Dh.lhsIdx j k 0).val = (j 0).val) (hhR1 : ∀ j k, (Dh.rhsIdx j k 1).val = (j 1).val)

include htrank htsize htlc htrc htL0 htR1 hhrank hhsize hhlc hhrc hhL0 hhR1 in
/-- Entry (p, c) of the tile's product into a zero accumulator is entry (r, c) of the whole host product, when the
    tile's row p is the whole array's row r and the tile's right operand has the whole right operand's column c. -/
theorem tile_entry (prec prec' : Option ContractPrecision) (sched : HostSchedule)
    (T : FVec Ideal (⟨2, ![B, K]⟩ : Shape) φ₁) (Wt : FVec Ideal (⟨2, ![K, N]⟩ : Shape) φ₂)
    (X : FVec Ideal (⟨2, ![M, K]⟩ : Shape) ψ₁) (W : FVec Ideal (⟨2, ![K, N]⟩ : Shape) ψ₂)
    (p : Fin B) (c : Fin N) (r : Fin M)
    (hT : ∀ k : Fin K, (T (ix2 p k) : EReal) = X (ix2 r k)) (hW : ∀ k : Fin K, (Wt (ix2 k c) : EReal) = W (ix2 k c)) :
    FloatOps.matmul Dt prec T Wt (constant (⟨2, ![B, N]⟩ : Shape) .f32 0x00000000#32) (ix2 p c)
      = FloatOps.dotGeneral Dh prec' sched X W (ix2 r c) := by
  rw [Cert.LibPlainDot.matmul_zero_apply Dt htrank htsize htlc htrc htL0 htR1 prec T Wt p c,
    Cert.LibPlainDot.dotGeneral_apply Dh hhrank hhsize hhlc hhrc hhL0 hhR1 prec' sched X W r c]
  exact Finset.sum_congr rfl fun k _ => by rw [hT k, hW k]

end Cert.LibRowTileDot

end
-- ==== Proof.Region0.lean ====
import proofs.«115261_j72756745994565_1_alg».proof.Proof.Gen.KernelIdeal.Frame
import proofs.«115261_j72756745994565_1_alg».proof.Proof.Stages
import Idealize.ShloMosaic.Lib.Pipeline.Value
import Idealize.ShloMosaic.Lib.ValueIdx
import Idealize.ShloMosaic.Lib.ValueLayout
import Idealize.ShloMosaic.PureOps.Ideal.Laws
import proofs.«115261_j72756745994565_1_alg».proof.Proof.LibRowTileDot
import proofs.«115261_j72756745994565_1_alg».proof.Proof.LibUnitAxes

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)

open Idealize.ShloMosaic.ValueIdx

/-! # Region 0: a product with a weight matrix plus a bias row, 128 → 64 features

The region walks the 80000 rows of X in twenty tiles of 4000.  At tile t its body multiplies rows 4000·t … 4000·t + 3999
of X by the whole 128 × 64 matrix W into a zero accumulator and adds the 1 × 64 row B to every row of the product.
Entry (p, q) of the stored block is therefore (the sum over k of X(4000·t + p, k) · W(k, q)) + B(0, q): entry (4000·t + p, q)
of X · W + B spread over the rows.  Every written-back block is a block of that one array and the twenty blocks tile it,
so the region leaves its output array holding it. -/

/-! ## The two products' dimension numbers

Both the row tile's product (4000 rows) and the whole product (80000 rows) contract the left operand's axis 1 with the
right operand's axis 0 and have no batch axis: the left operand's row is the output's row, the right operand's column
is the output's column. -/

theorem tileL0 (j : S4000x64.Idx) (k : dot_S4000x128_S128x64_S4000x64_1_0_0_1_n_n.contr.Idx) :
    (dot_S4000x128_S128x64_S4000x64_1_0_0_1_n_n.lhsIdx j k 0).val = (j 0).val := by
  unfold DotDims.lhsIdx
  rw [dif_neg (show ¬(0 : Fin S4000x128.rank) ∈ dot_S4000x128_S128x64_S4000x64_1_0_0_1_n_n.lhsBatch by decide),
    dif_pos (show (0 : Fin S4000x128.rank) ∈ dot_S4000x128_S128x64_S4000x64_1_0_0_1_n_n.lhsNonContracting by decide)]
  rfl

theorem tileR1 (j : S4000x64.Idx) (k : dot_S4000x128_S128x64_S4000x64_1_0_0_1_n_n.contr.Idx) :
    (dot_S4000x128_S128x64_S4000x64_1_0_0_1_n_n.rhsIdx j k 1).val = (j 1).val := by
  unfold DotDims.rhsIdx
  rw [dif_neg (show ¬(1 : Fin S128x64.rank) ∈ dot_S4000x128_S128x64_S4000x64_1_0_0_1_n_n.rhsBatch by decide),
    dif_pos (show (1 : Fin S128x64.rank) ∈ dot_S4000x128_S128x64_S4000x64_1_0_0_1_n_n.rhsNonContracting by decide)]
  rfl

theorem wholeL0 (j : Cert.ReferenceIdeal.S80000x64.Idx) (k : Cert.ReferenceIdeal.dot_S80000x128_S128x64_S80000x64_1_0_0_1_n_n.contr.Idx) :
    (Cert.ReferenceIdeal.dot_S80000x128_S128x64_S80000x64_1_0_0_1_n_n.lhsIdx j k 0).val = (j 0).val := by
  unfold DotDims.lhsIdx
  rw [dif_neg (show ¬(0 : Fin Cert.ReferenceIdeal.S80000x128.rank) ∈ Cert.ReferenceIdeal.dot_S80000x128_S128x64_S80000x64_1_0_0_1_n_n.lhsBatch by decide),
    dif_pos (show (0 : Fin Cert.ReferenceIdeal.S80000x128.rank) ∈ Cert.ReferenceIdeal.dot_S80000x128_S128x64_S80000x64_1_0_0_1_n_n.lhsNonContracting by decide)]
  rfl

theorem wholeR1 (j : Cert.ReferenceIdeal.S80000x64.Idx) (k : Cert.ReferenceIdeal.dot_S80000x128_S128x64_S80000x64_1_0_0_1_n_n.contr.Idx) :
    (Cert.ReferenceIdeal.dot_S80000x128_S128x64_S80000x64_1_0_0_1_n_n.rhsIdx j k 1).val = (j 1).val := by
  unfold DotDims.rhsIdx
  rw [dif_neg (show ¬(1 : Fin Cert.ReferenceIdeal.S128x64.rank) ∈ Cert.ReferenceIdeal.dot_S80000x128_S128x64_S80000x64_1_0_0_1_n_n.rhsBatch by decide),
    dif_pos (show (1 : Fin Cert.ReferenceIdeal.S128x64.rank) ∈ Cert.ReferenceIdeal.dot_S80000x128_S128x64_S80000x64_1_0_0_1_n_n.rhsNonContracting by decide)]
  rfl

/-! ## The body's payload at an entry -/

/-- Entry (p, q) of what the body stores, when the loaded row tile's row p is row r of the whole array X: the sum over k
    of X(r, k) · W(k, q), plus B(0, q) — entry (r, q) of X · W + the bias row spread over the rows.  The change of float
    format of the two operands is the identity on the extended reals; a cast between equal shapes moves nothing. -/
theorem pay_entry (x0 : Vec Ideal S4000x128 .f32) (W : Vec Ideal S128x64 .f32) (B : Vec Ideal S1x64 .f32)
    (X : Vec Ideal Cert.ReferenceIdeal.S80000x128 .f32) (p : Fin 4000) (q : Fin 64) (r : Fin 80000)
    (hX : ∀ k : Fin 128, (x0 (ix2 p k) : EReal) = X (ix2 r k)) :
    k0_pay1 (F := Ideal) x0 W B (ix2 p q) = Cert.Stages.linIn (F := Ideal) X W B (ix2 r q) := by
  unfold k0_pay1 Cert.Stages.linIn
  refine congrArg₂ (· + ·) ?_ ?_
  · exact Cert.LibRowTileDot.tile_entry dot_S4000x128_S128x64_S4000x64_1_0_0_1_n_n rfl rfl rfl rfl tileL0 tileR1
      Cert.ReferenceIdeal.dot_S80000x128_S128x64_S80000x64_1_0_0_1_n_n rfl rfl rfl rfl wholeL0 wholeR1 none none HostSchedule.single
      (truncf FTy.bf16 x0 bitsLt_bf16_f32)
      (truncf FTy.bf16 W bitsLt_bf16_f32) X W p q r
      hX
      (fun _ => rfl)
  · refine (broadcastTo_1b_ab_apply _ broadcasts_S1x64_S4000x64 p q).trans ?_
    rw [shapeCast_self]
    exact (Cert.LibUnitAxes.broadcastInDim_1b_ab_apply B Cert.ReferenceIdeal.Gen.bcast_S1x64_S80000x64_0_1 r q).symm

/-! ## From the blocks to the array -/

theorem hz : (![0, 0] : Fin 2 → Nat) = fun _ => 0 := funext fun a => by fin_cases a <;> rfl

/-- The index maps over the grid: at point t the row tile and the output block are block t along the rows and block 0
    along the features; the weight matrix and the bias row are their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section Blocks

variable (V : (c : Dev nD) → (b : Ref sig .tc) → Buf (Elt Ideal) ((c : Thread nD τ).loc b)) (c : Dev nD)

/-- Row p of point t's row tile is row 4000·t + p of the whole array. -/
theorem tile_row (t : Fin cfg0.N) (p : Fin 4000) (k : Fin 128) (r : Fin 80000) (hr : r.val = 4000 * t.val + p.val) :
    iblk0 (F := Ideal) V c 0 t (ix2 p k) = V c main_arg0 (ix2 r k) := by
  obtain ⟨e0, e1, -⟩ := idx_facts t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 4000 + 1 * p.val = r.val; omega
  | ⟨1, _⟩ => show win0_0.index t (1 : Fin 2) * 128 + 1 * k.val = k.val; omega

/-- Every point's weight block is the whole weight matrix. -/
theorem weight_blk (t : Fin cfg0.N) : iblk0 (F := Ideal) V c 1 t = V c main_arg2 := by
  obtain ⟨-, -, e2, e3, -⟩ := idx_facts t
  funext y
  show V c main_arg2 (((cfg0.win 1).blk t).view.emb y) = V c main_arg2 y
  refine congrArg (V c main_arg2) (funext fun a => Fin.ext ?_)
  match a with
  | ⟨0, _⟩ => show win0_1.index t (0 : Fin 2) * 128 + 1 * (y 0).val = (y 0).val; omega
  | ⟨1, _⟩ => show win0_1.index t (1 : Fin 2) * 64 + 1 * (y 1).val = (y 1).val; omega

/-- Every point's bias block is the whole bias row. -/
theorem bias_blk (t : Fin cfg0.N) : iblk0 (F := Ideal) V c 2 t = V c main_v29 := by
  obtain ⟨-, -, -, -, e4, e5, -⟩ := idx_facts t
  funext y
  show V c main_v29 (((cfg0.win 2).blk t).view.emb y) = V c main_v29 y
  refine congrArg (V c main_v29) (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- Entry j of what the body stores at point t is the entry of X · W + the spread bias row, 4000·t rows further down. -/
theorem block_entry (t : Fin cfg0.N) (j : S4000x64.Idx) (i : S80000x64.Idx)
    (hi0 : (i 0).val = 4000 * t.val + (j 0).val) (hi1 : (i 1).val = (j 1).val) :
    k0_pay1 (F := Ideal) (iblk0 V c 0 t) (V c main_arg2) (V c main_v29) j
      = Cert.Stages.linIn (F := Ideal) (V c main_arg0) (V c main_arg2) (V c main_v29) i := by
  obtain ⟨p, q, rfl⟩ : ∃ (p : Fin 4000) (q : Fin 64), j = ix2 p q := ⟨j 0, j 1, eq_ix2 j⟩
  obtain ⟨r, q', rfl⟩ : ∃ (r : Fin 80000) (q' : Fin 64), i = ix2 r q' := ⟨i 0, i 1, eq_ix2 i⟩
  obtain rfl : q' = q := Fin.ext hi1
  exact pay_entry _ _ _ _ p q' r fun k => tile_row V c t p k r hi0

/-- WHAT POINT t WRITES BACK is block t of X · W + the bias row spread over the rows, X, W, B the region's three
    input arrays as it finds them. -/
theorem flushed_eq (t : Fin cfg0.N) :
    (dat0 (F := Ideal) V c).flushed 3 t
      = ((cfg0.win 3).blk t).view.read (Elt Ideal) (Cert.Stages.linIn (F := Ideal) (V c main_arg0) (V c main_arg2) (V c main_v29)) := by
  show (cfg0.win 3).cut (grid0.coords t) ((dat0 V c).after 3 t) = _
  rw [after0_3]
  unfold out0_3
  rw [View.canon_unit_zero hz]
  simp only [View.ld_unit_zero (S := S4000x128) hz, View.ld_unit_zero (S := S128x64) hz, View.ld_unit_zero (S := S1x64) hz]
  rw [weight_blk, bias_blk]
  obtain ⟨-, -, -, -, -, -, e6, e7⟩ := idx_facts t
  funext j
  refine block_entry V c t j (((cfg0.win 3).blk t).view.emb j) ?_ ?_
  · show win0_3.index t (0 : Fin 2) * 4000 + 1 * (j 0).val = 4000 * t.val + (j 0).val; omega
  · show win0_3.index t (1 : Fin 2) * 64 + 1 * (j 1).val = (j 1).val; omega

end Blocks

/-- An index of the array is in point t's block iff each coordinate is in the block's range on its axis. -/
theorem mem_blk (t : Fin cfg0.N) (i : S80000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v30).slice (win0_3.rect t)).set ↔ _
  rw [View.set_slice_whole, Rect.mem_set_unit]
  exact Iff.rfl

/-- Row r of the array is in the block of point r / 4000: the twenty blocks of 4000 rows tile the 80000 rows. -/
theorem cover (i : S80000x64.Idx) : ∃ t : Fin cfg0.N, (cfg0.win 3).flush t = true ∧ i ∈ ((cfg0.win 3).blk t).view.set := by
  have hN : grid0.N = 20 := N_0
  have hi0 : (i 0).val < 80000 := (i 0).isLt
  have hi1 : (i 1).val < 64 := (i 1).isLt
  let t : Fin cfg0.N := ⟨(i 0).val / 4000, by show (i 0).val / 4000 < grid0.N; omega⟩
  obtain ⟨-, -, -, -, -, -, e6, e7⟩ := idx_facts t
  have ht : t.val = (i 0).val / 4000 := rfl
  refine ⟨t, flush0_3 t, ?_⟩
  rw [mem_blk]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 64 ≤ (i 1).val ∧ (i 1).val < win0_3.index t (1 : Fin 2) * 64 + 64; omega

/-- THE ARRAY the region leaves: X · W + the bias row spread over the rows. -/
theorem value (V : (c : Dev nD) → (b : Ref sig .tc) → Buf (Elt Ideal) ((c : Thread nD τ).loc b)) (c : Dev nD) :
    (dat0 (F := Ideal) V c).arrAt 3 cfg0.N = Cert.Stages.linIn (F := Ideal) (V c main_arg0) (V c main_arg2) (V c main_v29) :=
  (dat0 (F := Ideal) V c).arrAt_eq_of_cover 3 (Cert.Stages.linIn (F := Ideal) (V c main_arg0) (V c main_arg2) (V c main_v29))
    (fun t _ => flushed_eq V c t) cover

end Cert.KernelIdeal.Region0

end
-- ==== Proof.Region1.lean ====
import proofs.«115261_j72756745994565_1_alg».proof.Proof.Gen.KernelIdeal.Frame
import proofs.«115261_j72756745994565_1_alg».proof.Proof.Stages
import Idealize.ShloMosaic.Lib.Pipeline.Value
import Idealize.ShloMosaic.Lib.ValueIdx
import Idealize.ShloMosaic.Lib.ValueLayout
import Idealize.ShloMosaic.PureOps.Ideal.Laws
import proofs.«115261_j72756745994565_1_alg».proof.Proof.LibRowTileDot
import proofs.«115261_j72756745994565_1_alg».proof.Proof.LibUnitAxes

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)

open Idealize.ShloMosaic.ValueIdx

/-! # Region 1: a product with a weight matrix plus a bias row, 64 → 64 features

The region walks the 80000 rows of X in twenty tiles of 4000.  At tile t its body multiplies rows 4000·t … 4000·t + 3999
of X by the whole 64 × 64 matrix W into a zero accumulator and adds the 1 × 64 row B to every row of the product.
Entry (p, q) of the stored block is therefore (the sum over k of X(4000·t + p, k) · W(k, q)) + B(0, q): entry (4000·t + p, q)
of X · W + B spread over the rows.  Every written-back block is a block of that one array and the twenty blocks tile it,
so the region leaves its output array holding it. -/

/-! ## The two products' dimension numbers

Both the row tile's product (4000 rows) and the whole product (80000 rows) contract the left operand's axis 1 with the
right operand's axis 0 and have no batch axis: the left operand's row is the output's row, the right operand's column
is the output's column. -/

theorem tileL0 (j : S4000x64.Idx) (k : dot_S4000x64_S64x64_S4000x64_1_0_0_1_n_n.contr.Idx) :
    (dot_S4000x64_S64x64_S4000x64_1_0_0_1_n_n.lhsIdx j k 0).val = (j 0).val := by
  unfold DotDims.lhsIdx
  rw [dif_neg (show ¬(0 : Fin S4000x64.rank) ∈ dot_S4000x64_S64x64_S4000x64_1_0_0_1_n_n.lhsBatch by decide),
    dif_pos (show (0 : Fin S4000x64.rank) ∈ dot_S4000x64_S64x64_S4000x64_1_0_0_1_n_n.lhsNonContracting by decide)]
  rfl

theorem tileR1 (j : S4000x64.Idx) (k : dot_S4000x64_S64x64_S4000x64_1_0_0_1_n_n.contr.Idx) :
    (dot_S4000x64_S64x64_S4000x64_1_0_0_1_n_n.rhsIdx j k 1).val = (j 1).val := by
  unfold DotDims.rhsIdx
  rw [dif_neg (show ¬(1 : Fin S64x64.rank) ∈ dot_S4000x64_S64x64_S4000x64_1_0_0_1_n_n.rhsBatch by decide),
    dif_pos (show (1 : Fin S64x64.rank) ∈ dot_S4000x64_S64x64_S4000x64_1_0_0_1_n_n.rhsNonContracting by decide)]
  rfl

theorem wholeL0 (j : Cert.ReferenceIdeal.S80000x64.Idx) (k : Cert.ReferenceIdeal.dot_S80000x64_S64x64_S80000x64_1_0_0_1_n_n.contr.Idx) :
    (Cert.ReferenceIdeal.dot_S80000x64_S64x64_S80000x64_1_0_0_1_n_n.lhsIdx j k 0).val = (j 0).val := by
  unfold DotDims.lhsIdx
  rw [dif_neg (show ¬(0 : Fin Cert.ReferenceIdeal.S80000x64.rank) ∈ Cert.ReferenceIdeal.dot_S80000x64_S64x64_S80000x64_1_0_0_1_n_n.lhsBatch by decide),
    dif_pos (show (0 : Fin Cert.ReferenceIdeal.S80000x64.rank) ∈ Cert.ReferenceIdeal.dot_S80000x64_S64x64_S80000x64_1_0_0_1_n_n.lhsNonContracting by decide)]
  rfl

theorem wholeR1 (j : Cert.ReferenceIdeal.S80000x64.Idx) (k : Cert.ReferenceIdeal.dot_S80000x64_S64x64_S80000x64_1_0_0_1_n_n.contr.Idx) :
    (Cert.ReferenceIdeal.dot_S80000x64_S64x64_S80000x64_1_0_0_1_n_n.rhsIdx j k 1).val = (j 1).val := by
  unfold DotDims.rhsIdx
  rw [dif_neg (show ¬(1 : Fin Cert.ReferenceIdeal.S64x64.rank) ∈ Cert.ReferenceIdeal.dot_S80000x64_S64x64_S80000x64_1_0_0_1_n_n.rhsBatch by decide),
    dif_pos (show (1 : Fin Cert.ReferenceIdeal.S64x64.rank) ∈ Cert.ReferenceIdeal.dot_S80000x64_S64x64_S80000x64_1_0_0_1_n_n.rhsNonContracting by decide)]
  rfl

/-! ## The body's payload at an entry -/

/-- Entry (p, q) of what the body stores, when the loaded row tile's row p is row r of the whole array X: the sum over k
    of X(r, k) · W(k, q), plus B(0, q) — entry (r, q) of X · W + the bias row spread over the rows.  The change of float
    format of the two operands is the identity on the extended reals; a cast between equal shapes moves nothing. -/
theorem pay_entry (x0 : Vec Ideal S4000x64 .f32) (W : Vec Ideal S64x64 .f32) (B : Vec Ideal S1x64 .f32)
    (X : Vec Ideal Cert.ReferenceIdeal.S80000x64 .f32) (p : Fin 4000) (q : Fin 64) (r : Fin 80000)
    (hX : ∀ k : Fin 64, (x0 (ix2 p k) : EReal) = X (ix2 r k)) :
    k1_pay1 (F := Ideal) x0 W B (ix2 p q) = Cert.Stages.linH (F := Ideal) X W B (ix2 r q) := by
  unfold k1_pay1 Cert.Stages.linH Cert.Stages.dotH
  refine congrArg₂ (· + ·) ?_ ?_
  · exact Cert.LibRowTileDot.tile_entry dot_S4000x64_S64x64_S4000x64_1_0_0_1_n_n rfl rfl rfl rfl tileL0 tileR1
      Cert.ReferenceIdeal.dot_S80000x64_S64x64_S80000x64_1_0_0_1_n_n rfl rfl rfl rfl wholeL0 wholeR1 none none HostSchedule.single
      (truncf FTy.bf16 (shapeCast S4000x64 x0 shapeCasts_S4000x64_S4000x64) bitsLt_bf16_f32)
      (truncf FTy.bf16 (shapeCast S64x64 W shapeCasts_S64x64_S64x64) bitsLt_bf16_f32) X W p q r
      (fun k => by
        show shapeCast S4000x64 x0 shapeCasts_S4000x64_S4000x64 (ix2 p k) = X (ix2 r k)
        rw [shapeCast_self]; exact hX k)
      (fun k => by
        show shapeCast S64x64 W shapeCasts_S64x64_S64x64 (ix2 k q) = W (ix2 k q)
        rw [shapeCast_self])
  · refine (broadcastTo_1b_ab_apply _ broadcasts_S1x64_S4000x64 p q).trans ?_
    rw [shapeCast_self]
    exact (Cert.LibUnitAxes.broadcastInDim_1b_ab_apply B Cert.ReferenceIdeal.Gen.bcast_S1x64_S80000x64_0_1 r q).symm

/-! ## From the blocks to the array -/

theorem hz : (![0, 0] : Fin 2 → Nat) = fun _ => 0 := funext fun a => by fin_cases a <;> rfl

/-- The index maps over the grid: at point t the row tile and the output block are block t along the rows and block 0
    along the features; the weight matrix and the bias row are their one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section Blocks

variable (V : (c : Dev nD) → (b : Ref sig .tc) → Buf (Elt Ideal) ((c : Thread nD τ).loc b)) (c : Dev nD)

/-- Row p of point t's row tile is row 4000·t + p of the whole array. -/
theorem tile_row (t : Fin cfg1.N) (p : Fin 4000) (k : Fin 64) (r : Fin 80000) (hr : r.val = 4000 * t.val + p.val) :
    iblk1 (F := Ideal) V c 0 t (ix2 p k) = V c main_v30 (ix2 r k) := by
  obtain ⟨e0, e1, -⟩ := idx_facts t
  show V c main_v30 (((cfg1.win 0).blk t).view.emb (ix2 p k)) = V c main_v30 (ix2 r k)
  refine congrArg (V c main_v30) (funext fun a => Fin.ext ?_)
  match a with
  | ⟨0, _⟩ => show win1_0.index t (0 : Fin 2) * 4000 + 1 * p.val = r.val; omega
  | ⟨1, _⟩ => show win1_0.index t (1 : Fin 2) * 64 + 1 * k.val = k.val; omega

/-- Every point's weight block is the whole weight matrix. -/
theorem weight_blk (t : Fin cfg1.N) : iblk1 (F := Ideal) V c 1 t = V c main_v33 := by
  obtain ⟨-, -, e2, e3, -⟩ := idx_facts t
  funext y
  show V c main_v33 (((cfg1.win 1).blk t).view.emb y) = V c main_v33 y
  refine congrArg (V c main_v33) (funext fun a => Fin.ext ?_)
  match a with
  | ⟨0, _⟩ => show win1_1.index t (0 : Fin 2) * 64 + 1 * (y 0).val = (y 0).val; omega
  | ⟨1, _⟩ => show win1_1.index t (1 : Fin 2) * 64 + 1 * (y 1).val = (y 1).val; omega

/-- Every point's bias block is the whole bias row. -/
theorem bias_blk (t : Fin cfg1.N) : iblk1 (F := Ideal) V c 2 t = V c main_v34 := by
  obtain ⟨-, -, -, -, e4, e5, -⟩ := idx_facts t
  funext y
  show V c main_v34 (((cfg1.win 2).blk t).view.emb y) = V c main_v34 y
  refine congrArg (V c main_v34) (funext fun a => Fin.ext ?_)
  match a with
  | ⟨0, _⟩ => show win1_2.index t (0 : Fin 2) * 1 + 1 * (y 0).val = (y 0).val; omega
  | ⟨1, _⟩ => show win1_2.index t (1 : Fin 2) * 64 + 1 * (y 1).val = (y 1).val; omega

/-- Entry j of what the body stores at point t is the entry of X · W + the spread bias row, 4000·t rows further down. -/
theorem block_entry (t : Fin cfg1.N) (j : S4000x64.Idx) (i : S80000x64.Idx)
    (hi0 : (i 0).val = 4000 * t.val + (j 0).val) (hi1 : (i 1).val = (j 1).val) :
    k1_pay1 (F := Ideal) (iblk1 V c 0 t) (V c main_v33) (V c main_v34) j
      = Cert.Stages.linH (F := Ideal) (V c main_v30) (V c main_v33) (V c main_v34) i := by
  obtain ⟨p, q, rfl⟩ : ∃ (p : Fin 4000) (q : Fin 64), j = ix2 p q := ⟨j 0, j 1, eq_ix2 j⟩
  obtain ⟨r, q', rfl⟩ : ∃ (r : Fin 80000) (q' : Fin 64), i = ix2 r q' := ⟨i 0, i 1, eq_ix2 i⟩
  obtain rfl : q' = q := Fin.ext hi1
  exact pay_entry _ _ _ _ p q' r fun k => tile_row V c t p k r hi0

/-- WHAT POINT t WRITES BACK is block t of X · W + the bias row spread over the rows, X, W, B the region's three
    input arrays as it finds them. -/
theorem flushed_eq (t : Fin cfg1.N) :
    (dat1 (F := Ideal) V c).flushed 3 t
      = ((cfg1.win 3).blk t).view.read (Elt Ideal) (Cert.Stages.linH (F := Ideal) (V c main_v30) (V c main_v33) (V c main_v34)) := by
  show (cfg1.win 3).cut (grid1.coords t) ((dat1 V c).after 3 t) = _
  rw [after1_3]
  unfold out1_3
  rw [View.canon_unit_zero hz]
  simp only [View.ld_unit_zero (S := S4000x64) hz, View.ld_unit_zero (S := S64x64) hz, View.ld_unit_zero (S := S1x64) hz]
  rw [weight_blk, bias_blk]
  obtain ⟨-, -, -, -, -, -, e6, e7⟩ := idx_facts t
  funext j
  refine block_entry V c t j (((cfg1.win 3).blk t).view.emb j) ?_ ?_
  · show win1_3.index t (0 : Fin 2) * 4000 + 1 * (j 0).val = 4000 * t.val + (j 0).val; omega
  · show win1_3.index t (1 : Fin 2) * 64 + 1 * (j 1).val = (j 1).val; omega

end Blocks

/-- An index of the array is in point t's block iff each coordinate is in the block's range on its axis. -/
theorem mem_blk (t : Fin cfg1.N) (i : S80000x64.Idx) :
    i ∈ ((cfg1.win 3).blk t).view.set ↔ ∀ a : Fin 2, win1_3.index t a * S4000x64.size a ≤ (i a).val ∧ (i a).val < win1_3.index t a * S4000x64.size a + S4000x64.size a := by
  show i ∈ ((View.whole main_v35).slice (win1_3.rect t)).set ↔ _
  rw [View.set_slice_whole, Rect.mem_set_unit]
  exact Iff.rfl

/-- Row r of the array is in the block of point r / 4000: the twenty blocks of 4000 rows tile the 80000 rows. -/
theorem cover (i : S80000x64.Idx) : ∃ t : Fin cfg1.N, (cfg1.win 3).flush t = true ∧ i ∈ ((cfg1.win 3).blk t).view.set := by
  have hN : grid1.N = 20 := N_1
  have hi0 : (i 0).val < 80000 := (i 0).isLt
  have hi1 : (i 1).val < 64 := (i 1).isLt
  let t : Fin cfg1.N := ⟨(i 0).val / 4000, by show (i 0).val / 4000 < grid1.N; omega⟩
  obtain ⟨-, -, -, -, -, -, e6, e7⟩ := idx_facts t
  have ht : t.val = (i 0).val / 4000 := rfl
  refine ⟨t, flush1_3 t, ?_⟩
  rw [mem_blk]
  intro a
  match a with
  | ⟨0, _⟩ => show win1_3.index t (0 : Fin 2) * 4000 ≤ (i 0).val ∧ (i 0).val < win1_3.index t (0 : Fin 2) * 4000 + 4000; omega
  | ⟨1, _⟩ => show win1_3.index t (1 : Fin 2) * 64 ≤ (i 1).val ∧ (i 1).val < win1_3.index t (1 : Fin 2) * 64 + 64; omega

/-- THE ARRAY the region leaves: X · W + the bias row spread over the rows. -/
theorem value (V : (c : Dev nD) → (b : Ref sig .tc) → Buf (Elt Ideal) ((c : Thread nD τ).loc b)) (c : Dev nD) :
    (dat1 (F := Ideal) V c).arrAt 3 cfg1.N = Cert.Stages.linH (F := Ideal) (V c main_v30) (V c main_v33) (V c main_v34) :=
  (dat1 (F := Ideal) V c).arrAt_eq_of_cover 3 (Cert.Stages.linH (F := Ideal) (V c main_v30) (V c main_v33) (V c main_v34))
    (fun t _ => flushed_eq V c t) cover

end Cert.KernelIdeal.Region1

end
-- ==== Proof.Region2.lean ====
/-
  The value of combine region 2.  At grid point t the body holds rows 4000 · t … 4000 · t + 3999 of the aggregate a and of
  the node array g (two [4000, 64] tiles), the same rows of the per-node column s ([4000, 1]) and the bias row B ([1, 64]).
  Every operation in it is pointwise, so entry (p, q) of the block it writes back is the rectifier of
  (a(r, q) + g(r, q) · s(r, 0)) + B(0, q) at r = 4000 · t + p: entry (r, q) of the whole-array combination.  The twenty
  blocks tile the 80000 rows, so the output array ends holding the combination.
-/
import proofs.«115261_j72756745994565_1_alg».proof.Proof.Gen.KernelIdeal.Frame
import proofs.«115261_j72756745994565_1_alg».proof.Proof.Stages
import proofs.«115261_j72756745994565_1_alg».proof.Proof.LibUnitAxes
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)
open Idealize.ShloMosaic.ValueIdx Cert.LibUnitAxes

/-- The rectifier at one entry: v where v ≥ z, the slope k times v elsewhere. -/
def leakyAt (z k v : Ideal .f32) : Ideal .f32 :=
  Scalar.select (FloatOps.cmpf .oge v z) v (FloatOps.mulf k v)

/-- One entry of the combination: the rectifier, with the f32 words of 0 and 0.01, of (a + g · s) + b. -/
def combAt (a g s b : Ideal .f32) : Ideal .f32 :=
  leakyAt (FloatOps.ofBits .f32 0x00000000#32) (FloatOps.ofBits .f32 0x3C23D70A#32)
    (FloatOps.addf (FloatOps.addf a (FloatOps.mulf g s)) b)

/-- The body's payload at (p, q): the combination of the two row tiles at (p, q), the column tile at (p, 0) and the
    bias row at (0, q). -/
theorem pay_at (x0 x1 : Vec Ideal S4000x64 .f32) (x2 : Vec Ideal S4000x1 .f32) (x3 : Vec Ideal S1x64 .f32)
    (p : Fin 4000) (q : Fin 64) :
    k2_pay1 x0 x1 x2 x3 (ix2 p q)
      = combAt (x0 (ix2 p q)) (x1 (ix2 p q)) (x2 (ix2 p (0 : Fin 1))) (x3 (ix2 (0 : Fin 1) q)) := by
  have e2 : broadcastTo S4000x64 x2 broadcasts_S4000x1_S4000x64 (ix2 p q) = x2 (ix2 p (0 : Fin 1)) :=
    broadcastTo_a1_ab_apply x2 broadcasts_S4000x1_S4000x64 p q
  have e3 : broadcastTo S4000x64 x3 broadcasts_S1x64_S4000x64 (ix2 p q) = x3 (ix2 (0 : Fin 1) q) :=
    broadcastTo_1b_ab_apply x3 broadcasts_S1x64_S4000x64 p q
  unfold k2_pay1
  simp only [shapeCast_self]
  show combAt (x0 (ix2 p q)) (x1 (ix2 p q)) (broadcastTo S4000x64 x2 broadcasts_S4000x1_S4000x64 (ix2 p q))
      (broadcastTo S4000x64 x3 broadcasts_S1x64_S4000x64 (ix2 p q)) = _
  rw [e2, e3]

/-- The whole-array combination at (r, q): the same function of the arrays' entries. -/
theorem comb_at (A G : (⟨S80000x64, .f32⟩ : BufTy).Contents (Elt Ideal)) (S : (⟨S80000x1, .f32⟩ : BufTy).Contents (Elt Ideal))
    (B : (⟨S1x64, .f32⟩ : BufTy).Contents (Elt Ideal)) (r : Fin 80000) (q : Fin 64) :
    Cert.Stages.comb (F := Ideal) A G S B (ix2 r q)
      = combAt (A (ix2 r q)) (G (ix2 r q)) (S (ix2 r (0 : Fin 1))) (B (ix2 (0 : Fin 1) q)) := by
  have e2 : broadcastInDim Cert.ReferenceIdeal.S80000x64 ![0, 1] Cert.ReferenceIdeal.Gen.bcast_S80000x1_S80000x64_0_1 S (ix2 r q)
      = S (ix2 r (0 : Fin 1)) :=
    broadcastInDim_a1_ab_apply S Cert.ReferenceIdeal.Gen.bcast_S80000x1_S80000x64_0_1 r q
  have e3 : broadcastInDim Cert.ReferenceIdeal.S80000x64 ![0, 1] Cert.ReferenceIdeal.Gen.bcast_S1x64_S80000x64_0_1 B (ix2 r q)
      = B (ix2 (0 : Fin 1) q) :=
    broadcastInDim_1b_ab_apply B Cert.ReferenceIdeal.Gen.bcast_S1x64_S80000x64_0_1 r q
  have ez : broadcastInDim Cert.ReferenceIdeal.S80000x64 ![] Cert.ReferenceIdeal.Gen.bcast_S_S80000x64
      (constant (F := Ideal) Cert.ReferenceIdeal.S_ .f32 0x00000000#32) (ix2 r q) = FloatOps.ofBits .f32 0x00000000#32 :=
    broadcastInDim_scalar_apply _ Cert.ReferenceIdeal.Gen.bcast_S_S80000x64 (ix2 r q)
  have ek : broadcastInDim Cert.ReferenceIdeal.S80000x64 ![] Cert.ReferenceIdeal.Gen.bcast_S_S80000x64
      (constant (F := Ideal) Cert.ReferenceIdeal.S_ .f32 0x3C23D70A#32) (ix2 r q) = FloatOps.ofBits .f32 0x3C23D70A#32 :=
    broadcastInDim_scalar_apply _ Cert.ReferenceIdeal.Gen.bcast_S_S80000x64 (ix2 r q)
  unfold Cert.Stages.comb Cert.Stages.leaky
  show leakyAt
      (broadcastInDim Cert.ReferenceIdeal.S80000x64 ![] Cert.ReferenceIdeal.Gen.bcast_S_S80000x64
        (constant (F := Ideal) Cert.ReferenceIdeal.S_ .f32 0x00000000#32) (ix2 r q))
      (broadcastInDim Cert.ReferenceIdeal.S80000x64 ![] Cert.ReferenceIdeal.Gen.bcast_S_S80000x64
        (constant (F := Ideal) Cert.ReferenceIdeal.S_ .f32 0x3C23D70A#32) (ix2 r q))
      (FloatOps.addf (FloatOps.addf (A (ix2 r q)) (FloatOps.mulf (G (ix2 r q))
          (broadcastInDim Cert.ReferenceIdeal.S80000x64 ![0, 1] Cert.ReferenceIdeal.Gen.bcast_S80000x1_S80000x64_0_1 S (ix2 r q))))
        (broadcastInDim Cert.ReferenceIdeal.S80000x64 ![0, 1] Cert.ReferenceIdeal.Gen.bcast_S1x64_S80000x64_0_1 B (ix2 r q))) = _
  rw [e2, e3, ez, ek]
  rfl

/-! ## From the blocks to the array -/

theorem hz : (![0, 0] : Fin 2 → Nat) = fun _ => 0 := funext fun a => by fin_cases a <;> rfl

/-- The index maps over the grid: the row tiles, the column tile and the output block move down the rows with the
    point; the bias row stays. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- Row p of point t's tiles is row 4000 · t + p of the arrays. -/
def row (t : Fin cfg2.N) (p : Fin 4000) : Fin 80000 :=
  ⟨4000 * t.val + p.val, by have hN : cfg2.N = 20 := N_2; have := t.isLt; have := p.isLt; omega⟩

variable (V : (c : Dev nD) → (b : Ref sig .tc) → Buf (Elt Ideal) ((c : Thread nD τ).loc b)) (c : Dev nD)

/-- The first row tile at point t is rows 4000 · t … of its array. -/
theorem tile0_at (t : Fin cfg2.N) (p : Fin 4000) (q : Fin 64) :
    iblk2 V c 0 t (ix2 p q) = V c main_v48 (ix2 (row t p) q) := by
  obtain ⟨e0, e1, -⟩ := idx_facts t
  show V c main_v48 (((cfg2.win 0).blk t).view.emb (ix2 p q)) = V c main_v48 (ix2 (row t p) q)
  refine congrArg (V c main_v48) (funext fun a => Fin.ext ?_)
  match a with
  | ⟨0, _⟩ => show win2_0.index t (0 : Fin 2) * 4000 + 1 * p.val = 4000 * t.val + p.val; omega
  | ⟨1, _⟩ => show win2_0.index t (1 : Fin 2) * 64 + 1 * q.val = q.val; omega

/-- The second row tile at point t is rows 4000 · t … of its array. -/
theorem tile1_at (t : Fin cfg2.N) (p : Fin 4000) (q : Fin 64) :
    iblk2 V c 1 t (ix2 p q) = V c main_v35 (ix2 (row t p) q) := by
  obtain ⟨-, -, e0, e1, -⟩ := idx_facts t
  show V c main_v35 (((cfg2.win 1).blk t).view.emb (ix2 p q)) = V c main_v35 (ix2 (row t p) q)
  refine congrArg (V c main_v35) (funext fun a => Fin.ext ?_)
  match a with
  | ⟨0, _⟩ => show win2_1.index t (0 : Fin 2) * 4000 + 1 * p.val = 4000 * t.val + p.val; omega
  | ⟨1, _⟩ => show win2_1.index t (1 : Fin 2) * 64 + 1 * q.val = q.val; omega

/-- The column tile at point t is rows 4000 · t … of the column. -/
theorem col_at (t : Fin cfg2.N) (p : Fin 4000) :
    iblk2 V c 2 t (ix2 p (0 : Fin 1)) = V c main_v51 (ix2 (row t p) (0 : Fin 1)) := by
  obtain ⟨-, -, -, -, e0, e1, -⟩ := idx_facts t
  show V c main_v51 (((cfg2.win 2).blk t).view.emb (ix2 p (0 : Fin 1))) = V c main_v51 (ix2 (row t p) (0 : Fin 1))
  refine congrArg (V c main_v51) (funext fun a => Fin.ext ?_)
  match a with
  | ⟨0, _⟩ => show win2_2.index t (0 : Fin 2) * 4000 + 1 * p.val = 4000 * t.val + p.val; omega
  | ⟨1, _⟩ => show win2_2.index t (1 : Fin 2) * 1 + 1 * (0 : Fin 1).val = (0 : Fin 1).val; omega

/-- The bias row's block is the bias row, at every point. -/
theorem bias_at (t : Fin cfg2.N) (q : Fin 64) :
    iblk2 V c 3 t (ix2 (0 : Fin 1) q) = V c main_v52 (ix2 (0 : Fin 1) q) := by
  obtain ⟨-, -, -, -, -, -, e0, e1, -⟩ := idx_facts t
  show V c main_v52 (((cfg2.win 3).blk t).view.emb (ix2 (0 : Fin 1) q)) = V c main_v52 (ix2 (0 : Fin 1) q)
  refine congrArg (V c main_v52) (funext fun a => Fin.ext ?_)
  match a with
  | ⟨0, _⟩ => show win2_3.index t (0 : Fin 2) * 1 + 1 * (0 : Fin 1).val = (0 : Fin 1).val; omega
  | ⟨1, _⟩ => show win2_3.index t (1 : Fin 2) * 64 + 1 * q.val = q.val; omega

/-- Entry (p, q) of the output's block at point t is entry (4000 · t + p, q) of the output array. -/
theorem out_emb (t : Fin cfg2.N) (p : Fin 4000) (q : Fin 64) :
    ((cfg2.win 4).blk t).view.emb (ix2 p q) = ix2 (row t p) q := by
  obtain ⟨-, -, -, -, -, -, -, -, e0, e1⟩ := idx_facts t
  refine funext fun a => Fin.ext ?_
  match a with
  | ⟨0, _⟩ => show win2_4.index t (0 : Fin 2) * 4000 + 1 * p.val = 4000 * t.val + p.val; omega
  | ⟨1, _⟩ => show win2_4.index t (1 : Fin 2) * 64 + 1 * q.val = q.val; omega

/-- What point t writes back is block t of the whole-array combination of the four arrays as the region finds them. -/
theorem flushed_eq (t : Fin cfg2.N) :
    (dat2 (F := Ideal) V c).flushed 4 t
      = ((cfg2.win 4).blk t).view.read (Elt Ideal)
          (Cert.Stages.comb (F := Ideal) (V c main_v48) (V c main_v35) (V c main_v51) (V c main_v52)) := by
  show (cfg2.win 4).cut (grid2.coords t) ((dat2 V c).after 4 t) = _
  rw [after2_4]
  unfold out2_4
  rw [View.canon_unit_zero hz]
  simp only [View.ld_unit_zero (S := S4000x64) hz, View.ld_unit_zero (S := S4000x1) hz, View.ld_unit_zero (S := S1x64) hz]
  funext j
  obtain ⟨p, q, rfl⟩ : ∃ (p : Fin 4000) (q : Fin 64), j = ix2 p q := ⟨j 0, j 1, eq_ix2 j⟩
  show k2_pay1 (iblk2 V c 0 t) (iblk2 V c 1 t) (iblk2 V c 2 t) (iblk2 V c 3 t) (ix2 p q)
      = Cert.Stages.comb (F := Ideal) (V c main_v48) (V c main_v35) (V c main_v51) (V c main_v52) (((cfg2.win 4).blk t).view.emb (ix2 p q))
  refine (pay_at (iblk2 V c 0 t) (iblk2 V c 1 t) (iblk2 V c 2 t) (iblk2 V c 3 t) p q).trans ?_
  rw [out_emb t p q, comb_at (V c main_v48) (V c main_v35) (V c main_v51) (V c main_v52) (row t p) q,
    tile0_at V c t p q, tile1_at V c t p q, col_at V c t p, bias_at V c t q]

/-- An index of the output array is in point t's block iff each coordinate is in the block's range on its axis. -/
theorem mem_blk (t : Fin cfg2.N) (i : S80000x64.Idx) :
    i ∈ ((cfg2.win 4).blk t).view.set ↔ ∀ a : Fin 2, win2_4.index t a * S4000x64.size a ≤ (i a).val
      ∧ (i a).val < win2_4.index t a * S4000x64.size a + S4000x64.size a := by
  show i ∈ ((View.whole main_v53).slice (win2_4.rect t)).set ↔ _
  rw [View.set_slice_whole, Rect.mem_set_unit]
  exact Iff.rfl

/-- The twenty blocks cover the output array: row r is in the block of point r / 4000. -/
theorem cover (i : S80000x64.Idx) :
    ∃ t : Fin cfg2.N, (cfg2.win 4).flush t = true ∧ i ∈ ((cfg2.win 4).blk t).view.set := by
  have hN : cfg2.N = 20 := N_2
  have hi0 : (i 0).val < 80000 := (i 0).isLt
  have hi1 : (i 1).val < 64 := (i 1).isLt
  refine ⟨⟨(i 0).val / 4000, by omega⟩, flush2_4 _, ?_⟩
  rw [mem_blk]
  obtain ⟨-, -, -, -, -, -, -, -, e0, e1⟩ := idx_facts ⟨(i 0).val / 4000, by omega⟩
  intro a
  match a with
  | ⟨0, _⟩ =>
    show win2_4.index ⟨(i 0).val / 4000, _⟩ (0 : Fin 2) * 4000 ≤ (i 0).val
      ∧ (i 0).val < win2_4.index ⟨(i 0).val / 4000, _⟩ (0 : Fin 2) * 4000 + 4000
    rw [e0]; show (i 0).val / 4000 * 4000 ≤ (i 0).val ∧ (i 0).val < (i 0).val / 4000 * 4000 + 4000; omega
  | ⟨1, _⟩ =>
    show win2_4.index ⟨(i 0).val / 4000, _⟩ (1 : Fin 2) * 64 ≤ (i 1).val
      ∧ (i 1).val < win2_4.index ⟨(i 0).val / 4000, _⟩ (1 : Fin 2) * 64 + 64
    rw [e1]; omega

/-- The region's output array ends holding the combination of the four arrays as the region finds them. -/
theorem value (V : (c : Dev nD) → (b : Ref sig .tc) → Buf (Elt Ideal) ((c : Thread nD τ).loc b)) (c : Dev nD) :
    (dat2 (F := Ideal) V c).arrAt 4 cfg2.N
      = Cert.Stages.comb (F := Ideal) (V c main_v48) (V c main_v35) (V c main_v51) (V c main_v52) :=
  (dat2 (F := Ideal) V c).arrAt_eq_of_cover 4 _ (fun t _ => flushed_eq V c t) cover

end Cert.KernelIdeal.Region2

end
-- ==== Proof.Region3.lean ====
import proofs.«115261_j72756745994565_1_alg».proof.Proof.Gen.KernelIdeal.Frame
import proofs.«115261_j72756745994565_1_alg».proof.Proof.Stages
import Idealize.ShloMosaic.Lib.Pipeline.Value
import Idealize.ShloMosaic.Lib.ValueIdx
import Idealize.ShloMosaic.Lib.ValueLayout
import Idealize.ShloMosaic.PureOps.Ideal.Laws
import proofs.«115261_j72756745994565_1_alg».proof.Proof.LibRowTileDot
import proofs.«115261_j72756745994565_1_alg».proof.Proof.LibUnitAxes

set_option maxRecDepth 16384

noncomputable section

namespace Cert.KernelIdeal.Region3

open Cert.KernelIdeal Cert.KernelIdeal.Gen Idealize.ShloMosaic Idealize.ShloMosaic.TcCoe Idealize.SL.Sem
open Idealize.ShloMosaic.Pipeline (Dat)

open Idealize.ShloMosaic.ValueIdx

/-! # Region 3: a product with a weight matrix plus a bias row, 64 → 64 features

The region walks the 80000 rows of X in twenty tiles of 4000.  At tile t its body multiplies rows 4000·t … 4000·t + 3999
of X by the whole 64 × 64 matrix W into a zero accumulator and adds the 1 × 64 row B to every row of the product.
Entry (p, q) of the stored block is therefore (the sum over k of X(4000·t + p, k) · W(k, q)) + B(0, q): entry (4000·t + p, q)
of X · W + B spread over the rows.  Every written-back block is a block of that one array and the twenty blocks tile it,
so the region leaves its output array holding it. -/

/-! ## The two products' dimension numbers

Both the row tile's product (4000 rows) and the whole product (80000 rows) contract the left operand's axis 1 with the
right operand's axis 0 and have no batch axis: the left operand's row is the output's row, the right operand's column
is the output's column. -/

theorem tileL0 (j : S4000x64.Idx) (k : dot_S4000x64_S64x64_S4000x64_1_0_0_1_n_n.contr.Idx) :
    (dot_S4000x64_S64x64_S4000x64_1_0_0_1_n_n.lhsIdx j k 0).val = (j 0).val := by
  unfold DotDims.lhsIdx
  rw [dif_neg (show ¬(0 : Fin S4000x64.rank) ∈ dot_S4000x64_S64x64_S4000x64_1_0_0_1_n_n.lhsBatch by decide),
    dif_pos (show (0 : Fin S4000x64.rank) ∈ dot_S4000x64_S64x64_S4000x64_1_0_0_1_n_n.lhsNonContracting by decide)]
  rfl

theorem tileR1 (j : S4000x64.Idx) (k : dot_S4000x64_S64x64_S4000x64_1_0_0_1_n_n.contr.Idx) :
    (dot_S4000x64_S64x64_S4000x64_1_0_0_1_n_n.rhsIdx j k 1).val = (j 1).val := by
  unfold DotDims.rhsIdx
  rw [dif_neg (show ¬(1 : Fin S64x64.rank) ∈ dot_S4000x64_S64x64_S4000x64_1_0_0_1_n_n.rhsBatch by decide),
    dif_pos (show (1 : Fin S64x64.rank) ∈ dot_S4000x64_S64x64_S4000x64_1_0_0_1_n_n.rhsNonContracting by decide)]
  rfl

theorem wholeL0 (j : Cert.ReferenceIdeal.S80000x64.Idx) (k : Cert.ReferenceIdeal.dot_S80000x64_S64x64_S80000x64_1_0_0_1_n_n.contr.Idx) :
    (Cert.ReferenceIdeal.dot_S80000x64_S64x64_S80000x64_1_0_0_1_n_n.lhsIdx j k 0).val = (j 0).val := by
  unfold DotDims.lhsIdx
  rw [dif_neg (show ¬(0 : Fin Cert.ReferenceIdeal.S80000x64.rank) ∈ Cert.ReferenceIdeal.dot_S80000x64_S64x64_S80000x64_1_0_0_1_n_n.lhsBatch by decide),
    dif_pos (show (0 : Fin Cert.ReferenceIdeal.S80000x64.rank) ∈ Cert.ReferenceIdeal.dot_S80000x64_S64x64_S80000x64_1_0_0_1_n_n.lhsNonContracting by decide)]
  rfl

theorem wholeR1 (j : Cert.ReferenceIdeal.S80000x64.Idx) (k : Cert.ReferenceIdeal.dot_S80000x64_S64x64_S80000x64_1_0_0_1_n_n.contr.Idx) :
    (Cert.ReferenceIdeal.dot_S80000x64_S64x64_S80000x64_1_0_0_1_n_n.rhsIdx j k 1).val = (j 1).val := by
  unfold DotDims.rhsIdx
  rw [dif_neg (show ¬(1 : Fin Cert.ReferenceIdeal.S64x64.rank) ∈ Cert.ReferenceIdeal.dot_S80000x64_S64x64_S80000x64_1_0_0_1_n_n.rhsBatch by decide),
    dif_pos (show (1 : Fin Cert.ReferenceIdeal.S64x64.rank) ∈ Cert.ReferenceIdeal.dot_S80000x64_S64x64_S80000x64_1_0_0_1_n_n.rhsNonContracting by decide)]
  rfl

/-! ## The body's payload at an entry -/

/-- Entry (p, q) of what the body stores, when the loaded row tile's row p is row r of the whole array X: the sum over k
    of X(r, k) · W(k, q), plus B(0, q) — entry (r, q) of X · W + the bias row spread over the rows.  The change of float
    format of the two operands is the identity on the extended reals; a cast between equal shapes moves nothing. -/
theorem pay_entry (x0 : Vec Ideal S4000x64 .f32) (W : Vec Ideal S64x64 .f32) (B : Vec Ideal S1x64 .f32)
    (X : Vec Ideal Cert.ReferenceIdeal.S80000x64 .f32) (p : Fin 4000) (q : Fin 64) (r : Fin 80000)
    (hX : ∀ k : Fin 64, (x0 (ix2 p k) : EReal) = X (ix2 r k)) :
    k3_pay1 (F := Ideal) x0 W B (ix2 p q) = Cert.Stages.linH (F := Ideal) X W B (ix2 r q) := by
  unfold k3_pay1 Cert.Stages.linH Cert.Stages.dotH
  refine congrArg₂ (· + ·) ?_ ?_
  · exact Cert.LibRowTileDot.tile_entry dot_S4000x64_S64x64_S4000x64_1_0_0_1_n_n rfl rfl rfl rfl tileL0 tileR1
      Cert.ReferenceIdeal.dot_S80000x64_S64x64_S80000x64_1_0_0_1_n_n rfl rfl rfl rfl wholeL0 wholeR1 none none HostSchedule.single
      (truncf FTy.bf16 (shapeCast S4000x64 x0 shapeCasts_S4000x64_S4000x64) bitsLt_bf16_f32)
      (truncf FTy.bf16 (shapeCast S64x64 W shapeCasts_S64x64_S64x64) bitsLt_bf16_f32) X W p q r
      (fun k => by
        show shapeCast S4000x64 x0 shapeCasts_S4000x64_S4000x64 (ix2 p k) = X (ix2 r k)
        rw [shapeCast_self]; exact hX k)
      (fun k => by
        show shapeCast S64x64 W shapeCasts_S64x64_S64x64 (ix2 k q) = W (ix2 k q)
        rw [shapeCast_self])
  · refine (broadcastTo_1b_ab_apply _ broadcasts_S1x64_S4000x64 p q).trans ?_
    rw [shapeCast_self]
    exact (Cert.LibUnitAxes.broadcastInDim_1b_ab_apply B Cert.ReferenceIdeal.Gen.bcast_S1x64_S80000x64_0_1 r q).symm

/-! ## From the blocks to the array -/

theorem hz : (![0, 0] : Fin 2 → Nat) = fun _ => 0 := funext fun a => by fin_cases a <;> rfl

/-- The index maps over the grid: at point t the row tile and the output block are block t along the rows and block 0
    along the features; the weight matrix and the bias row are their one block. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

section Blocks

variable (V : (c : Dev nD) → (b : Ref sig .tc) → Buf (Elt Ideal) ((c : Thread nD τ).loc b)) (c : Dev nD)

/-- Row p of point t's row tile is row 4000·t + p of the whole array. -/
theorem tile_row (t : Fin cfg3.N) (p : Fin 4000) (k : Fin 64) (r : Fin 80000) (hr : r.val = 4000 * t.val + p.val) :
    iblk3 (F := Ideal) V c 0 t (ix2 p k) = V c main_v53 (ix2 r k) := by
  obtain ⟨e0, e1, -⟩ := idx_facts t
  show V c main_v53 (((cfg3.win 0).blk t).view.emb (ix2 p k)) = V c main_v53 (ix2 r k)
  refine congrArg (V c main_v53) (funext fun a => Fin.ext ?_)
  match a with
  | ⟨0, _⟩ => show win3_0.index t (0 : Fin 2) * 4000 + 1 * p.val = r.val; omega
  | ⟨1, _⟩ => show win3_0.index t (1 : Fin 2) * 64 + 1 * k.val = k.val; omega

/-- Every point's weight block is the whole weight matrix. -/
theorem weight_blk (t : Fin cfg3.N) : iblk3 (F := Ideal) V c 1 t = V c main_v56 := by
  obtain ⟨-, -, e2, e3, -⟩ := idx_facts t
  funext y
  show V c main_v56 (((cfg3.win 1).blk t).view.emb y) = V c main_v56 y
  refine congrArg (V c main_v56) (funext fun a => Fin.ext ?_)
  match a with
  | ⟨0, _⟩ => show win3_1.index t (0 : Fin 2) * 64 + 1 * (y 0).val = (y 0).val; omega
  | ⟨1, _⟩ => show win3_1.index t (1 : Fin 2) * 64 + 1 * (y 1).val = (y 1).val; omega

/-- Every point's bias block is the whole bias row. -/
theorem bias_blk (t : Fin cfg3.N) : iblk3 (F := Ideal) V c 2 t = V c main_v57 := by
  obtain ⟨-, -, -, -, e4, e5, -⟩ := idx_facts t
  funext y
  show V c main_v57 (((cfg3.win 2).blk t).view.emb y) = V c main_v57 y
  refine congrArg (V c main_v57) (funext fun a => Fin.ext ?_)
  match a with
  | ⟨0, _⟩ => show win3_2.index t (0 : Fin 2) * 1 + 1 * (y 0).val = (y 0).val; omega
  | ⟨1, _⟩ => show win3_2.index t (1 : Fin 2) * 64 + 1 * (y 1).val = (y 1).val; omega

/-- Entry j of what the body stores at point t is the entry of X · W + the spread bias row, 4000·t rows further down. -/
theorem block_entry (t : Fin cfg3.N) (j : S4000x64.Idx) (i : S80000x64.Idx)
    (hi0 : (i 0).val = 4000 * t.val + (j 0).val) (hi1 : (i 1).val = (j 1).val) :
    k3_pay1 (F := Ideal) (iblk3 V c 0 t) (V c main_v56) (V c main_v57) j
      = Cert.Stages.linH (F := Ideal) (V c main_v53) (V c main_v56) (V c main_v57) i := by
  obtain ⟨p, q, rfl⟩ : ∃ (p : Fin 4000) (q : Fin 64), j = ix2 p q := ⟨j 0, j 1, eq_ix2 j⟩
  obtain ⟨r, q', rfl⟩ : ∃ (r : Fin 80000) (q' : Fin 64), i = ix2 r q' := ⟨i 0, i 1, eq_ix2 i⟩
  obtain rfl : q' = q := Fin.ext hi1
  exact pay_entry _ _ _ _ p q' r fun k => tile_row V c t p k r hi0

/-- WHAT POINT t WRITES BACK is block t of X · W + the bias row spread over the rows, X, W, B the region's three
    input arrays as it finds them. -/
theorem flushed_eq (t : Fin cfg3.N) :
    (dat3 (F := Ideal) V c).flushed 3 t
      = ((cfg3.win 3).blk t).view.read (Elt Ideal) (Cert.Stages.linH (F := Ideal) (V c main_v53) (V c main_v56) (V c main_v57)) := by
  show (cfg3.win 3).cut (grid3.coords t) ((dat3 V c).after 3 t) = _
  rw [after3_3]
  unfold out3_3
  rw [View.canon_unit_zero hz]
  simp only [View.ld_unit_zero (S := S4000x64) hz, View.ld_unit_zero (S := S64x64) hz, View.ld_unit_zero (S := S1x64) hz]
  rw [weight_blk, bias_blk]
  obtain ⟨-, -, -, -, -, -, e6, e7⟩ := idx_facts t
  funext j
  refine block_entry V c t j (((cfg3.win 3).blk t).view.emb j) ?_ ?_
  · show win3_3.index t (0 : Fin 2) * 4000 + 1 * (j 0).val = 4000 * t.val + (j 0).val; omega
  · show win3_3.index t (1 : Fin 2) * 64 + 1 * (j 1).val = (j 1).val; omega

end Blocks

/-- An index of the array is in point t's block iff each coordinate is in the block's range on its axis. -/
theorem mem_blk (t : Fin cfg3.N) (i : S80000x64.Idx) :
    i ∈ ((cfg3.win 3).blk t).view.set ↔ ∀ a : Fin 2, win3_3.index t a * S4000x64.size a ≤ (i a).val ∧ (i a).val < win3_3.index t a * S4000x64.size a + S4000x64.size a := by
  show i ∈ ((View.whole main_v58).slice (win3_3.rect t)).set ↔ _
  rw [View.set_slice_whole, Rect.mem_set_unit]
  exact Iff.rfl

/-- Row r of the array is in the block of point r / 4000: the twenty blocks of 4000 rows tile the 80000 rows. -/
theorem cover (i : S80000x64.Idx) : ∃ t : Fin cfg3.N, (cfg3.win 3).flush t = true ∧ i ∈ ((cfg3.win 3).blk t).view.set := by
  have hN : grid3.N = 20 := N_3
  have hi0 : (i 0).val < 80000 := (i 0).isLt
  have hi1 : (i 1).val < 64 := (i 1).isLt
  let t : Fin cfg3.N := ⟨(i 0).val / 4000, by show (i 0).val / 4000 < grid3.N; omega⟩
  obtain ⟨-, -, -, -, -, -, e6, e7⟩ := idx_facts t
  have ht : t.val = (i 0).val / 4000 := rfl
  refine ⟨t, flush3_3 t, ?_⟩
  rw [mem_blk]
  intro a
  match a with
  | ⟨0, _⟩ => show win3_3.index t (0 : Fin 2) * 4000 ≤ (i 0).val ∧ (i 0).val < win3_3.index t (0 : Fin 2) * 4000 + 4000; omega
  | ⟨1, _⟩ => show win3_3.index t (1 : Fin 2) * 64 ≤ (i 1).val ∧ (i 1).val < win3_3.index t (1 : Fin 2) * 64 + 64; omega

/-- THE ARRAY the region leaves: X · W + the bias row spread over the rows. -/
theorem value (V : (c : Dev nD) → (b : Ref sig .tc) → Buf (Elt Ideal) ((c : Thread nD τ).loc b)) (c : Dev nD) :
    (dat3 (F := Ideal) V c).arrAt 3 cfg3.N = Cert.Stages.linH (F := Ideal) (V c main_v53) (V c main_v56) (V c main_v57) :=
  (dat3 (F := Ideal) V c).arrAt_eq_of_cover 3 (Cert.Stages.linH (F := Ideal) (V c main_v53) (V c main_v56) (V c main_v57))
    (fun t _ => flushed_eq V c t) cover

end Cert.KernelIdeal.Region3

end
-- ==== Proof.Region4.lean ====
/-
  The value of combine region 4.  At grid point t the body holds rows 4000 · t … 4000 · t + 3999 of the aggregate a and of
  the node array g (two [4000, 64] tiles), the same rows of the per-node column s ([4000, 1]) and the bias row B ([1, 64]).
  Every operation in it is pointwise, so entry (p, q) of the block it writes back is the rectifier of
  (a(r, q) + g(r, q) · s(r, 0)) + B(0, q) at r = 4000 · t + p: entry (r, q) of the whole-array combination.  The twenty
  blocks tile the 80000 rows, so the output array ends holding the combination.
-/
import proofs.«115261_j72756745994565_1_alg».proof.Proof.Gen.KernelIdeal.Frame
import proofs.«115261_j72756745994565_1_alg».proof.Proof.Stages
import proofs.«115261_j72756745994565_1_alg».proof.Proof.LibUnitAxes
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region4

open Cert.KernelIdeal Cert.KernelIdeal.Gen Idealize.ShloMosaic Idealize.ShloMosaic.TcCoe Idealize.SL.Sem
open Idealize.ShloMosaic.Pipeline (Dat)
open Idealize.ShloMosaic.ValueIdx Cert.LibUnitAxes

/-- The rectifier at one entry: v where v ≥ z, the slope k times v elsewhere. -/
def leakyAt (z k v : Ideal .f32) : Ideal .f32 :=
  Scalar.select (FloatOps.cmpf .oge v z) v (FloatOps.mulf k v)

/-- One entry of the combination: the rectifier, with the f32 words of 0 and 0.01, of (a + g · s) + b. -/
def combAt (a g s b : Ideal .f32) : Ideal .f32 :=
  leakyAt (FloatOps.ofBits .f32 0x00000000#32) (FloatOps.ofBits .f32 0x3C23D70A#32)
    (FloatOps.addf (FloatOps.addf a (FloatOps.mulf g s)) b)

/-- The body's payload at (p, q): the combination of the two row tiles at (p, q), the column tile at (p, 0) and the
    bias row at (0, q). -/
theorem pay_at (x0 x1 : Vec Ideal S4000x64 .f32) (x2 : Vec Ideal S4000x1 .f32) (x3 : Vec Ideal S1x64 .f32)
    (p : Fin 4000) (q : Fin 64) :
    k4_pay1 x0 x1 x2 x3 (ix2 p q)
      = combAt (x0 (ix2 p q)) (x1 (ix2 p q)) (x2 (ix2 p (0 : Fin 1))) (x3 (ix2 (0 : Fin 1) q)) := by
  have e2 : broadcastTo S4000x64 x2 broadcasts_S4000x1_S4000x64 (ix2 p q) = x2 (ix2 p (0 : Fin 1)) :=
    broadcastTo_a1_ab_apply x2 broadcasts_S4000x1_S4000x64 p q
  have e3 : broadcastTo S4000x64 x3 broadcasts_S1x64_S4000x64 (ix2 p q) = x3 (ix2 (0 : Fin 1) q) :=
    broadcastTo_1b_ab_apply x3 broadcasts_S1x64_S4000x64 p q
  unfold k4_pay1
  simp only [shapeCast_self]
  show combAt (x0 (ix2 p q)) (x1 (ix2 p q)) (broadcastTo S4000x64 x2 broadcasts_S4000x1_S4000x64 (ix2 p q))
      (broadcastTo S4000x64 x3 broadcasts_S1x64_S4000x64 (ix2 p q)) = _
  rw [e2, e3]

/-- The whole-array combination at (r, q): the same function of the arrays' entries. -/
theorem comb_at (A G : (⟨S80000x64, .f32⟩ : BufTy).Contents (Elt Ideal)) (S : (⟨S80000x1, .f32⟩ : BufTy).Contents (Elt Ideal))
    (B : (⟨S1x64, .f32⟩ : BufTy).Contents (Elt Ideal)) (r : Fin 80000) (q : Fin 64) :
    Cert.Stages.comb (F := Ideal) A G S B (ix2 r q)
      = combAt (A (ix2 r q)) (G (ix2 r q)) (S (ix2 r (0 : Fin 1))) (B (ix2 (0 : Fin 1) q)) := by
  have e2 : broadcastInDim Cert.ReferenceIdeal.S80000x64 ![0, 1] Cert.ReferenceIdeal.Gen.bcast_S80000x1_S80000x64_0_1 S (ix2 r q)
      = S (ix2 r (0 : Fin 1)) :=
    broadcastInDim_a1_ab_apply S Cert.ReferenceIdeal.Gen.bcast_S80000x1_S80000x64_0_1 r q
  have e3 : broadcastInDim Cert.ReferenceIdeal.S80000x64 ![0, 1] Cert.ReferenceIdeal.Gen.bcast_S1x64_S80000x64_0_1 B (ix2 r q)
      = B (ix2 (0 : Fin 1) q) :=
    broadcastInDim_1b_ab_apply B Cert.ReferenceIdeal.Gen.bcast_S1x64_S80000x64_0_1 r q
  have ez : broadcastInDim Cert.ReferenceIdeal.S80000x64 ![] Cert.ReferenceIdeal.Gen.bcast_S_S80000x64
      (constant (F := Ideal) Cert.ReferenceIdeal.S_ .f32 0x00000000#32) (ix2 r q) = FloatOps.ofBits .f32 0x00000000#32 :=
    broadcastInDim_scalar_apply _ Cert.ReferenceIdeal.Gen.bcast_S_S80000x64 (ix2 r q)
  have ek : broadcastInDim Cert.ReferenceIdeal.S80000x64 ![] Cert.ReferenceIdeal.Gen.bcast_S_S80000x64
      (constant (F := Ideal) Cert.ReferenceIdeal.S_ .f32 0x3C23D70A#32) (ix2 r q) = FloatOps.ofBits .f32 0x3C23D70A#32 :=
    broadcastInDim_scalar_apply _ Cert.ReferenceIdeal.Gen.bcast_S_S80000x64 (ix2 r q)
  unfold Cert.Stages.comb Cert.Stages.leaky
  show leakyAt
      (broadcastInDim Cert.ReferenceIdeal.S80000x64 ![] Cert.ReferenceIdeal.Gen.bcast_S_S80000x64
        (constant (F := Ideal) Cert.ReferenceIdeal.S_ .f32 0x00000000#32) (ix2 r q))
      (broadcastInDim Cert.ReferenceIdeal.S80000x64 ![] Cert.ReferenceIdeal.Gen.bcast_S_S80000x64
        (constant (F := Ideal) Cert.ReferenceIdeal.S_ .f32 0x3C23D70A#32) (ix2 r q))
      (FloatOps.addf (FloatOps.addf (A (ix2 r q)) (FloatOps.mulf (G (ix2 r q))
          (broadcastInDim Cert.ReferenceIdeal.S80000x64 ![0, 1] Cert.ReferenceIdeal.Gen.bcast_S80000x1_S80000x64_0_1 S (ix2 r q))))
        (broadcastInDim Cert.ReferenceIdeal.S80000x64 ![0, 1] Cert.ReferenceIdeal.Gen.bcast_S1x64_S80000x64_0_1 B (ix2 r q))) = _
  rw [e2, e3, ez, ek]
  rfl

/-! ## From the blocks to the array -/

theorem hz : (![0, 0] : Fin 2 → Nat) = fun _ => 0 := funext fun a => by fin_cases a <;> rfl

/-- The index maps over the grid: the row tiles, the column tile and the output block move down the rows with the
    point; the bias row stays. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Row p of point t's tiles is row 4000 · t + p of the arrays. -/
def row (t : Fin cfg4.N) (p : Fin 4000) : Fin 80000 :=
  ⟨4000 * t.val + p.val, by have hN : cfg4.N = 20 := N_4; have := t.isLt; have := p.isLt; omega⟩

variable (V : (c : Dev nD) → (b : Ref sig .tc) → Buf (Elt Ideal) ((c : Thread nD τ).loc b)) (c : Dev nD)

/-- The first row tile at point t is rows 4000 · t … of its array. -/
theorem tile0_at (t : Fin cfg4.N) (p : Fin 4000) (q : Fin 64) :
    iblk4 V c 0 t (ix2 p q) = V c main_v71 (ix2 (row t p) q) := by
  obtain ⟨e0, e1, -⟩ := idx_facts t
  show V c main_v71 (((cfg4.win 0).blk t).view.emb (ix2 p q)) = V c main_v71 (ix2 (row t p) q)
  refine congrArg (V c main_v71) (funext fun a => Fin.ext ?_)
  match a with
  | ⟨0, _⟩ => show win4_0.index t (0 : Fin 2) * 4000 + 1 * p.val = 4000 * t.val + p.val; omega
  | ⟨1, _⟩ => show win4_0.index t (1 : Fin 2) * 64 + 1 * q.val = q.val; omega

/-- The second row tile at point t is rows 4000 · t … of its array. -/
theorem tile1_at (t : Fin cfg4.N) (p : Fin 4000) (q : Fin 64) :
    iblk4 V c 1 t (ix2 p q) = V c main_v58 (ix2 (row t p) q) := by
  obtain ⟨-, -, e0, e1, -⟩ := idx_facts t
  show V c main_v58 (((cfg4.win 1).blk t).view.emb (ix2 p q)) = V c main_v58 (ix2 (row t p) q)
  refine congrArg (V c main_v58) (funext fun a => Fin.ext ?_)
  match a with
  | ⟨0, _⟩ => show win4_1.index t (0 : Fin 2) * 4000 + 1 * p.val = 4000 * t.val + p.val; omega
  | ⟨1, _⟩ => show win4_1.index t (1 : Fin 2) * 64 + 1 * q.val = q.val; omega

/-- The column tile at point t is rows 4000 · t … of the column. -/
theorem col_at (t : Fin cfg4.N) (p : Fin 4000) :
    iblk4 V c 2 t (ix2 p (0 : Fin 1)) = V c main_v74 (ix2 (row t p) (0 : Fin 1)) := by
  obtain ⟨-, -, -, -, e0, e1, -⟩ := idx_facts t
  show V c main_v74 (((cfg4.win 2).blk t).view.emb (ix2 p (0 : Fin 1))) = V c main_v74 (ix2 (row t p) (0 : Fin 1))
  refine congrArg (V c main_v74) (funext fun a => Fin.ext ?_)
  match a with
  | ⟨0, _⟩ => show win4_2.index t (0 : Fin 2) * 4000 + 1 * p.val = 4000 * t.val + p.val; omega
  | ⟨1, _⟩ => show win4_2.index t (1 : Fin 2) * 1 + 1 * (0 : Fin 1).val = (0 : Fin 1).val; omega

/-- The bias row's block is the bias row, at every point. -/
theorem bias_at (t : Fin cfg4.N) (q : Fin 64) :
    iblk4 V c 3 t (ix2 (0 : Fin 1) q) = V c main_v75 (ix2 (0 : Fin 1) q) := by
  obtain ⟨-, -, -, -, -, -, e0, e1, -⟩ := idx_facts t
  show V c main_v75 (((cfg4.win 3).blk t).view.emb (ix2 (0 : Fin 1) q)) = V c main_v75 (ix2 (0 : Fin 1) q)
  refine congrArg (V c main_v75) (funext fun a => Fin.ext ?_)
  match a with
  | ⟨0, _⟩ => show win4_3.index t (0 : Fin 2) * 1 + 1 * (0 : Fin 1).val = (0 : Fin 1).val; omega
  | ⟨1, _⟩ => show win4_3.index t (1 : Fin 2) * 64 + 1 * q.val = q.val; omega

/-- Entry (p, q) of the output's block at point t is entry (4000 · t + p, q) of the output array. -/
theorem out_emb (t : Fin cfg4.N) (p : Fin 4000) (q : Fin 64) :
    ((cfg4.win 4).blk t).view.emb (ix2 p q) = ix2 (row t p) q := by
  obtain ⟨-, -, -, -, -, -, -, -, e0, e1⟩ := idx_facts t
  refine funext fun a => Fin.ext ?_
  match a with
  | ⟨0, _⟩ => show win4_4.index t (0 : Fin 2) * 4000 + 1 * p.val = 4000 * t.val + p.val; omega
  | ⟨1, _⟩ => show win4_4.index t (1 : Fin 2) * 64 + 1 * q.val = q.val; omega

/-- What point t writes back is block t of the whole-array combination of the four arrays as the region finds them. -/
theorem flushed_eq (t : Fin cfg4.N) :
    (dat4 (F := Ideal) V c).flushed 4 t
      = ((cfg4.win 4).blk t).view.read (Elt Ideal)
          (Cert.Stages.comb (F := Ideal) (V c main_v71) (V c main_v58) (V c main_v74) (V c main_v75)) := by
  show (cfg4.win 4).cut (grid4.coords t) ((dat4 V c).after 4 t) = _
  rw [after4_4]
  unfold out4_4
  rw [View.canon_unit_zero hz]
  simp only [View.ld_unit_zero (S := S4000x64) hz, View.ld_unit_zero (S := S4000x1) hz, View.ld_unit_zero (S := S1x64) hz]
  funext j
  obtain ⟨p, q, rfl⟩ : ∃ (p : Fin 4000) (q : Fin 64), j = ix2 p q := ⟨j 0, j 1, eq_ix2 j⟩
  show k4_pay1 (iblk4 V c 0 t) (iblk4 V c 1 t) (iblk4 V c 2 t) (iblk4 V c 3 t) (ix2 p q)
      = Cert.Stages.comb (F := Ideal) (V c main_v71) (V c main_v58) (V c main_v74) (V c main_v75) (((cfg4.win 4).blk t).view.emb (ix2 p q))
  refine (pay_at (iblk4 V c 0 t) (iblk4 V c 1 t) (iblk4 V c 2 t) (iblk4 V c 3 t) p q).trans ?_
  rw [out_emb t p q, comb_at (V c main_v71) (V c main_v58) (V c main_v74) (V c main_v75) (row t p) q,
    tile0_at V c t p q, tile1_at V c t p q, col_at V c t p, bias_at V c t q]

/-- An index of the output array is in point t's block iff each coordinate is in the block's range on its axis. -/
theorem mem_blk (t : Fin cfg4.N) (i : S80000x64.Idx) :
    i ∈ ((cfg4.win 4).blk t).view.set ↔ ∀ a : Fin 2, win4_4.index t a * S4000x64.size a ≤ (i a).val
      ∧ (i a).val < win4_4.index t a * S4000x64.size a + S4000x64.size a := by
  show i ∈ ((View.whole main_v76).slice (win4_4.rect t)).set ↔ _
  rw [View.set_slice_whole, Rect.mem_set_unit]
  exact Iff.rfl

/-- The twenty blocks cover the output array: row r is in the block of point r / 4000. -/
theorem cover (i : S80000x64.Idx) :
    ∃ t : Fin cfg4.N, (cfg4.win 4).flush t = true ∧ i ∈ ((cfg4.win 4).blk t).view.set := by
  have hN : cfg4.N = 20 := N_4
  have hi0 : (i 0).val < 80000 := (i 0).isLt
  have hi1 : (i 1).val < 64 := (i 1).isLt
  refine ⟨⟨(i 0).val / 4000, by omega⟩, flush4_4 _, ?_⟩
  rw [mem_blk]
  obtain ⟨-, -, -, -, -, -, -, -, e0, e1⟩ := idx_facts ⟨(i 0).val / 4000, by omega⟩
  intro a
  match a with
  | ⟨0, _⟩ =>
    show win4_4.index ⟨(i 0).val / 4000, _⟩ (0 : Fin 2) * 4000 ≤ (i 0).val
      ∧ (i 0).val < win4_4.index ⟨(i 0).val / 4000, _⟩ (0 : Fin 2) * 4000 + 4000
    rw [e0]; show (i 0).val / 4000 * 4000 ≤ (i 0).val ∧ (i 0).val < (i 0).val / 4000 * 4000 + 4000; omega
  | ⟨1, _⟩ =>
    show win4_4.index ⟨(i 0).val / 4000, _⟩ (1 : Fin 2) * 64 ≤ (i 1).val
      ∧ (i 1).val < win4_4.index ⟨(i 0).val / 4000, _⟩ (1 : Fin 2) * 64 + 64
    rw [e1]; omega

/-- The region's output array ends holding the combination of the four arrays as the region finds them. -/
theorem value (V : (c : Dev nD) → (b : Ref sig .tc) → Buf (Elt Ideal) ((c : Thread nD τ).loc b)) (c : Dev nD) :
    (dat4 (F := Ideal) V c).arrAt 4 cfg4.N
      = Cert.Stages.comb (F := Ideal) (V c main_v71) (V c main_v58) (V c main_v74) (V c main_v75) :=
  (dat4 (F := Ideal) V c).arrAt_eq_of_cover 4 _ (fun t _ => flushed_eq V c t) cover

end Cert.KernelIdeal.Region4

end
-- ==== Proof.Region5.lean ====
import proofs.«115261_j72756745994565_1_alg».proof.Proof.Gen.KernelIdeal.Frame
import proofs.«115261_j72756745994565_1_alg».proof.Proof.Stages
import Idealize.ShloMosaic.Lib.Pipeline.Value
import Idealize.ShloMosaic.Lib.ValueIdx
import Idealize.ShloMosaic.Lib.ValueLayout
import Idealize.ShloMosaic.PureOps.Ideal.Laws
import proofs.«115261_j72756745994565_1_alg».proof.Proof.LibRowTileDot
import proofs.«115261_j72756745994565_1_alg».proof.Proof.LibUnitAxes

set_option maxRecDepth 16384

noncomputable section

namespace Cert.KernelIdeal.Region5

open Cert.KernelIdeal Cert.KernelIdeal.Gen Idealize.ShloMosaic Idealize.ShloMosaic.TcCoe Idealize.SL.Sem
open Idealize.ShloMosaic.Pipeline (Dat)

open Idealize.ShloMosaic.ValueIdx

/-! # Region 5: a product with a weight matrix plus a bias row, 64 → 64 features

The region walks the 80000 rows of X in twenty tiles of 4000.  At tile t its body multiplies rows 4000·t … 4000·t + 3999
of X by the whole 64 × 64 matrix W into a zero accumulator and adds the 1 × 64 row B to every row of the product.
Entry (p, q) of the stored block is therefore (the sum over k of X(4000·t + p, k) · W(k, q)) + B(0, q): entry (4000·t + p, q)
of X · W + B spread over the rows.  Every written-back block is a block of that one array and the twenty blocks tile it,
so the region leaves its output array holding it. -/

/-! ## The two products' dimension numbers

Both the row tile's product (4000 rows) and the whole product (80000 rows) contract the left operand's axis 1 with the
right operand's axis 0 and have no batch axis: the left operand's row is the output's row, the right operand's column
is the output's column. -/

theorem tileL0 (j : S4000x64.Idx) (k : dot_S4000x64_S64x64_S4000x64_1_0_0_1_n_n.contr.Idx) :
    (dot_S4000x64_S64x64_S4000x64_1_0_0_1_n_n.lhsIdx j k 0).val = (j 0).val := by
  unfold DotDims.lhsIdx
  rw [dif_neg (show ¬(0 : Fin S4000x64.rank) ∈ dot_S4000x64_S64x64_S4000x64_1_0_0_1_n_n.lhsBatch by decide),
    dif_pos (show (0 : Fin S4000x64.rank) ∈ dot_S4000x64_S64x64_S4000x64_1_0_0_1_n_n.lhsNonContracting by decide)]
  rfl

theorem tileR1 (j : S4000x64.Idx) (k : dot_S4000x64_S64x64_S4000x64_1_0_0_1_n_n.contr.Idx) :
    (dot_S4000x64_S64x64_S4000x64_1_0_0_1_n_n.rhsIdx j k 1).val = (j 1).val := by
  unfold DotDims.rhsIdx
  rw [dif_neg (show ¬(1 : Fin S64x64.rank) ∈ dot_S4000x64_S64x64_S4000x64_1_0_0_1_n_n.rhsBatch by decide),
    dif_pos (show (1 : Fin S64x64.rank) ∈ dot_S4000x64_S64x64_S4000x64_1_0_0_1_n_n.rhsNonContracting by decide)]
  rfl

theorem wholeL0 (j : Cert.ReferenceIdeal.S80000x64.Idx) (k : Cert.ReferenceIdeal.dot_S80000x64_S64x64_S80000x64_1_0_0_1_n_n.contr.Idx) :
    (Cert.ReferenceIdeal.dot_S80000x64_S64x64_S80000x64_1_0_0_1_n_n.lhsIdx j k 0).val = (j 0).val := by
  unfold DotDims.lhsIdx
  rw [dif_neg (show ¬(0 : Fin Cert.ReferenceIdeal.S80000x64.rank) ∈ Cert.ReferenceIdeal.dot_S80000x64_S64x64_S80000x64_1_0_0_1_n_n.lhsBatch by decide),
    dif_pos (show (0 : Fin Cert.ReferenceIdeal.S80000x64.rank) ∈ Cert.ReferenceIdeal.dot_S80000x64_S64x64_S80000x64_1_0_0_1_n_n.lhsNonContracting by decide)]
  rfl

theorem wholeR1 (j : Cert.ReferenceIdeal.S80000x64.Idx) (k : Cert.ReferenceIdeal.dot_S80000x64_S64x64_S80000x64_1_0_0_1_n_n.contr.Idx) :
    (Cert.ReferenceIdeal.dot_S80000x64_S64x64_S80000x64_1_0_0_1_n_n.rhsIdx j k 1).val = (j 1).val := by
  unfold DotDims.rhsIdx
  rw [dif_neg (show ¬(1 : Fin Cert.ReferenceIdeal.S64x64.rank) ∈ Cert.ReferenceIdeal.dot_S80000x64_S64x64_S80000x64_1_0_0_1_n_n.rhsBatch by decide),
    dif_pos (show (1 : Fin Cert.ReferenceIdeal.S64x64.rank) ∈ Cert.ReferenceIdeal.dot_S80000x64_S64x64_S80000x64_1_0_0_1_n_n.rhsNonContracting by decide)]
  rfl

/-! ## The body's payload at an entry -/

/-- Entry (p, q) of what the body stores, when the loaded row tile's row p is row r of the whole array X: the sum over k
    of X(r, k) · W(k, q), plus B(0, q) — entry (r, q) of X · W + the bias row spread over the rows.  The change of float
    format of the two operands is the identity on the extended reals; a cast between equal shapes moves nothing. -/
theorem pay_entry (x0 : Vec Ideal S4000x64 .f32) (W : Vec Ideal S64x64 .f32) (B : Vec Ideal S1x64 .f32)
    (X : Vec Ideal Cert.ReferenceIdeal.S80000x64 .f32) (p : Fin 4000) (q : Fin 64) (r : Fin 80000)
    (hX : ∀ k : Fin 64, (x0 (ix2 p k) : EReal) = X (ix2 r k)) :
    k5_pay1 (F := Ideal) x0 W B (ix2 p q) = Cert.Stages.linH (F := Ideal) X W B (ix2 r q) := by
  unfold k5_pay1 Cert.Stages.linH Cert.Stages.dotH
  refine congrArg₂ (· + ·) ?_ ?_
  · exact Cert.LibRowTileDot.tile_entry dot_S4000x64_S64x64_S4000x64_1_0_0_1_n_n rfl rfl rfl rfl tileL0 tileR1
      Cert.ReferenceIdeal.dot_S80000x64_S64x64_S80000x64_1_0_0_1_n_n rfl rfl rfl rfl wholeL0 wholeR1 none none HostSchedule.single
      (truncf FTy.bf16 (shapeCast S4000x64 x0 shapeCasts_S4000x64_S4000x64) bitsLt_bf16_f32)
      (truncf FTy.bf16 (shapeCast S64x64 W shapeCasts_S64x64_S64x64) bitsLt_bf16_f32) X W p q r
      (fun k => by
        show shapeCast S4000x64 x0 shapeCasts_S4000x64_S4000x64 (ix2 p k) = X (ix2 r k)
        rw [shapeCast_self]; exact hX k)
      (fun k => by
        show shapeCast S64x64 W shapeCasts_S64x64_S64x64 (ix2 k q) = W (ix2 k q)
        rw [shapeCast_self])
  · refine (broadcastTo_1b_ab_apply _ broadcasts_S1x64_S4000x64 p q).trans ?_
    rw [shapeCast_self]
    exact (Cert.LibUnitAxes.broadcastInDim_1b_ab_apply B Cert.ReferenceIdeal.Gen.bcast_S1x64_S80000x64_0_1 r q).symm

/-! ## From the blocks to the array -/

theorem hz : (![0, 0] : Fin 2 → Nat) = fun _ => 0 := funext fun a => by fin_cases a <;> rfl

/-- The index maps over the grid: at point t the row tile and the output block are block t along the rows and block 0
    along the features; the weight matrix and the bias row are their one block. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

section Blocks

variable (V : (c : Dev nD) → (b : Ref sig .tc) → Buf (Elt Ideal) ((c : Thread nD τ).loc b)) (c : Dev nD)

/-- Row p of point t's row tile is row 4000·t + p of the whole array. -/
theorem tile_row (t : Fin cfg5.N) (p : Fin 4000) (k : Fin 64) (r : Fin 80000) (hr : r.val = 4000 * t.val + p.val) :
    iblk5 (F := Ideal) V c 0 t (ix2 p k) = V c main_v76 (ix2 r k) := by
  obtain ⟨e0, e1, -⟩ := idx_facts t
  show V c main_v76 (((cfg5.win 0).blk t).view.emb (ix2 p k)) = V c main_v76 (ix2 r k)
  refine congrArg (V c main_v76) (funext fun a => Fin.ext ?_)
  match a with
  | ⟨0, _⟩ => show win5_0.index t (0 : Fin 2) * 4000 + 1 * p.val = r.val; omega
  | ⟨1, _⟩ => show win5_0.index t (1 : Fin 2) * 64 + 1 * k.val = k.val; omega

/-- Every point's weight block is the whole weight matrix. -/
theorem weight_blk (t : Fin cfg5.N) : iblk5 (F := Ideal) V c 1 t = V c main_v79 := by
  obtain ⟨-, -, e2, e3, -⟩ := idx_facts t
  funext y
  show V c main_v79 (((cfg5.win 1).blk t).view.emb y) = V c main_v79 y
  refine congrArg (V c main_v79) (funext fun a => Fin.ext ?_)
  match a with
  | ⟨0, _⟩ => show win5_1.index t (0 : Fin 2) * 64 + 1 * (y 0).val = (y 0).val; omega
  | ⟨1, _⟩ => show win5_1.index t (1 : Fin 2) * 64 + 1 * (y 1).val = (y 1).val; omega

/-- Every point's bias block is the whole bias row. -/
theorem bias_blk (t : Fin cfg5.N) : iblk5 (F := Ideal) V c 2 t = V c main_v80 := by
  obtain ⟨-, -, -, -, e4, e5, -⟩ := idx_facts t
  funext y
  show V c main_v80 (((cfg5.win 2).blk t).view.emb y) = V c main_v80 y
  refine congrArg (V c main_v80) (funext fun a => Fin.ext ?_)
  match a with
  | ⟨0, _⟩ => show win5_2.index t (0 : Fin 2) * 1 + 1 * (y 0).val = (y 0).val; omega
  | ⟨1, _⟩ => show win5_2.index t (1 : Fin 2) * 64 + 1 * (y 1).val = (y 1).val; omega

/-- Entry j of what the body stores at point t is the entry of X · W + the spread bias row, 4000·t rows further down. -/
theorem block_entry (t : Fin cfg5.N) (j : S4000x64.Idx) (i : S80000x64.Idx)
    (hi0 : (i 0).val = 4000 * t.val + (j 0).val) (hi1 : (i 1).val = (j 1).val) :
    k5_pay1 (F := Ideal) (iblk5 V c 0 t) (V c main_v79) (V c main_v80) j
      = Cert.Stages.linH (F := Ideal) (V c main_v76) (V c main_v79) (V c main_v80) i := by
  obtain ⟨p, q, rfl⟩ : ∃ (p : Fin 4000) (q : Fin 64), j = ix2 p q := ⟨j 0, j 1, eq_ix2 j⟩
  obtain ⟨r, q', rfl⟩ : ∃ (r : Fin 80000) (q' : Fin 64), i = ix2 r q' := ⟨i 0, i 1, eq_ix2 i⟩
  obtain rfl : q' = q := Fin.ext hi1
  exact pay_entry _ _ _ _ p q' r fun k => tile_row V c t p k r hi0

/-- WHAT POINT t WRITES BACK is block t of X · W + the bias row spread over the rows, X, W, B the region's three
    input arrays as it finds them. -/
theorem flushed_eq (t : Fin cfg5.N) :
    (dat5 (F := Ideal) V c).flushed 3 t
      = ((cfg5.win 3).blk t).view.read (Elt Ideal) (Cert.Stages.linH (F := Ideal) (V c main_v76) (V c main_v79) (V c main_v80)) := by
  show (cfg5.win 3).cut (grid5.coords t) ((dat5 V c).after 3 t) = _
  rw [after5_3]
  unfold out5_3
  rw [View.canon_unit_zero hz]
  simp only [View.ld_unit_zero (S := S4000x64) hz, View.ld_unit_zero (S := S64x64) hz, View.ld_unit_zero (S := S1x64) hz]
  rw [weight_blk, bias_blk]
  obtain ⟨-, -, -, -, -, -, e6, e7⟩ := idx_facts t
  funext j
  refine block_entry V c t j (((cfg5.win 3).blk t).view.emb j) ?_ ?_
  · show win5_3.index t (0 : Fin 2) * 4000 + 1 * (j 0).val = 4000 * t.val + (j 0).val; omega
  · show win5_3.index t (1 : Fin 2) * 64 + 1 * (j 1).val = (j 1).val; omega

end Blocks

/-- An index of the array is in point t's block iff each coordinate is in the block's range on its axis. -/
theorem mem_blk (t : Fin cfg5.N) (i : S80000x64.Idx) :
    i ∈ ((cfg5.win 3).blk t).view.set ↔ ∀ a : Fin 2, win5_3.index t a * S4000x64.size a ≤ (i a).val ∧ (i a).val < win5_3.index t a * S4000x64.size a + S4000x64.size a := by
  show i ∈ ((View.whole main_v81).slice (win5_3.rect t)).set ↔ _
  rw [View.set_slice_whole, Rect.mem_set_unit]
  exact Iff.rfl

/-- Row r of the array is in the block of point r / 4000: the twenty blocks of 4000 rows tile the 80000 rows. -/
theorem cover (i : S80000x64.Idx) : ∃ t : Fin cfg5.N, (cfg5.win 3).flush t = true ∧ i ∈ ((cfg5.win 3).blk t).view.set := by
  have hN : grid5.N = 20 := N_5
  have hi0 : (i 0).val < 80000 := (i 0).isLt
  have hi1 : (i 1).val < 64 := (i 1).isLt
  let t : Fin cfg5.N := ⟨(i 0).val / 4000, by show (i 0).val / 4000 < grid5.N; omega⟩
  obtain ⟨-, -, -, -, -, -, e6, e7⟩ := idx_facts t
  have ht : t.val = (i 0).val / 4000 := rfl
  refine ⟨t, flush5_3 t, ?_⟩
  rw [mem_blk]
  intro a
  match a with
  | ⟨0, _⟩ => show win5_3.index t (0 : Fin 2) * 4000 ≤ (i 0).val ∧ (i 0).val < win5_3.index t (0 : Fin 2) * 4000 + 4000; omega
  | ⟨1, _⟩ => show win5_3.index t (1 : Fin 2) * 64 ≤ (i 1).val ∧ (i 1).val < win5_3.index t (1 : Fin 2) * 64 + 64; omega

/-- THE ARRAY the region leaves: X · W + the bias row spread over the rows. -/
theorem value (V : (c : Dev nD) → (b : Ref sig .tc) → Buf (Elt Ideal) ((c : Thread nD τ).loc b)) (c : Dev nD) :
    (dat5 (F := Ideal) V c).arrAt 3 cfg5.N = Cert.Stages.linH (F := Ideal) (V c main_v76) (V c main_v79) (V c main_v80) :=
  (dat5 (F := Ideal) V c).arrAt_eq_of_cover 3 (Cert.Stages.linH (F := Ideal) (V c main_v76) (V c main_v79) (V c main_v80))
    (fun t _ => flushed_eq V c t) cover

end Cert.KernelIdeal.Region5

end
-- ==== Proof.Region6.lean ====
/-
  The value of combine region 6.  At grid point t the body holds rows 4000 · t … 4000 · t + 3999 of the aggregate a and of
  the node array g (two [4000, 64] tiles), the same rows of the per-node column s ([4000, 1]) and the bias row B ([1, 64]).
  Every operation in it is pointwise, so entry (p, q) of the block it writes back is the rectifier of
  (a(r, q) + g(r, q) · s(r, 0)) + B(0, q) at r = 4000 · t + p: entry (r, q) of the whole-array combination.  The twenty
  blocks tile the 80000 rows, so the output array ends holding the combination.
-/
import proofs.«115261_j72756745994565_1_alg».proof.Proof.Gen.KernelIdeal.Frame
import proofs.«115261_j72756745994565_1_alg».proof.Proof.Stages
import proofs.«115261_j72756745994565_1_alg».proof.Proof.LibUnitAxes
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region6

open Cert.KernelIdeal Cert.KernelIdeal.Gen Idealize.ShloMosaic Idealize.ShloMosaic.TcCoe Idealize.SL.Sem
open Idealize.ShloMosaic.Pipeline (Dat)
open Idealize.ShloMosaic.ValueIdx Cert.LibUnitAxes

/-- The rectifier at one entry: v where v ≥ z, the slope k times v elsewhere. -/
def leakyAt (z k v : Ideal .f32) : Ideal .f32 :=
  Scalar.select (FloatOps.cmpf .oge v z) v (FloatOps.mulf k v)

/-- One entry of the combination: the rectifier, with the f32 words of 0 and 0.01, of (a + g · s) + b. -/
def combAt (a g s b : Ideal .f32) : Ideal .f32 :=
  leakyAt (FloatOps.ofBits .f32 0x00000000#32) (FloatOps.ofBits .f32 0x3C23D70A#32)
    (FloatOps.addf (FloatOps.addf a (FloatOps.mulf g s)) b)

/-- The body's payload at (p, q): the combination of the two row tiles at (p, q), the column tile at (p, 0) and the
    bias row at (0, q). -/
theorem pay_at (x0 x1 : Vec Ideal S4000x64 .f32) (x2 : Vec Ideal S4000x1 .f32) (x3 : Vec Ideal S1x64 .f32)
    (p : Fin 4000) (q : Fin 64) :
    k6_pay1 x0 x1 x2 x3 (ix2 p q)
      = combAt (x0 (ix2 p q)) (x1 (ix2 p q)) (x2 (ix2 p (0 : Fin 1))) (x3 (ix2 (0 : Fin 1) q)) := by
  have e2 : broadcastTo S4000x64 x2 broadcasts_S4000x1_S4000x64 (ix2 p q) = x2 (ix2 p (0 : Fin 1)) :=
    broadcastTo_a1_ab_apply x2 broadcasts_S4000x1_S4000x64 p q
  have e3 : broadcastTo S4000x64 x3 broadcasts_S1x64_S4000x64 (ix2 p q) = x3 (ix2 (0 : Fin 1) q) :=
    broadcastTo_1b_ab_apply x3 broadcasts_S1x64_S4000x64 p q
  unfold k6_pay1
  simp only [shapeCast_self]
  show combAt (x0 (ix2 p q)) (x1 (ix2 p q)) (broadcastTo S4000x64 x2 broadcasts_S4000x1_S4000x64 (ix2 p q))
      (broadcastTo S4000x64 x3 broadcasts_S1x64_S4000x64 (ix2 p q)) = _
  rw [e2, e3]

/-- The whole-array combination at (r, q): the same function of the arrays' entries. -/
theorem comb_at (A G : (⟨S80000x64, .f32⟩ : BufTy).Contents (Elt Ideal)) (S : (⟨S80000x1, .f32⟩ : BufTy).Contents (Elt Ideal))
    (B : (⟨S1x64, .f32⟩ : BufTy).Contents (Elt Ideal)) (r : Fin 80000) (q : Fin 64) :
    Cert.Stages.comb (F := Ideal) A G S B (ix2 r q)
      = combAt (A (ix2 r q)) (G (ix2 r q)) (S (ix2 r (0 : Fin 1))) (B (ix2 (0 : Fin 1) q)) := by
  have e2 : broadcastInDim Cert.ReferenceIdeal.S80000x64 ![0, 1] Cert.ReferenceIdeal.Gen.bcast_S80000x1_S80000x64_0_1 S (ix2 r q)
      = S (ix2 r (0 : Fin 1)) :=
    broadcastInDim_a1_ab_apply S Cert.ReferenceIdeal.Gen.bcast_S80000x1_S80000x64_0_1 r q
  have e3 : broadcastInDim Cert.ReferenceIdeal.S80000x64 ![0, 1] Cert.ReferenceIdeal.Gen.bcast_S1x64_S80000x64_0_1 B (ix2 r q)
      = B (ix2 (0 : Fin 1) q) :=
    broadcastInDim_1b_ab_apply B Cert.ReferenceIdeal.Gen.bcast_S1x64_S80000x64_0_1 r q
  have ez : broadcastInDim Cert.ReferenceIdeal.S80000x64 ![] Cert.ReferenceIdeal.Gen.bcast_S_S80000x64
      (constant (F := Ideal) Cert.ReferenceIdeal.S_ .f32 0x00000000#32) (ix2 r q) = FloatOps.ofBits .f32 0x00000000#32 :=
    broadcastInDim_scalar_apply _ Cert.ReferenceIdeal.Gen.bcast_S_S80000x64 (ix2 r q)
  have ek : broadcastInDim Cert.ReferenceIdeal.S80000x64 ![] Cert.ReferenceIdeal.Gen.bcast_S_S80000x64
      (constant (F := Ideal) Cert.ReferenceIdeal.S_ .f32 0x3C23D70A#32) (ix2 r q) = FloatOps.ofBits .f32 0x3C23D70A#32 :=
    broadcastInDim_scalar_apply _ Cert.ReferenceIdeal.Gen.bcast_S_S80000x64 (ix2 r q)
  unfold Cert.Stages.comb Cert.Stages.leaky
  show leakyAt
      (broadcastInDim Cert.ReferenceIdeal.S80000x64 ![] Cert.ReferenceIdeal.Gen.bcast_S_S80000x64
        (constant (F := Ideal) Cert.ReferenceIdeal.S_ .f32 0x00000000#32) (ix2 r q))
      (broadcastInDim Cert.ReferenceIdeal.S80000x64 ![] Cert.ReferenceIdeal.Gen.bcast_S_S80000x64
        (constant (F := Ideal) Cert.ReferenceIdeal.S_ .f32 0x3C23D70A#32) (ix2 r q))
      (FloatOps.addf (FloatOps.addf (A (ix2 r q)) (FloatOps.mulf (G (ix2 r q))
          (broadcastInDim Cert.ReferenceIdeal.S80000x64 ![0, 1] Cert.ReferenceIdeal.Gen.bcast_S80000x1_S80000x64_0_1 S (ix2 r q))))
        (broadcastInDim Cert.ReferenceIdeal.S80000x64 ![0, 1] Cert.ReferenceIdeal.Gen.bcast_S1x64_S80000x64_0_1 B (ix2 r q))) = _
  rw [e2, e3, ez, ek]
  rfl

/-! ## From the blocks to the array -/

theorem hz : (![0, 0] : Fin 2 → Nat) = fun _ => 0 := funext fun a => by fin_cases a <;> rfl

/-- The index maps over the grid: the row tiles, the column tile and the output block move down the rows with the
    point; the bias row stays. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

/-- Row p of point t's tiles is row 4000 · t + p of the arrays. -/
def row (t : Fin cfg6.N) (p : Fin 4000) : Fin 80000 :=
  ⟨4000 * t.val + p.val, by have hN : cfg6.N = 20 := N_6; have := t.isLt; have := p.isLt; omega⟩

variable (V : (c : Dev nD) → (b : Ref sig .tc) → Buf (Elt Ideal) ((c : Thread nD τ).loc b)) (c : Dev nD)

/-- The first row tile at point t is rows 4000 · t … of its array. -/
theorem tile0_at (t : Fin cfg6.N) (p : Fin 4000) (q : Fin 64) :
    iblk6 V c 0 t (ix2 p q) = V c main_v94 (ix2 (row t p) q) := by
  obtain ⟨e0, e1, -⟩ := idx_facts t
  show V c main_v94 (((cfg6.win 0).blk t).view.emb (ix2 p q)) = V c main_v94 (ix2 (row t p) q)
  refine congrArg (V c main_v94) (funext fun a => Fin.ext ?_)
  match a with
  | ⟨0, _⟩ => show win6_0.index t (0 : Fin 2) * 4000 + 1 * p.val = 4000 * t.val + p.val; omega
  | ⟨1, _⟩ => show win6_0.index t (1 : Fin 2) * 64 + 1 * q.val = q.val; omega

/-- The second row tile at point t is rows 4000 · t … of its array. -/
theorem tile1_at (t : Fin cfg6.N) (p : Fin 4000) (q : Fin 64) :
    iblk6 V c 1 t (ix2 p q) = V c main_v81 (ix2 (row t p) q) := by
  obtain ⟨-, -, e0, e1, -⟩ := idx_facts t
  show V c main_v81 (((cfg6.win 1).blk t).view.emb (ix2 p q)) = V c main_v81 (ix2 (row t p) q)
  refine congrArg (V c main_v81) (funext fun a => Fin.ext ?_)
  match a with
  | ⟨0, _⟩ => show win6_1.index t (0 : Fin 2) * 4000 + 1 * p.val = 4000 * t.val + p.val; omega
  | ⟨1, _⟩ => show win6_1.index t (1 : Fin 2) * 64 + 1 * q.val = q.val; omega

/-- The column tile at point t is rows 4000 · t … of the column. -/
theorem col_at (t : Fin cfg6.N) (p : Fin 4000) :
    iblk6 V c 2 t (ix2 p (0 : Fin 1)) = V c main_v97 (ix2 (row t p) (0 : Fin 1)) := by
  obtain ⟨-, -, -, -, e0, e1, -⟩ := idx_facts t
  show V c main_v97 (((cfg6.win 2).blk t).view.emb (ix2 p (0 : Fin 1))) = V c main_v97 (ix2 (row t p) (0 : Fin 1))
  refine congrArg (V c main_v97) (funext fun a => Fin.ext ?_)
  match a with
  | ⟨0, _⟩ => show win6_2.index t (0 : Fin 2) * 4000 + 1 * p.val = 4000 * t.val + p.val; omega
  | ⟨1, _⟩ => show win6_2.index t (1 : Fin 2) * 1 + 1 * (0 : Fin 1).val = (0 : Fin 1).val; omega

/-- The bias row's block is the bias row, at every point. -/
theorem bias_at (t : Fin cfg6.N) (q : Fin 64) :
    iblk6 V c 3 t (ix2 (0 : Fin 1) q) = V c main_v98 (ix2 (0 : Fin 1) q) := by
  obtain ⟨-, -, -, -, -, -, e0, e1, -⟩ := idx_facts t
  show V c main_v98 (((cfg6.win 3).blk t).view.emb (ix2 (0 : Fin 1) q)) = V c main_v98 (ix2 (0 : Fin 1) q)
  refine congrArg (V c main_v98) (funext fun a => Fin.ext ?_)
  match a with
  | ⟨0, _⟩ => show win6_3.index t (0 : Fin 2) * 1 + 1 * (0 : Fin 1).val = (0 : Fin 1).val; omega
  | ⟨1, _⟩ => show win6_3.index t (1 : Fin 2) * 64 + 1 * q.val = q.val; omega

/-- Entry (p, q) of the output's block at point t is entry (4000 · t + p, q) of the output array. -/
theorem out_emb (t : Fin cfg6.N) (p : Fin 4000) (q : Fin 64) :
    ((cfg6.win 4).blk t).view.emb (ix2 p q) = ix2 (row t p) q := by
  obtain ⟨-, -, -, -, -, -, -, -, e0, e1⟩ := idx_facts t
  refine funext fun a => Fin.ext ?_
  match a with
  | ⟨0, _⟩ => show win6_4.index t (0 : Fin 2) * 4000 + 1 * p.val = 4000 * t.val + p.val; omega
  | ⟨1, _⟩ => show win6_4.index t (1 : Fin 2) * 64 + 1 * q.val = q.val; omega

/-- What point t writes back is block t of the whole-array combination of the four arrays as the region finds them. -/
theorem flushed_eq (t : Fin cfg6.N) :
    (dat6 (F := Ideal) V c).flushed 4 t
      = ((cfg6.win 4).blk t).view.read (Elt Ideal)
          (Cert.Stages.comb (F := Ideal) (V c main_v94) (V c main_v81) (V c main_v97) (V c main_v98)) := by
  show (cfg6.win 4).cut (grid6.coords t) ((dat6 V c).after 4 t) = _
  rw [after6_4]
  unfold out6_4
  rw [View.canon_unit_zero hz]
  simp only [View.ld_unit_zero (S := S4000x64) hz, View.ld_unit_zero (S := S4000x1) hz, View.ld_unit_zero (S := S1x64) hz]
  funext j
  obtain ⟨p, q, rfl⟩ : ∃ (p : Fin 4000) (q : Fin 64), j = ix2 p q := ⟨j 0, j 1, eq_ix2 j⟩
  show k6_pay1 (iblk6 V c 0 t) (iblk6 V c 1 t) (iblk6 V c 2 t) (iblk6 V c 3 t) (ix2 p q)
      = Cert.Stages.comb (F := Ideal) (V c main_v94) (V c main_v81) (V c main_v97) (V c main_v98) (((cfg6.win 4).blk t).view.emb (ix2 p q))
  refine (pay_at (iblk6 V c 0 t) (iblk6 V c 1 t) (iblk6 V c 2 t) (iblk6 V c 3 t) p q).trans ?_
  rw [out_emb t p q, comb_at (V c main_v94) (V c main_v81) (V c main_v97) (V c main_v98) (row t p) q,
    tile0_at V c t p q, tile1_at V c t p q, col_at V c t p, bias_at V c t q]

/-- An index of the output array is in point t's block iff each coordinate is in the block's range on its axis. -/
theorem mem_blk (t : Fin cfg6.N) (i : S80000x64.Idx) :
    i ∈ ((cfg6.win 4).blk t).view.set ↔ ∀ a : Fin 2, win6_4.index t a * S4000x64.size a ≤ (i a).val
      ∧ (i a).val < win6_4.index t a * S4000x64.size a + S4000x64.size a := by
  show i ∈ ((View.whole main_v99).slice (win6_4.rect t)).set ↔ _
  rw [View.set_slice_whole, Rect.mem_set_unit]
  exact Iff.rfl

/-- The twenty blocks cover the output array: row r is in the block of point r / 4000. -/
theorem cover (i : S80000x64.Idx) :
    ∃ t : Fin cfg6.N, (cfg6.win 4).flush t = true ∧ i ∈ ((cfg6.win 4).blk t).view.set := by
  have hN : cfg6.N = 20 := N_6
  have hi0 : (i 0).val < 80000 := (i 0).isLt
  have hi1 : (i 1).val < 64 := (i 1).isLt
  refine ⟨⟨(i 0).val / 4000, by omega⟩, flush6_4 _, ?_⟩
  rw [mem_blk]
  obtain ⟨-, -, -, -, -, -, -, -, e0, e1⟩ := idx_facts ⟨(i 0).val / 4000, by omega⟩
  intro a
  match a with
  | ⟨0, _⟩ =>
    show win6_4.index ⟨(i 0).val / 4000, _⟩ (0 : Fin 2) * 4000 ≤ (i 0).val
      ∧ (i 0).val < win6_4.index ⟨(i 0).val / 4000, _⟩ (0 : Fin 2) * 4000 + 4000
    rw [e0]; show (i 0).val / 4000 * 4000 ≤ (i 0).val ∧ (i 0).val < (i 0).val / 4000 * 4000 + 4000; omega
  | ⟨1, _⟩ =>
    show win6_4.index ⟨(i 0).val / 4000, _⟩ (1 : Fin 2) * 64 ≤ (i 1).val
      ∧ (i 1).val < win6_4.index ⟨(i 0).val / 4000, _⟩ (1 : Fin 2) * 64 + 64
    rw [e1]; omega

/-- The region's output array ends holding the combination of the four arrays as the region finds them. -/
theorem value (V : (c : Dev nD) → (b : Ref sig .tc) → Buf (Elt Ideal) ((c : Thread nD τ).loc b)) (c : Dev nD) :
    (dat6 (F := Ideal) V c).arrAt 4 cfg6.N
      = Cert.Stages.comb (F := Ideal) (V c main_v94) (V c main_v81) (V c main_v97) (V c main_v98) :=
  (dat6 (F := Ideal) V c).arrAt_eq_of_cover 4 _ (fun t _ => flushed_eq V c t) cover

end Cert.KernelIdeal.Region6

end
-- ==== Proof.Region7.lean ====
import proofs.«115261_j72756745994565_1_alg».proof.Proof.Gen.KernelIdeal.Frame
import proofs.«115261_j72756745994565_1_alg».proof.Proof.Stages
import Idealize.ShloMosaic.Lib.Pipeline.Value
import Idealize.ShloMosaic.Lib.ValueIdx
import Idealize.ShloMosaic.Lib.ValueLayout
import Idealize.ShloMosaic.PureOps.Ideal.Laws
import proofs.«115261_j72756745994565_1_alg».proof.Proof.LibRowTileDot
import proofs.«115261_j72756745994565_1_alg».proof.Proof.LibUnitAxes

set_option maxRecDepth 16384

noncomputable section

namespace Cert.KernelIdeal.Region7

open Cert.KernelIdeal Cert.KernelIdeal.Gen Idealize.ShloMosaic Idealize.ShloMosaic.TcCoe Idealize.SL.Sem
open Idealize.ShloMosaic.Pipeline (Dat)

open Idealize.ShloMosaic.ValueIdx

/-! # Region 7: a product with a weight matrix plus a bias row, 64 → 32 features

The region walks the 80000 rows of X in twenty tiles of 4000.  At tile t its body multiplies rows 4000·t … 4000·t + 3999
of X by the whole 64 × 32 matrix W into a zero accumulator and adds the 1 × 32 row B to every row of the product.
Entry (p, q) of the stored block is therefore (the sum over k of X(4000·t + p, k) · W(k, q)) + B(0, q): entry (4000·t + p, q)
of X · W + B spread over the rows.  Every written-back block is a block of that one array and the twenty blocks tile it,
so the region leaves its output array holding it. -/

/-! ## The two products' dimension numbers

Both the row tile's product (4000 rows) and the whole product (80000 rows) contract the left operand's axis 1 with the
right operand's axis 0 and have no batch axis: the left operand's row is the output's row, the right operand's column
is the output's column. -/

theorem tileL0 (j : S4000x32.Idx) (k : dot_S4000x64_S64x32_S4000x32_1_0_0_1_n_n.contr.Idx) :
    (dot_S4000x64_S64x32_S4000x32_1_0_0_1_n_n.lhsIdx j k 0).val = (j 0).val := by
  unfold DotDims.lhsIdx
  rw [dif_neg (show ¬(0 : Fin S4000x64.rank) ∈ dot_S4000x64_S64x32_S4000x32_1_0_0_1_n_n.lhsBatch by decide),
    dif_pos (show (0 : Fin S4000x64.rank) ∈ dot_S4000x64_S64x32_S4000x32_1_0_0_1_n_n.lhsNonContracting by decide)]
  rfl

theorem tileR1 (j : S4000x32.Idx) (k : dot_S4000x64_S64x32_S4000x32_1_0_0_1_n_n.contr.Idx) :
    (dot_S4000x64_S64x32_S4000x32_1_0_0_1_n_n.rhsIdx j k 1).val = (j 1).val := by
  unfold DotDims.rhsIdx
  rw [dif_neg (show ¬(1 : Fin S64x32.rank) ∈ dot_S4000x64_S64x32_S4000x32_1_0_0_1_n_n.rhsBatch by decide),
    dif_pos (show (1 : Fin S64x32.rank) ∈ dot_S4000x64_S64x32_S4000x32_1_0_0_1_n_n.rhsNonContracting by decide)]
  rfl

theorem wholeL0 (j : Cert.ReferenceIdeal.S80000x32.Idx) (k : Cert.ReferenceIdeal.dot_S80000x64_S64x32_S80000x32_1_0_0_1_n_n.contr.Idx) :
    (Cert.ReferenceIdeal.dot_S80000x64_S64x32_S80000x32_1_0_0_1_n_n.lhsIdx j k 0).val = (j 0).val := by
  unfold DotDims.lhsIdx
  rw [dif_neg (show ¬(0 : Fin Cert.ReferenceIdeal.S80000x64.rank) ∈ Cert.ReferenceIdeal.dot_S80000x64_S64x32_S80000x32_1_0_0_1_n_n.lhsBatch by decide),
    dif_pos (show (0 : Fin Cert.ReferenceIdeal.S80000x64.rank) ∈ Cert.ReferenceIdeal.dot_S80000x64_S64x32_S80000x32_1_0_0_1_n_n.lhsNonContracting by decide)]
  rfl

theorem wholeR1 (j : Cert.ReferenceIdeal.S80000x32.Idx) (k : Cert.ReferenceIdeal.dot_S80000x64_S64x32_S80000x32_1_0_0_1_n_n.contr.Idx) :
    (Cert.ReferenceIdeal.dot_S80000x64_S64x32_S80000x32_1_0_0_1_n_n.rhsIdx j k 1).val = (j 1).val := by
  unfold DotDims.rhsIdx
  rw [dif_neg (show ¬(1 : Fin Cert.ReferenceIdeal.S64x32.rank) ∈ Cert.ReferenceIdeal.dot_S80000x64_S64x32_S80000x32_1_0_0_1_n_n.rhsBatch by decide),
    dif_pos (show (1 : Fin Cert.ReferenceIdeal.S64x32.rank) ∈ Cert.ReferenceIdeal.dot_S80000x64_S64x32_S80000x32_1_0_0_1_n_n.rhsNonContracting by decide)]
  rfl

/-! ## The body's payload at an entry -/

/-- Entry (p, q) of what the body stores, when the loaded row tile's row p is row r of the whole array X: the sum over k
    of X(r, k) · W(k, q), plus B(0, q) — entry (r, q) of X · W + the bias row spread over the rows.  The change of float
    format of the two operands is the identity on the extended reals; a cast between equal shapes moves nothing. -/
theorem pay_entry (x0 : Vec Ideal S4000x64 .f32) (W : Vec Ideal S64x32 .f32) (B : Vec Ideal S1x32 .f32)
    (X : Vec Ideal Cert.ReferenceIdeal.S80000x64 .f32) (p : Fin 4000) (q : Fin 32) (r : Fin 80000)
    (hX : ∀ k : Fin 64, (x0 (ix2 p k) : EReal) = X (ix2 r k)) :
    k7_pay1 (F := Ideal) x0 W B (ix2 p q) = Cert.Stages.linOut (F := Ideal) X W B (ix2 r q) := by
  unfold k7_pay1 Cert.Stages.linOut
  refine congrArg₂ (· + ·) ?_ ?_
  · exact Cert.LibRowTileDot.tile_entry dot_S4000x64_S64x32_S4000x32_1_0_0_1_n_n rfl rfl rfl rfl tileL0 tileR1
      Cert.ReferenceIdeal.dot_S80000x64_S64x32_S80000x32_1_0_0_1_n_n rfl rfl rfl rfl wholeL0 wholeR1 none none HostSchedule.single
      (truncf FTy.bf16 (shapeCast S4000x64 x0 shapeCasts_S4000x64_S4000x64) bitsLt_bf16_f32)
      (truncf FTy.bf16 W bitsLt_bf16_f32) X W p q r
      (fun k => by
        show shapeCast S4000x64 x0 shapeCasts_S4000x64_S4000x64 (ix2 p k) = X (ix2 r k)
        rw [shapeCast_self]; exact hX k)
      (fun _ => rfl)
  · refine (broadcastTo_1b_ab_apply _ broadcasts_S1x32_S4000x32 p q).trans ?_
    rw [shapeCast_self]
    exact (Cert.LibUnitAxes.broadcastInDim_1b_ab_apply B Cert.ReferenceIdeal.Gen.bcast_S1x32_S80000x32_0_1 r q).symm

/-! ## From the blocks to the array -/

theorem hz : (![0, 0] : Fin 2 → Nat) = fun _ => 0 := funext fun a => by fin_cases a <;> rfl

/-- The index maps over the grid: at point t the row tile and the output block are block t along the rows and block 0
    along the features; the weight matrix and the bias row are their one block. -/
theorem idx_facts : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

section Blocks

variable (V : (c : Dev nD) → (b : Ref sig .tc) → Buf (Elt Ideal) ((c : Thread nD τ).loc b)) (c : Dev nD)

/-- Row p of point t's row tile is row 4000·t + p of the whole array. -/
theorem tile_row (t : Fin cfg7.N) (p : Fin 4000) (k : Fin 64) (r : Fin 80000) (hr : r.val = 4000 * t.val + p.val) :
    iblk7 (F := Ideal) V c 0 t (ix2 p k) = V c main_v99 (ix2 r k) := by
  obtain ⟨e0, e1, -⟩ := idx_facts t
  show V c main_v99 (((cfg7.win 0).blk t).view.emb (ix2 p k)) = V c main_v99 (ix2 r k)
  refine congrArg (V c main_v99) (funext fun a => Fin.ext ?_)
  match a with
  | ⟨0, _⟩ => show win7_0.index t (0 : Fin 2) * 4000 + 1 * p.val = r.val; omega
  | ⟨1, _⟩ => show win7_0.index t (1 : Fin 2) * 64 + 1 * k.val = k.val; omega

/-- Every point's weight block is the whole weight matrix. -/
theorem weight_blk (t : Fin cfg7.N) : iblk7 (F := Ideal) V c 1 t = V c main_arg6 := by
  obtain ⟨-, -, e2, e3, -⟩ := idx_facts t
  funext y
  show V c main_arg6 (((cfg7.win 1).blk t).view.emb y) = V c main_arg6 y
  refine congrArg (V c main_arg6) (funext fun a => Fin.ext ?_)
  match a with
  | ⟨0, _⟩ => show win7_1.index t (0 : Fin 2) * 64 + 1 * (y 0).val = (y 0).val; omega
  | ⟨1, _⟩ => show win7_1.index t (1 : Fin 2) * 32 + 1 * (y 1).val = (y 1).val; omega

/-- Every point's bias block is the whole bias row. -/
theorem bias_blk (t : Fin cfg7.N) : iblk7 (F := Ideal) V c 2 t = V c main_v100 := by
  obtain ⟨-, -, -, -, e4, e5, -⟩ := idx_facts t
  funext y
  show V c main_v100 (((cfg7.win 2).blk t).view.emb y) = V c main_v100 y
  refine congrArg (V c main_v100) (funext fun a => Fin.ext ?_)
  match a with
  | ⟨0, _⟩ => show win7_2.index t (0 : Fin 2) * 1 + 1 * (y 0).val = (y 0).val; omega
  | ⟨1, _⟩ => show win7_2.index t (1 : Fin 2) * 32 + 1 * (y 1).val = (y 1).val; omega

/-- Entry j of what the body stores at point t is the entry of X · W + the spread bias row, 4000·t rows further down. -/
theorem block_entry (t : Fin cfg7.N) (j : S4000x32.Idx) (i : S80000x32.Idx)
    (hi0 : (i 0).val = 4000 * t.val + (j 0).val) (hi1 : (i 1).val = (j 1).val) :
    k7_pay1 (F := Ideal) (iblk7 V c 0 t) (V c main_arg6) (V c main_v100) j
      = Cert.Stages.linOut (F := Ideal) (V c main_v99) (V c main_arg6) (V c main_v100) i := by
  obtain ⟨p, q, rfl⟩ : ∃ (p : Fin 4000) (q : Fin 32), j = ix2 p q := ⟨j 0, j 1, eq_ix2 j⟩
  obtain ⟨r, q', rfl⟩ : ∃ (r : Fin 80000) (q' : Fin 32), i = ix2 r q' := ⟨i 0, i 1, eq_ix2 i⟩
  obtain rfl : q' = q := Fin.ext hi1
  exact pay_entry _ _ _ _ p q' r fun k => tile_row V c t p k r hi0

/-- WHAT POINT t WRITES BACK is block t of X · W + the bias row spread over the rows, X, W, B the region's three
    input arrays as it finds them. -/
theorem flushed_eq (t : Fin cfg7.N) :
    (dat7 (F := Ideal) V c).flushed 3 t
      = ((cfg7.win 3).blk t).view.read (Elt Ideal) (Cert.Stages.linOut (F := Ideal) (V c main_v99) (V c main_arg6) (V c main_v100)) := by
  show (cfg7.win 3).cut (grid7.coords t) ((dat7 V c).after 3 t) = _
  rw [after7_3]
  unfold out7_3
  rw [View.canon_unit_zero hz]
  simp only [View.ld_unit_zero (S := S4000x64) hz, View.ld_unit_zero (S := S64x32) hz, View.ld_unit_zero (S := S1x32) hz]
  rw [weight_blk, bias_blk]
  obtain ⟨-, -, -, -, -, -, e6, e7⟩ := idx_facts t
  funext j
  refine block_entry V c t j (((cfg7.win 3).blk t).view.emb j) ?_ ?_
  · show win7_3.index t (0 : Fin 2) * 4000 + 1 * (j 0).val = 4000 * t.val + (j 0).val; omega
  · show win7_3.index t (1 : Fin 2) * 32 + 1 * (j 1).val = (j 1).val; omega

end Blocks

/-- An index of the array is in point t's block iff each coordinate is in the block's range on its axis. -/
theorem mem_blk (t : Fin cfg7.N) (i : S80000x32.Idx) :
    i ∈ ((cfg7.win 3).blk t).view.set ↔ ∀ a : Fin 2, win7_3.index t a * S4000x32.size a ≤ (i a).val ∧ (i a).val < win7_3.index t a * S4000x32.size a + S4000x32.size a := by
  show i ∈ ((View.whole main_v101).slice (win7_3.rect t)).set ↔ _
  rw [View.set_slice_whole, Rect.mem_set_unit]
  exact Iff.rfl

/-- Row r of the array is in the block of point r / 4000: the twenty blocks of 4000 rows tile the 80000 rows. -/
theorem cover (i : S80000x32.Idx) : ∃ t : Fin cfg7.N, (cfg7.win 3).flush t = true ∧ i ∈ ((cfg7.win 3).blk t).view.set := by
  have hN : grid7.N = 20 := N_7
  have hi0 : (i 0).val < 80000 := (i 0).isLt
  have hi1 : (i 1).val < 32 := (i 1).isLt
  let t : Fin cfg7.N := ⟨(i 0).val / 4000, by show (i 0).val / 4000 < grid7.N; omega⟩
  obtain ⟨-, -, -, -, -, -, e6, e7⟩ := idx_facts t
  have ht : t.val = (i 0).val / 4000 := rfl
  refine ⟨t, flush7_3 t, ?_⟩
  rw [mem_blk]
  intro a
  match a with
  | ⟨0, _⟩ => show win7_3.index t (0 : Fin 2) * 4000 ≤ (i 0).val ∧ (i 0).val < win7_3.index t (0 : Fin 2) * 4000 + 4000; omega
  | ⟨1, _⟩ => show win7_3.index t (1 : Fin 2) * 32 ≤ (i 1).val ∧ (i 1).val < win7_3.index t (1 : Fin 2) * 32 + 32; omega

/-- THE ARRAY the region leaves: X · W + the bias row spread over the rows. -/
theorem value (V : (c : Dev nD) → (b : Ref sig .tc) → Buf (Elt Ideal) ((c : Thread nD τ).loc b)) (c : Dev nD) :
    (dat7 (F := Ideal) V c).arrAt 3 cfg7.N = Cert.Stages.linOut (F := Ideal) (V c main_v99) (V c main_arg6) (V c main_v100) :=
  (dat7 (F := Ideal) V c).arrAt_eq_of_cover 3 (Cert.Stages.linOut (F := Ideal) (V c main_v99) (V c main_arg6) (V c main_v100))
    (fun t _ => flushed_eq V c t) cover

end Cert.KernelIdeal.Region7

end
-- ==== Proof.lean ====
/-
  A three-layer graph convolution on 80000 nodes and 1280000 edges.  From the edge list: the degree
  d(v) = 2 + #{edges into v}, the per-edge weight d(src)^(-1/2) · d(dst)^(-1/2), the self-loop weight 2 · d^(-1/2) · d^(-1/2).
  Then h0 = x · W_pre + b_pre; three times g = h · Ws[l], a = the sum over the edges into each node of the source's row of
  g times the edge's weight, h ← leaky((a + g · self-loop weight) + bs[l]) with leaky t = t if t ≥ 0, else 0.01 · t; and the
  result h · W_post + b_post.

  The kernel computes the dense steps in eight pipelined regions over row tiles of 4000 nodes (five products with a bias
  row, the inner three with a bias of zeros; three rectified combinations) and everything that follows the edges on the
  host, between the regions; the reference computes all of it on the host.  At the extended reals the two agree with no
  finiteness assumption: a row tile's product into a zero accumulator, rounded to bf16 on the way in (the identity
  there), is those rows of the whole product; a + 0 = a; the combination is pointwise; a vector cast to a row or a column
  is that vector spread along the new axis; and the host operations between the regions are the reference's own, in the
  same order, applied to equal values.  The regions' values are Proof/Region0 … Region7, the walk through the seventeen
  boundaries of the kernel's @main Proof/Chain0 … Chain4, the reference's fold of its 150 operations Proof/RefValue, and
  both sides are stated in the vocabulary of Proof/Stages.  The ideal pass rewrote nothing, so `preserves` is `True`.
-/
import proofs.«115261_j72756745994565_1_alg».proof.Defs
import proofs.«115261_j72756745994565_1_alg».proof.Proof.Gen.Kernel
import proofs.«115261_j72756745994565_1_alg».proof.Proof.Gen.Kernel.Skeleton
import proofs.«115261_j72756745994565_1_alg».proof.Proof.Gen.Kernel.Launch
import proofs.«115261_j72756745994565_1_alg».proof.Proof.Gen.Kernel.Points
import proofs.«115261_j72756745994565_1_alg».proof.Proof.Gen.Kernel.Frame
import proofs.«115261_j72756745994565_1_alg».proof.Proof.Gen.KernelIdeal
import proofs.«115261_j72756745994565_1_alg».proof.Proof.Gen.KernelIdeal.Skeleton
import proofs.«115261_j72756745994565_1_alg».proof.Proof.Gen.KernelIdeal.Launch
import proofs.«115261_j72756745994565_1_alg».proof.Proof.Gen.KernelIdeal.Points
import proofs.«115261_j72756745994565_1_alg».proof.Proof.Gen.KernelIdeal.Frame
import proofs.«115261_j72756745994565_1_alg».proof.Proof.Gen.ReferenceIdeal
import proofs.«115261_j72756745994565_1_alg».proof.Proof.Gen.Pre_finite_inputs
import proofs.«115261_j72756745994565_1_alg».proof.Proof.KernelRun
import proofs.«115261_j72756745994565_1_alg».proof.Proof.RefRun
import proofs.«115261_j72756745994565_1_alg».proof.Proof.RefValue
import proofs.«115261_j72756745994565_1_alg».proof.Proof.Chain4
import proofs.«115261_j72756745994565_1_alg».proof.Proof.Region0
import proofs.«115261_j72756745994565_1_alg».proof.Proof.Region1
import proofs.«115261_j72756745994565_1_alg».proof.Proof.Region2
import proofs.«115261_j72756745994565_1_alg».proof.Proof.Region3
import proofs.«115261_j72756745994565_1_alg».proof.Proof.Region4
import proofs.«115261_j72756745994565_1_alg».proof.Proof.Region5
import proofs.«115261_j72756745994565_1_alg».proof.Proof.Region6
import proofs.«115261_j72756745994565_1_alg».proof.Proof.Region7
import Idealize.ShloMosaic.Adequacy
import Idealize.ShloMosaic.Init

noncomputable section

namespace Cert.Proof

open Idealize.ShloMosaic Idealize.ShloMosaic.TcCoe Idealize.SL.Sem

/-- The eight regions' values, one per region. -/
theorem regionValues : Cert.KernelIdeal.Chain.RegionValues :=
  ⟨Cert.KernelIdeal.Region0.value, Cert.KernelIdeal.Region1.value, Cert.KernelIdeal.Region2.value, Cert.KernelIdeal.Region3.value,
   Cert.KernelIdeal.Region4.value, Cert.KernelIdeal.Region5.value, Cert.KernelIdeal.Region6.value, Cert.KernelIdeal.Region7.value⟩

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the network's result of the kernel's launch arguments in the result buffer: the kernel's by the
    walk through its boundaries, the reference's by its fold read one operation at a time, the arguments agreeing. -/
theorem algebraic : Cert.algebraic_KernelIdeal_ReferenceIdeal := by
  intro m ρ m' ρ' _ hagree
  refine ⟨fun c => Cert.Stages.out (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Chain.result m ρ c regionValues), (h c).2⟩)
      (Cert.KernelIdeal.Run.run_named m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.res_eq, (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
   frame_k, frame_ki, frame_ri, preserves, algebraic⟩

end Cert.Proof

end
